-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S128 .f32) (main_arg14 : FVec F S128 .f32) (main_arg15 : FVec F S128 .f32) (main_arg16 : FVec F S128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S800000x1 : Shape := ⟨2, ![800000, 1]⟩
abbrev S800000x256 : Shape := ⟨2, ![800000, 256]⟩
abbrev S200x1x128 : Shape := ⟨3, ![200, 1, 128]⟩
abbrev S4000x128 : Shape := ⟨2, ![4000, 128]⟩
abbrev S4000x256 : Shape := ⟨2, ![4000, 256]⟩
abbrev S1x1x128 : Shape := ⟨3, ![1, 1, 128]⟩
abbrev S10x1x128 : Shape := ⟨3, ![10, 1, 128]⟩

abbrev nBuf : Space → Nat
  | .hbm => 103
  | .vmem => 64
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S50000x128, .f32⟩
  | .hbm, ⟨23, _⟩ => ⟨S50000x256, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x256, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S200x1x128, .f32⟩
  | .hbm, ⟨47, _⟩ => ⟨S200x1x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S10x1x128, .f32⟩
  | .hbm, ⟨66, _⟩ => ⟨S10x1x128, .f32⟩
  | .hbm, ⟨67, _⟩ => ⟨S_, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S50000x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S_, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S_, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S800000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x256, .f32⟩
  | .local _ .vmem, ⟨13, _⟩ => ⟨S5000x256, .f32⟩
  | .local _ .vmem, ⟨14, _⟩ => ⟨S5000x128, .f32⟩
  | .local _ .vmem, ⟨15, _⟩ => ⟨S5000x128, .f32⟩
  | .local _ .vmem, ⟨16, _⟩ => ⟨S4000x128, .f32⟩
  | .local _ .vmem, ⟨17, _⟩ => ⟨S4000x128, .f32⟩
  | .local _ .vmem, ⟨18, _⟩ => ⟨S4000x256, .f32⟩
  | .local _ .vmem, ⟨19, _⟩ => ⟨S4000x256, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S1x1x128, .f32⟩
  | .local _ .vmem, ⟨41, _⟩ => ⟨S1x1x128, .f32⟩
  | .local _ .vmem, ⟨42, _⟩ => ⟨S1x1x128, .f32⟩
  | .local _ .vmem, ⟨43, _⟩ => ⟨S1x1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S4000x128, .f32⟩
  | .local _ .vmem, ⟨55, _⟩ => ⟨S4000x128, .f32⟩
  | .local _ .vmem, ⟨56, _⟩ => ⟨S4000x128, .f32⟩
  | .local _ .vmem, ⟨57, _⟩ => ⟨S4000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S4000x128, .f32⟩
  | .local _ .vmem, ⟨63, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev main_v4_2 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_1 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20_0 : Ref sig .tc := ⟨.hbm, 44, rfl⟩
abbrev main_v20_1 : Ref sig .tc := ⟨.hbm, 45, rfl⟩
abbrev main_v20_2 : Ref sig .tc := ⟨.hbm, 46, rfl⟩
abbrev main_v20_3 : Ref sig .tc := ⟨.hbm, 47, rfl⟩
abbrev main_v21 : Ref sig .tc := ⟨.hbm, 48, rfl⟩
abbrev main_v22 : Ref sig .tc := ⟨.hbm, 49, rfl⟩
abbrev main_cst : Ref sig .tc := ⟨.hbm, 50, rfl⟩
abbrev main_v23 : Ref sig .tc := ⟨.hbm, 51, rfl⟩
abbrev main_v24 : Ref sig .tc := ⟨.hbm, 52, rfl⟩
abbrev main_cst_3 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33_0 : Ref sig .tc := ⟨.hbm, 64, rfl⟩
abbrev main_v33_1 : Ref sig .tc := ⟨.hbm, 65, rfl⟩
abbrev main_v33_2 : Ref sig .tc := ⟨.hbm, 66, rfl⟩
abbrev main_cst_6 : Ref sig .tc := ⟨.hbm, 67, rfl⟩
abbrev main_v34 : Ref sig .tc := ⟨.hbm, 68, rfl⟩
abbrev main_cst_7 : Ref sig .tc := ⟨.hbm, 69, rfl⟩
abbrev main_v35 : Ref sig .tc := ⟨.hbm, 70, rfl⟩
abbrev main_cst_8 : Ref sig .tc := ⟨.hbm, 71, rfl⟩
abbrev main_v36 : Ref sig .tc := ⟨.hbm, 72, rfl⟩
abbrev main_cst_9 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩
abbrev main_cst_11 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_12 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_13 : Ref sig .tc := ⟨.hbm, 89, rfl⟩
abbrev main_v49 : Ref sig .tc := ⟨.hbm, 90, rfl⟩
abbrev main_v50 : Ref sig .tc := ⟨.hbm, 91, rfl⟩
abbrev main_cst_14 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_15 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg6_1 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg6_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem3_0 : DmaSem sig := 49
abbrev cc3_sem4_0 : DmaSem sig := 50
abbrev cc3_sem5_0 : DmaSem sig := 51
abbrev cc3_sem6_0 : DmaSem sig := 52
abbrev cc3_sem6_1 : DmaSem sig := 53
abbrev cc4_sem0_0 : DmaSem sig := 54
abbrev cc4_sem0_1 : DmaSem sig := 55
abbrev cc4_sem1_0 : DmaSem sig := 56
abbrev cc4_sem1_1 : DmaSem sig := 57
abbrev cc4_sem2_0 : DmaSem sig := 58
abbrev cc4_sem3_0 : DmaSem sig := 59
abbrev cc4_sem4_0 : DmaSem sig := 60
abbrev cc4_sem5_0 : DmaSem sig := 61
abbrev cc4_sem6_0 : DmaSem sig := 62
abbrev cc4_sem6_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x256_S5000x128_0_0 : ∀ a, (![0, 0] : Fin 2 → Nat) a + S5000x128.size a ≤ S5000x256.size a
  inb_S5000x256_S5000x128_0_128 : ∀ a, (![0, 128] : Fin 2 → Nat) a + S5000x128.size a ≤ S5000x256.size a
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  inb_S4000x256_S4000x128_0_0 : ∀ a, (![0, 0] : Fin 2 → Nat) a + S4000x128.size a ≤ S4000x256.size a
  shapeCasts_S4000x128_S4000x128 : S4000x128.ShapeCasts S4000x128
  inb_S4000x256_S4000x128_0_128 : ∀ a, (![0, 128] : Fin 2 → Nat) a + S4000x128.size a ≤ S4000x256.size a
  reduces_S4000x128_S128 : S4000x128.Reduces [0] S128
  shapeCasts_S128_S1x1x128 : S128.ShapeCasts S1x1x128
  inb_S1x1x128_S1x1x128_0_0_0 : ∀ a, (![0, 0, 0] : Fin 3 → Nat) a + S1x1x128.size a ≤ S1x1x128.size a
  h_S1x1x128 : 0 < S1x1x128.numel
  bcast_S_S800000x128 : S_.BroadcastsInDim S800000x128 (![] : Fin 0 → Fin S800000x128.rank)
  bcast_S_S50000x128 : S_.BroadcastsInDim S50000x128 (![] : Fin 0 → Fin S50000x128.rank)
  shapeCasts_S5000x128_S5000x128 : S5000x128.ShapeCasts S5000x128
  reduces_S5000x128_S128 : S5000x128.Reduces [0] S128
  reducesTo_S200x1x128_S1x128_d0 : S200x1x128.ReducesTo [0] S1x128
  h_S_ : 0 < S_.numel
  reducesTo_S10x1x128_S1x128_d0 : S10x1x128.ReducesTo [0] S1x128
  bcast_S_S1x128 : S_.BroadcastsInDim S1x128 (![] : Fin 0 → Fin S1x128.rank)
  dot_S5000x128_S128x128_S5000x128_1_1_0_0_n_n_wf : DotDims.WF S5000x128 S128x128 S5000x128 [1] [1] [0] [0] [] []
  gather_S50000x256_S800000x1_S800000x256_1_0_n_n_0_1_1256_wf : GatherDims.WF S50000x256 S800000x1 S800000x256 [1] [0] [] [0] [] 1 ![1, 256]
  gather_S50000x128_S800000x1_S800000x128_1_0_n_n_0_1_1128_wf : GatherDims.WF S50000x128 S800000x1 S800000x128 [1] [0] [] [0] [] 1 ![1, 128]
  dot_S4000x128_S128x128_S4000x128_1_1_0_0_n_n_wf : DotDims.WF S4000x128 S128x128 S4000x128 [1] [1] [0] [0] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x256.size a ≤ S50000x256.size a
  hwx0_10 : ∀ i : grid0.Coords, EltTy.bits .f32 = 32 ∨ (Rect.block (s := S50000x256) S5000x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S50000x128.size a
  hwx0_11 : ∀ i : grid0.Coords, EltTy.bits .f32 = 32 ∨ (Rect.block (s := S50000x128) S5000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S800000x256.size a
  hwx1_1 : ∀ i : grid1.Coords, EltTy.bits .f32 = 32 ∨ (Rect.block (s := S800000x256) S4000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S800000x128.size a
  hwx1_2 : ∀ i : grid1.Coords, EltTy.bits .f32 = 32 ∨ (Rect.block (s := S800000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S800000x128.size a
  hwx1_5 : ∀ i : grid1.Coords, EltTy.bits .f32 = 32 ∨ (Rect.block (s := S800000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S800000x128.size a
  hwx1_6 : ∀ i : grid1.Coords, EltTy.bits .f32 = 32 ∨ (Rect.block (s := S800000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S200x1x128.size a
  hwx1_7 : ∀ i : grid1.Coords, EltTy.bits .f32 = 32 ∨ (Rect.block (s := S200x1x128) S1x1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x128.size a ≤ S200x1x128.size a
  hwx1_8 : ∀ i : grid1.Coords, EltTy.bits .f32 = 32 ∨ (Rect.block (s := S200x1x128) S1x1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S10x1x128.size a
  hwx2_4 : ∀ i : grid2.Coords, EltTy.bits .f32 = 32 ∨ (Rect.block (s := S10x1x128) S1x1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S10x1x128.size a
  hwx2_5 : ∀ i : grid2.Coords, EltTy.bits .f32 = 32 ∨ (Rect.block (s := S10x1x128) S1x1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S800000x128.size a
  hwx4_0 : ∀ i : grid4.Coords, EltTy.bits .f32 = 32 ∨ (Rect.block (s := S800000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S800000x128.size a
  hwx4_1 : ∀ i : grid4.Coords, EltTy.bits .f32 = 32 ∨ (Rect.block (s := S800000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S800000x128.size a
  hwx4_6 : ∀ i : grid4.Coords, EltTy.bits .f32 = 32 ∨ (Rect.block (s := S800000x128) S4000x128.size (cc4_transform_6 i) (hinb4_6 i)).WholeWords (EltTy.packing .f32)

variable [Facts₀]

def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S5000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S5000x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v20_1) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20_2) S1x1x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v20_3) S1x1x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v4_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v33_1) S1x1x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v33_2) S1x1x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v33_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v48) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v20_0) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v58) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v59) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S800000x1 : Shape := ⟨2, ![800000, 1]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S800000x128, .f32⟩
  | 2 => ⟨S800000, .i32⟩
  | 3 => ⟨S800000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S128x128, .f32⟩
  | 19 => ⟨S50000x128, .f32⟩
  | 20 => ⟨S1x128, .f32⟩
  | 21 => ⟨S50000x128, .f32⟩
  | 22 => ⟨S50000x128, .f32⟩
  | 23 => ⟨S128x128, .f32⟩
  | 24 => ⟨S50000x128, .f32⟩
  | 25 => ⟨S1x128, .f32⟩
  | 26 => ⟨S50000x128, .f32⟩
  | 27 => ⟨S50000x128, .f32⟩
  | 28 => ⟨S128x128, .f32⟩
  | 29 => ⟨S50000x128, .f32⟩
  | 30 => ⟨S1x128, .f32⟩
  | 31 => ⟨S50000x128, .f32⟩
  | 32 => ⟨S50000x128, .f32⟩
  | 33 => ⟨S128x128, .f32⟩
  | 34 => ⟨S50000x128, .f32⟩
  | 35 => ⟨S1x128, .f32⟩
  | 36 => ⟨S50000x128, .f32⟩
  | 37 => ⟨S50000x128, .f32⟩
  | 38 => ⟨S128x128, .f32⟩
  | 39 => ⟨S800000x128, .f32⟩
  | 40 => ⟨S1x128, .f32⟩
  | 41 => ⟨S800000x128, .f32⟩
  | 42 => ⟨S800000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x128, .f32⟩
  | 62 => ⟨S800000x128, .f32⟩
  | 63 => ⟨S800000x128, .f32⟩
  | 64 => ⟨S800000x128, .f32⟩
  | 65 => ⟨S_, .f32⟩
  | 66 => ⟨S800000x128, .f32⟩
  | 67 => ⟨S800000x128, .f32⟩
  | 68 => ⟨S_, .f32⟩
  | 69 => ⟨S800000x128, .f32⟩
  | 70 => ⟨S800000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S_, .f32⟩
  | 86 => ⟨S50000x128, .f32⟩
  | 87 => ⟨S800000x1, .i32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S50000x128, .f32⟩
  | 94 => ⟨S_, .f32⟩
  | 95 => ⟨S128, .f32⟩
  | 96 => ⟨S_, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S800000x128, .f32⟩
  | 6 => ⟨S800000x128, .f32⟩
  | 7 => ⟨S800000x128, .f32⟩
  | 8 => ⟨S_, .f32⟩
  | 9 => ⟨S128, .f32⟩
  | 10 => ⟨S_, .f32⟩
  | 11 => ⟨S128, .f32⟩
  | 12 => ⟨S128, .f32⟩
  | 13 => ⟨S1x128, .f32⟩
  | 14 => ⟨S800000x128, .f32⟩
  | 15 => ⟨S800000x128, .f32⟩
  | 16 => ⟨S1x128, .f32⟩
  | 17 => ⟨S800000x128, .f32⟩
  | 18 => ⟨S800000x128, .f32⟩
  | 19 => ⟨S_, .f32⟩
  | 20 => ⟨S128, .f32⟩
  | 21 => ⟨S128, .f32⟩
  | 22 => ⟨S128, .f32⟩
  | 23 => ⟨S1x128, .f32⟩
  | 24 => ⟨S800000x128, .f32⟩
  | 25 => ⟨S800000x128, .f32⟩
  | 26 => ⟨S1x128, .f32⟩
  | 27 => ⟨S800000x128, .f32⟩
  | 28 => ⟨S800000x128, .f32⟩
  | 29 => ⟨S_, .f32⟩
  | 30 => ⟨S800000x128, .f32⟩
  | 31 => ⟨S800000x128, .f32⟩
  | 32 => ⟨S50000x128, .f32⟩
  | 33 => ⟨S800000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_c_0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_1 : Ref sig .tc := ⟨.hbm, 52, rfl⟩
abbrev main_v32 : Ref sig .tc := ⟨.hbm, 53, rfl⟩
abbrev main_v33 : Ref sig .tc := ⟨.hbm, 54, rfl⟩
abbrev main_c_2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_c_4 : Ref sig .tc := ⟨.hbm, 71, rfl⟩
abbrev main_v47 : Ref sig .tc := ⟨.hbm, 72, rfl⟩
abbrev main_v48 : Ref sig .tc := ⟨.hbm, 73, rfl⟩
abbrev main_c_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_6 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_11 : Ref sig .tc := ⟨.hbm, 103, rfl⟩
abbrev main_v72 : Ref sig .tc := ⟨.hbm, 104, rfl⟩
abbrev main_cst_12 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_13 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call0_cst : Ref sig .tc := ⟨.hbm, 124, rfl⟩
abbrev main_call0_v0 : Ref sig .tc := ⟨.hbm, 125, rfl⟩
abbrev main_v90 : Ref sig .tc := ⟨.hbm, 126, rfl⟩
abbrev main_cst_14 : Ref sig .tc := ⟨.hbm, 127, rfl⟩
abbrev main_v91 : Ref sig .tc := ⟨.hbm, 128, rfl⟩
abbrev main_cst_15 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_16 : Ref sig .tc := ⟨.hbm, 136, rfl⟩
abbrev main_v98 : Ref sig .tc := ⟨.hbm, 137, rfl⟩
abbrev main_cst_17 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_18 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_call1_cst : Ref sig .tc := ⟨.hbm, 157, rfl⟩
abbrev main_call1_v0 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  reducesTo_S800000x128_S128_d0 : S800000x128.ReducesTo [0] S128
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The layer both programs compute, written once as plain mathematics on the extended reals, index by index.

  Nodes carry rows of 128 features (50000 of them), edges too (800000). With the five affine maps
  x ↦ x Wᵀ + b (written `linT`), an edge `t` with endpoints `src t`, `dst t` gets
      e t = D h (src t) + E h (dst t) + C (edge t),      σ t = 1 / (1 + exp (− e t)),
  every node `p` gets the gated mean
      hRaw p = A h p + (Σ_{t → p} B h (src t) · σ t) / (Σ_{t → p} σ t + ε),
  and both `hRaw` and `e` are then normalised column by column over all rows (batch statistics), passed
  through max(·, 0) and added to the input they came from.

  An endpoint is read the way array indexing reads it: a negative index has the row count added once, and
  the result is clamped into the valid rows (`rowSel`). The sums over the edges arriving at a node are the
  host's scatter-add into a zero array (`Ideal.hostScatterAdd`); which edges arrive where is decided by the
  scatter's dimension record `d`, the same on both sides, and is never opened here.

  The column normalisation comes in two spellings. `bnTwo` centres first and averages the squared
  deviations, then divides by the root; `bnOne` takes the mean of squares minus the squared mean, floors
  it at zero, and multiplies by the reciprocal root. On real (finite) columns they agree.
-/
import Idealize.ShloMosaic.PureOps.Ideal
import Idealize.ShloMosaic.Lib.ValueIdx

noncomputable section

namespace Cert.Gnn

open Idealize.ShloMosaic Idealize.ShloMosaic.ValueIdx

/-- A matrix of extended reals, indexed the way the programs index a rank-2 array. -/
abbrev Mat (n m : Nat) := (⟨2, ![n, m]⟩ : Shape).Idx → EReal
/-- A vector of extended reals. -/
abbrev Vec1 (m : Nat) := (⟨1, ![m]⟩ : Shape).Idx → EReal
/-- A vector of 32-bit integers (the edge endpoints). -/
abbrev IVec1 (m : Nat) := (⟨1, ![m]⟩ : Shape).Idx → BitVec 32

/-- The small constant added to a node's gate total before dividing (the float nearest 10⁻⁶). -/
def epsNorm : EReal := Ideal.ofBits .f32 0x358637BD#32
/-- The small constant added to a column's variance under the root (the float nearest 10⁻⁵). -/
def epsBn : EReal := Ideal.ofBits .f32 0x3727C5AC#32
/-- The number of nodes, as the float the programs divide by. -/
def cntN : EReal := Ideal.ofBits .f32 0x47435000#32
/-- The number of edges, as the float the programs divide by. -/
def cntE : EReal := Ideal.ofBits .f32 0x49435000#32

/-- `x Wᵀ + b` at row `p`, column `q`: the sum over `k` of `x p k · W q k`, plus `b q`. -/
def linT {n : Nat} (X : Mat n 128) (W : Mat 128 128) (b : Vec1 128) (p : Fin n) (q : Fin 128) : EReal :=
  (∑ k : Fin 128, X (ix2 p k) * W (ix2 q k)) + b (ix1 q)

/-- An endpoint as array indexing normalises it: a negative value has 50000 added once. -/
def normIdx (v : BitVec 32) : BitVec 32 :=
  Scalar.select (IntOp.cmpi .slt v 0#32) (IntOp.addi v 50000#32) v

/-- The node row an endpoint selects: the normalised value read signed, clamped into 0 … 49999. -/
def rowSel (v : BitVec 32) : Fin 50000 := ⟨min (normIdx v).toInt.toNat 49999, by omega⟩

/-- Column `q`'s mean over the rows. -/
def colMean {n : Nat} (cnt : EReal) (X : Fin n → Fin 128 → EReal) (q : Fin 128) : EReal :=
  Ideal.div (∑ p : Fin n, X p q) cnt

/-- Column `q`'s variance as the mean of the squared deviations from the mean. -/
def varTwo {n : Nat} (cnt : EReal) (X : Fin n → Fin 128 → EReal) (q : Fin 128) : EReal :=
  Ideal.div (∑ p : Fin n, (X p q - colMean cnt X q) * (X p q - colMean cnt X q)) cnt

/-- Column `q`'s variance as the mean of the squares minus the squared mean, floored at zero. -/
def varOne {n : Nat} (cnt : EReal) (X : Fin n → Fin 128 → EReal) (q : Fin 128) : EReal :=
  max (Ideal.div (∑ p : Fin n, X p q * X p q) cnt - colMean cnt X q * colMean cnt X q) 0

/-- Normalise, scale and shift, floor at zero, add the residual: dividing by the root of `varTwo + ε`. -/
def bnTwo {n : Nat} (cnt : EReal) (X : Fin n → Fin 128 → EReal) (g b : Vec1 128) (res : Mat n 128)
    (p : Fin n) (q : Fin 128) : EReal :=
  res (ix2 p q) + max (Ideal.div (g (ix1 q) * (X p q - colMean cnt X q)) (Ideal.sqrt (varTwo cnt X q + epsBn)) + b (ix1 q)) 0

/-- The same with the other spelling: multiplying by the reciprocal root of `varOne + ε`. -/
def bnOne {n : Nat} (cnt : EReal) (X : Fin n → Fin 128 → EReal) (g b : Vec1 128) (res : Mat n 128)
    (p : Fin n) (q : Fin 128) : EReal :=
  res (ix2 p q) + max (g (ix1 q) * (X p q - colMean cnt X q) * Ideal.rsqrt (varOne cnt X q + epsBn) + b (ix1 q)) 0

section Layer

variable (d : ScatterDims (⟨2, ![50000, 128]⟩ : Shape) (⟨2, ![800000, 1]⟩ : Shape) (⟨2, ![800000, 128]⟩ : Shape))
variable (feat : Mat 50000 128) (ef : Mat 800000 128) (src dst : IVec1 800000)
variable (WA : Mat 128 128) (bA : Vec1 128) (WB : Mat 128 128) (bB : Vec1 128) (WC : Mat 128 128) (bC : Vec1 128)
variable (WD : Mat 128 128) (bD : Vec1 128) (WE : Mat 128 128) (bE : Vec1 128)

/-- The edge pre-activation: `D h (src t) + E h (dst t) + C (edge t)`. -/
def eVal (t : Fin 800000) (q : Fin 128) : EReal :=
  linT feat WD bD (rowSel (src (ix1 t))) q + linT feat WE bE (rowSel (dst (ix1 t))) q + linT ef WC bC t q

/-- The gate `σ = 1 / (1 + exp (−e))`. -/
def gate (t : Fin 800000) (q : Fin 128) : EReal :=
  Ideal.logistic (eVal feat ef src dst WC bC WD bD WE bE t q)

/-- The gated message `B h (src t) · σ t`. -/
def msg (t : Fin 800000) (q : Fin 128) : EReal :=
  linT feat WB bB (rowSel (src (ix1 t))) q * gate feat ef src dst WC bC WD bD WE bE t q

/-- The destination endpoints as the column array the scatter reads its target rows from. -/
def dstCol : (⟨2, ![800000, 1]⟩ : Shape).Idx → BitVec 32 := fun i => dst (ix1 ⟨(i 0).val, idx2_lt0 i⟩)

/-- A row-and-column function as the array the scatter reads its updates from. -/
def asMat {n m : Nat} (U : Fin n → Fin m → EReal) : Mat n m := fun j => U ⟨(j 0).val, idx2_lt0 j⟩ ⟨(j 1).val, idx2_lt1 j⟩

/-- Per node, the sum of the gated messages of the edges arriving there. -/
def sumMsg : Mat 50000 128 :=
  Ideal.hostScatterAdd d (fun _ => (0 : EReal)) (dstCol dst) (asMat (msg feat ef src dst WB bB WC bC WD bD WE bE))

/-- Per node, the sum of the gates of the edges arriving there. -/
def sumGate : Mat 50000 128 :=
  Ideal.hostScatterAdd d (fun _ => (0 : EReal)) (dstCol dst) (asMat (gate feat ef src dst WC bC WD bD WE bE))

/-- The node value before normalisation: `A h p` plus the gated mean of the incoming messages. -/
def hRaw (p : Fin 50000) (q : Fin 128) : EReal :=
  linT feat WA bA p q
    + Ideal.div (sumMsg d feat ef src dst WB bB WC bC WD bD WE bE (ix2 p q))
        (sumGate d feat ef src dst WC bC WD bD WE bE (ix2 p q) + epsNorm)

end Layer

end Cert.Gnn

end
-- ==== Proof.BnConsts.lean ====
/-
  The four float constants of the layer, and the word for one, as the extended reals their bit patterns
  denote. The two counts are the integers 50000 and 800000 exactly; the two small constants are positive
  dyadic rationals (10995116 · 2⁻⁴⁰ and 8796093 · 2⁻⁴³), of which only positivity is used later.
-/
import proofs.«150221_j25598005084171_2_alg».proof.Proof.Spec

noncomputable section

namespace Cert.Gnn

open Idealize.ShloMosaic Idealize.ShloMosaic.ValueIdx

/-- The node count: exponent field 142, significand 2²³ + 4411392 = 12800000, so 12800000 · 2⁻⁸ = 50000. -/
theorem cntN_eq : cntN = ((50000 : ℝ) : EReal) := by
  simp [cntN, Ideal.ofBits, Ideal.ieee, -EReal.coe_mul]; norm_num

/-- The edge count: exponent field 146, the same significand, so 12800000 · 2⁻⁴ = 800000. -/
theorem cntE_eq : cntE = ((800000 : ℝ) : EReal) := by
  simp [cntE, Ideal.ofBits, Ideal.ieee, -EReal.coe_mul]; norm_num

/-- The variance floor is a positive real: 10995116 · 2⁻⁴⁰. -/
theorem epsBn_pos : ∃ ε : ℝ, 0 < ε ∧ epsBn = (ε : EReal) := by
  refine ⟨(10995116 : ℝ) * (2 : ℝ) ^ (-40 : Int), by positivity, ?_⟩
  simp [epsBn, Ideal.ofBits, Ideal.ieee, -EReal.coe_mul]

/-- The gate-total floor is a positive real: 8796093 · 2⁻⁴³. -/
theorem epsNorm_pos : ∃ ε : ℝ, 0 < ε ∧ epsNorm = (ε : EReal) := by
  refine ⟨(8796093 : ℝ) * (2 : ℝ) ^ (-43 : Int), by positivity, ?_⟩
  simp [epsNorm, Ideal.ofBits, Ideal.ieee, -EReal.coe_mul]

/-- The pattern of the float one denotes the real one. -/
theorem ofBits_one : Ideal.ofBits .f32 0x3F800000#32 = 1 := by
  simp [Ideal.ofBits, Ideal.ieee, -EReal.coe_mul]; norm_num

end Cert.Gnn

end
-- ==== Proof.BnLaw.lean ====
/-
  The two spellings of the column normalisation agree on real columns.

  Fix a column of real numbers x₀ … x₍ₙ₋₁₎ with n > 0, mean μ = (Σ x) / n. Then
      (Σ (x − μ)²) / n = (Σ x²) / n − μ²,
  and the common value v is ≥ 0, so flooring it at zero changes nothing. With a positive ε the number
  v + ε is positive, its root s is a nonzero real, dividing by s is multiplying by 1 / s, and the
  reciprocal root of v + ε is that same 1 / s. Nothing is asked of the scale, the shift or the residual:
  the identity "a / s = a · (1 / s)" holds for every extended real a once s is a nonzero real.
-/
import proofs.«150221_j25598005084171_2_alg».proof.Proof.BnConsts
import Mathlib.Algebra.BigOperators.Field
import Mathlib.Tactic

noncomputable section

namespace Cert.Gnn

open Idealize.ShloMosaic Idealize.ShloMosaic.ValueIdx

/-- The inclusion of the reals in the extended reals commutes with finite sums. -/
private theorem coe_sum {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- The variance identity on the reals: the mean squared deviation is the mean square minus the squared mean. -/
private theorem var_identity {n : Nat} (hn : 0 < n) (x : Fin n → ℝ) :
    (∑ p, (x p - (∑ p, x p) * (1 / (n : ℝ))) * (x p - (∑ p, x p) * (1 / (n : ℝ)))) * (1 / (n : ℝ))
      = (∑ p, x p * x p) * (1 / (n : ℝ)) - (∑ p, x p) * (1 / (n : ℝ)) * ((∑ p, x p) * (1 / (n : ℝ))) := by
  have hN : (n : ℝ) ≠ 0 := Nat.cast_ne_zero.mpr (Nat.pos_iff_ne_zero.mp hn)
  set S : ℝ := ∑ p, x p with hS
  set μ : ℝ := S * (1 / (n : ℝ)) with hμ
  have h1 : ∑ p, (x p - μ) * (x p - μ) = (∑ p, x p * x p) - 2 * μ * S + (n : ℝ) * (μ * μ) := by
    have : ∀ p, (x p - μ) * (x p - μ) = x p * x p - 2 * μ * x p + μ * μ := fun p => by ring
    rw [Finset.sum_congr rfl (fun p _ => this p), Finset.sum_add_distrib, Finset.sum_sub_distrib,
      ← Finset.mul_sum, Finset.sum_const, Finset.card_univ, Fintype.card_fin, nsmul_eq_mul]
  rw [h1, hμ]
  field_simp
  ring

/-- The mean squared deviation is not negative. -/
private theorem var_nonneg {n : Nat} (x : Fin n → ℝ) (μ : ℝ) :
    0 ≤ (∑ p, (x p - μ) * (x p - μ)) * (1 / (n : ℝ)) :=
  mul_nonneg (Finset.sum_nonneg (fun p _ => mul_self_nonneg _)) (by positivity)

section Column

variable {n : Nat} (x : Fin n → Fin 128 → ℝ) (q : Fin 128)

/-- The column mean of a real column is the real mean. -/
private theorem colMean_coe (hn : 0 < n) :
    colMean ((n : ℝ) : EReal) (fun p q => ((x p q : ℝ) : EReal)) q
      = (((∑ p, x p q) * (1 / (n : ℝ)) : ℝ) : EReal) := by
  have hN : (n : ℝ) ≠ 0 := Nat.cast_ne_zero.mpr (Nat.pos_iff_ne_zero.mp hn)
  show Ideal.div (∑ p : Fin n, ((x p q : ℝ) : EReal)) ((n : ℝ) : EReal) = _
  rw [Ideal.div_coe hN, ← coe_sum, ← EReal.coe_mul]

/-- The two-pass variance of a real column is the real mean squared deviation. -/
private theorem varTwo_coe (hn : 0 < n) :
    varTwo ((n : ℝ) : EReal) (fun p q => ((x p q : ℝ) : EReal)) q
      = (((∑ p, (x p q - (∑ p, x p q) * (1 / (n : ℝ))) * (x p q - (∑ p, x p q) * (1 / (n : ℝ))))
            * (1 / (n : ℝ)) : ℝ) : EReal) := by
  have hN : (n : ℝ) ≠ 0 := Nat.cast_ne_zero.mpr (Nat.pos_iff_ne_zero.mp hn)
  unfold varTwo
  rw [colMean_coe x q hn]
  show Ideal.div (∑ p : Fin n, (((x p q : ℝ) : EReal) - _) * (((x p q : ℝ) : EReal) - _)) ((n : ℝ) : EReal) = _
  simp only [← EReal.coe_sub, ← EReal.coe_mul]
  rw [Ideal.div_coe hN, ← coe_sum, ← EReal.coe_mul]

/-- The one-pass variance of a real column is the same real number: the floor at zero is not reached. -/
private theorem varOne_coe (hn : 0 < n) :
    varOne ((n : ℝ) : EReal) (fun p q => ((x p q : ℝ) : EReal)) q
      = (((∑ p, (x p q - (∑ p, x p q) * (1 / (n : ℝ))) * (x p q - (∑ p, x p q) * (1 / (n : ℝ))))
            * (1 / (n : ℝ)) : ℝ) : EReal) := by
  have hN : (n : ℝ) ≠ 0 := Nat.cast_ne_zero.mpr (Nat.pos_iff_ne_zero.mp hn)
  unfold varOne
  rw [colMean_coe x q hn]
  show max (Ideal.div (∑ p : Fin n, ((x p q : ℝ) : EReal) * ((x p q : ℝ) : EReal)) ((n : ℝ) : EReal) - _) 0 = _
  simp only [← EReal.coe_mul]
  rw [Ideal.div_coe hN, ← coe_sum, ← EReal.coe_mul, ← EReal.coe_sub,
    ← var_identity hn (fun p => x p q)]
  exact max_eq_left (EReal.coe_nonneg.mpr (var_nonneg (fun p => x p q) _))

end Column

/-- On a positive real the root is a nonzero real and the reciprocal root is its inverse. -/
private theorem sqrt_rsqrt_pos {w : ℝ} (hw : 0 < w) :
    Ideal.sqrt (w : EReal) = ((Real.sqrt w : ℝ) : EReal)
      ∧ Ideal.rsqrt (w : EReal) = (((1 / Real.sqrt w : ℝ)) : EReal) ∧ Real.sqrt w ≠ 0 := by
  refine ⟨?_, ?_, (Real.sqrt_pos.mpr hw).ne'⟩
  · rw [Ideal.sqrt_coe, if_neg (not_lt.mpr hw.le)]
  · rw [Ideal.rsqrt_coe, if_neg (not_lt.mpr hw.le), if_neg hw.ne', one_div]

/-- The two spellings of the normalisation agree on a real column, whatever the scale, shift and residual. -/
theorem bnOne_eq_bnTwo {n : Nat} (hn : 0 < n) (cnt : EReal) (hcnt : cnt = ((n : ℝ) : EReal))
    (X : Fin n → Fin 128 → EReal) (hX : ∀ p q, ∃ r : ℝ, X p q = (r : EReal))
    (g b : Vec1 128) (res : Mat n 128) (p : Fin n) (q : Fin 128) :
    bnOne cnt X g b res p q = bnTwo cnt X g b res p q := by
  choose x hx using hX
  obtain rfl : X = fun p q => ((x p q : ℝ) : EReal) := by funext p q; exact hx p q
  subst hcnt
  obtain ⟨ε, hε, hεeq⟩ := epsBn_pos
  have hv := var_nonneg (fun p => x p q) ((∑ p, x p q) * (1 / (n : ℝ)))
  obtain ⟨h1, h2, h3⟩ := sqrt_rsqrt_pos (add_pos_of_nonneg_of_pos hv hε)
  unfold bnOne bnTwo
  rw [varOne_coe x q hn, varTwo_coe x q hn, hεeq, ← EReal.coe_add, h1, h2, Ideal.div_coe h3]

end Cert.Gnn

end
-- ==== Proof.Finite.lean ====
/-
  Finiteness of the layer's intermediate values.

  When every float input is a real number (neither infinity), so is every entry of the edge
  pre-activation `eVal` and of the node value `hRaw`. Reals are closed under sums and products, hence
  under the affine maps; the gate 1 / (1 + exp (−e)) of a real is a real strictly between 0 and 1; a
  scatter-add into zeros is a finite sum of update entries, so it is real when they are and nonnegative
  when they are; the gate total plus the positive constant ε is then a positive real, and dividing a
  real by a nonzero real gives a real.
-/
import proofs.«150221_j25598005084171_2_alg».proof.Proof.Spec

noncomputable section

namespace Cert.Gnn

open Idealize.ShloMosaic Idealize.ShloMosaic.ValueIdx

/-- Every entry of the family is a real number. -/
def AllReal {ι : Type} (f : ι → EReal) : Prop := ∀ i, ∃ r : ℝ, f i = (r : EReal)

/-- The extended real is a real number. -/
def IsReal (x : EReal) : Prop := ∃ r : ℝ, x = (r : EReal)

/-- The extended real is a nonnegative real number. -/
def IsNNReal (x : EReal) : Prop := ∃ r : ℝ, 0 ≤ r ∧ x = (r : EReal)

theorem IsNNReal.isReal {x : EReal} (h : IsNNReal x) : IsReal x := by
  obtain ⟨r, _, hr⟩ := h; exact ⟨r, hr⟩

theorem isReal_zero : IsReal (0 : EReal) := ⟨0, EReal.coe_zero.symm⟩

theorem isNNReal_zero : IsNNReal (0 : EReal) := ⟨0, le_refl 0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsNNReal.add {x y : EReal} (hx : IsNNReal x) (hy : IsNNReal y) : IsNNReal (x + y) := by
  obtain ⟨a, ha, rfl⟩ := hx; obtain ⟨b, hb, rfl⟩ := hy
  exact ⟨a + b, add_nonneg ha hb, (EReal.coe_add a b).symm⟩

/-- A finite sum of reals is a real. -/
theorem IsReal.sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of nonnegative reals is a nonnegative real. -/
theorem IsNNReal.sum {ι : Type} (s : Finset ι) (f : ι → EReal) (h : ∀ i ∈ s, IsNNReal (f i)) :
    IsNNReal (∑ i ∈ s, f i) := by
  classical
  induction s using Finset.induction_on with
  | empty => simpa using isNNReal_zero
  | insert a s ha ih =>
    rw [Finset.sum_insert ha]
    exact (h a (Finset.mem_insert_self a s)).add (ih fun i hi => h i (Finset.mem_insert_of_mem hi))

/-- The affine map `x Wᵀ + b` of real data is real. -/
theorem linT_real {n : Nat} {X : Mat n 128} {W : Mat 128 128} {b : Vec1 128}
    (hX : AllReal X) (hW : AllReal W) (hb : AllReal b) (p : Fin n) (q : Fin 128) :
    IsReal (linT X W b p q) := by
  unfold linT
  exact (IsReal.sum _ _ fun k _ => IsReal.mul (hX _) (hW _)).add (hb _)

/-- The gate of a real is a real strictly between 0 and 1; in particular a nonnegative real. -/
theorem logistic_nnreal {x : EReal} (hx : IsReal x) : IsNNReal (Ideal.logistic x) := by
  obtain ⟨r, rfl⟩ := hx
  refine ⟨(1 + Real.exp (-r))⁻¹, ?_, Ideal.logistic_coe r⟩
  have : (0 : ℝ) < 1 + Real.exp (-r) := by positivity
  exact (inv_pos.mpr this).le

/-- The constant added to the gate total is a positive real. -/
private theorem epsNorm_pos' : ∃ ε : ℝ, 0 < ε ∧ epsNorm = (ε : EReal) := by
  refine ⟨8796093 * (2 ^ 43)⁻¹, by positivity, ?_⟩
  simp [epsNorm, Ideal.ofBits, Ideal.ieee, -EReal.coe_mul]

section Layer

variable (d : ScatterDims (⟨2, ![50000, 128]⟩ : Shape) (⟨2, ![800000, 1]⟩ : Shape) (⟨2, ![800000, 128]⟩ : Shape))
variable (feat : Mat 50000 128) (ef : Mat 800000 128) (src dst : IVec1 800000)
variable (WA : Mat 128 128) (bA : Vec1 128) (WB : Mat 128 128) (bB : Vec1 128) (WC : Mat 128 128) (bC : Vec1 128)
variable (WD : Mat 128 128) (bD : Vec1 128) (WE : Mat 128 128) (bE : Vec1 128)

/-- Every edge pre-activation is a real number when the inputs it reads are. -/
theorem eVal_real (hfeat : AllReal feat) (hef : AllReal ef) (hWC : AllReal WC) (hbC : AllReal bC)
    (hWD : AllReal WD) (hbD : AllReal bD) (hWE : AllReal WE) (hbE : AllReal bE) :
    ∀ t q, ∃ r : ℝ, eVal feat ef src dst WC bC WD bD WE bE t q = (r : EReal) := by
  intro t q
  unfold eVal
  exact ((linT_real hfeat hWD hbD _ q).add (linT_real hfeat hWE hbE _ q)).add (linT_real hef hWC hbC t q)

/-- Every gate is a nonnegative real. -/
theorem gate_nnreal (hfeat : AllReal feat) (hef : AllReal ef) (hWC : AllReal WC) (hbC : AllReal bC)
    (hWD : AllReal WD) (hbD : AllReal bD) (hWE : AllReal WE) (hbE : AllReal bE) (t : Fin 800000) (q : Fin 128) :
    IsNNReal (gate feat ef src dst WC bC WD bD WE bE t q) := by
  unfold gate
  exact logistic_nnreal (eVal_real feat ef src dst WC bC WD bD WE bE hfeat hef hWC hbC hWD hbD hWE hbE t q)

/-- Every gated message is a real. -/
theorem msg_real (hfeat : AllReal feat) (hef : AllReal ef) (hWB : AllReal WB) (hbB : AllReal bB)
    (hWC : AllReal WC) (hbC : AllReal bC)
    (hWD : AllReal WD) (hbD : AllReal bD) (hWE : AllReal WE) (hbE : AllReal bE) (t : Fin 800000) (q : Fin 128) :
    IsReal (msg feat ef src dst WB bB WC bC WD bD WE bE t q) := by
  unfold msg
  exact (linT_real hfeat hWB hbB _ q).mul
    (gate_nnreal feat ef src dst WC bC WD bD WE bE hfeat hef hWC hbC hWD hbD hWE hbE t q).isReal

/-- The message total at a node is a finite sum of messages, hence real. -/
theorem sumMsg_real (hfeat : AllReal feat) (hef : AllReal ef) (hWB : AllReal WB) (hbB : AllReal bB)
    (hWC : AllReal WC) (hbC : AllReal bC)
    (hWD : AllReal WD) (hbD : AllReal bD) (hWE : AllReal WE) (hbE : AllReal bE)
    (i : (⟨2, ![50000, 128]⟩ : Shape).Idx) :
    IsReal (sumMsg d feat ef src dst WB bB WC bC WD bD WE bE i) := by
  unfold sumMsg Ideal.hostScatterAdd
  refine isReal_zero.add (IsReal.sum _ _ fun j _ => ?_)
  exact msg_real feat ef src dst WB bB WC bC WD bD WE bE hfeat hef hWB hbB hWC hbC hWD hbD hWE hbE _ _

/-- The gate total at a node is a finite sum of gates, hence a nonnegative real. -/
theorem sumGate_nnreal (hfeat : AllReal feat) (hef : AllReal ef)
    (hWC : AllReal WC) (hbC : AllReal bC)
    (hWD : AllReal WD) (hbD : AllReal bD) (hWE : AllReal WE) (hbE : AllReal bE)
    (i : (⟨2, ![50000, 128]⟩ : Shape).Idx) :
    IsNNReal (sumGate d feat ef src dst WC bC WD bD WE bE i) := by
  unfold sumGate Ideal.hostScatterAdd
  refine isNNReal_zero.add (IsNNReal.sum _ _ fun j _ => ?_)
  exact gate_nnreal feat ef src dst WC bC WD bD WE bE hfeat hef hWC hbC hWD hbD hWE hbE _ _

/-- Every node value before normalisation is a real number when the inputs are. -/
theorem hRaw_real (hfeat : AllReal feat) (hef : AllReal ef) (hWA : AllReal WA) (hbA : AllReal bA)
    (hWB : AllReal WB) (hbB : AllReal bB) (hWC : AllReal WC) (hbC : AllReal bC)
    (hWD : AllReal WD) (hbD : AllReal bD) (hWE : AllReal WE) (hbE : AllReal bE) :
    ∀ p q, ∃ r : ℝ, hRaw d feat ef src dst WA bA WB bB WC bC WD bD WE bE p q = (r : EReal) := by
  intro p q
  unfold hRaw
  obtain ⟨g, hg0, hg⟩ := sumGate_nnreal d feat ef src dst WC bC WD bD WE bE hfeat hef hWC hbC hWD hbD hWE hbE (ix2 p q)
  obtain ⟨ε, hε0, hε⟩ := epsNorm_pos'
  have hden : (g + ε : ℝ) ≠ 0 := (add_pos_of_nonneg_of_pos hg0 hε0).ne'
  rw [hg, hε, ← EReal.coe_add, Ideal.div_coe hden]
  exact (linT_real hfeat hWA hbA p q).add
    ((sumMsg_real d feat ef src dst WB bB WC bC WD bD WE bE hfeat hef hWB hbB hWC hbC hWD hbD hWE hbE (ix2 p q)).mul ⟨_, rfl⟩)

end Layer

end Cert.Gnn

end
-- ==== Proof.PreReal.lean ====
/-
  The precondition read back: every float input is a real number.

  The predicate is the conjunction, over the sixteen float arrays, of "every entry's absolute value is
  below +infinity". A conjunction of one-bit words is 1 exactly when both words are; an "all" (a reduction
  by conjunction into a single result) that is 1 had a 1 at every entry; the pattern 0x7F800000 denotes the
  top element ⊤; and an extended real whose absolute value max(x, −x) lies strictly below ⊤ is neither ⊤
  nor ⊥, that is, a real.
-/
import proofs.«150221_j25598005084171_2_alg».proof.Defs
import proofs.«150221_j25598005084171_2_alg».proof.Proof.Gen.Pre_finite_inputs
import proofs.«150221_j25598005084171_2_alg».proof.Proof.Finite
import Idealize.ShloMosaic.Lib.ReduceAll

noncomputable section

namespace Cert.Gnn

open Idealize.ShloMosaic Idealize.ShloMosaic.ValueIdx
open Cert.Pre_finite_inputs

/-- The rank-0 shape has one index. -/
instance subsingleton_scalarIdx : Subsingleton S_.Idx := ⟨fun a b => funext fun d => d.elim0⟩

/-- The pattern of +infinity denotes the top element. -/
theorem ofBits_posInf : Ideal.ofBits .f32 0x7F800000#32 = ⊤ := by
  simp [Ideal.ofBits, Ideal.ieee]

/-- An extended real whose absolute value is strictly below ⊤ is a real. -/
theorem real_of_abs_lt_top (x : EReal) (h : Ideal.cmp .olt (max x (-x)) ⊤ = 1#1) :
    ∃ r : ℝ, x = (r : EReal) := by
  induction x with
  | bot => simp [Ideal.cmp] at h
  | coe r => exact ⟨r, rfl⟩
  | top => simp [Ideal.cmp] at h

/-- One conjunct of the predicate: if "all entries have absolute value below +infinity" is 1, every entry of
    the array is a real. -/
theorem allReal_of_all {s : Shape} {axes : List (Fin s.rank)} (x : FVec Ideal s .f32)
    (dims : Fin S_.rank → Fin s.rank) (bc : S_.BroadcastsInDim s dims) (hr : s.ReducesTo axes S_)
    (hu : 0 < S_.numel) (init : IVec S_ 1)
    (e : Host.reduce IntOp.andi
          (cmpf .olt (Host.absf x) (broadcastInDim s dims bc (constant (F := Ideal) S_ .f32 0x7F800000#32)))
          init hr hu ix0 = 1#1) :
    AllReal x := by
  intro i
  have hi := Host.reduce_andi_all _ _ hr hu ix0 e i
  apply real_of_abs_lt_top
  rw [← ofBits_posInf]
  exact hi

variable [Cert.Pre_finite_inputs.Facts]

/-- The precondition gives: each of the sixteen float inputs has only real entries. -/
theorem allReal_of_pre
    (a0 : FVec Ideal S50000x128 .f32) (a1 : FVec Ideal S800000x128 .f32) (a2 : IVec S800000 32) (a3 : IVec S800000 32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) (a10 : FVec Ideal S128x128 .f32) (a11 : FVec Ideal S128 .f32)
    (a12 : FVec Ideal S128x128 .f32) (a13 : FVec Ideal S128 .f32) (a14 : FVec Ideal S128 .f32) (a15 : FVec Ideal S128 .f32)
    (a16 : FVec Ideal S128 .f32) (a17 : FVec Ideal S128 .f32)
    (h : Cert.Pre_finite_inputs.fn (F := Ideal) a0 a1 a2 a3 a4 a5 a6 a7 a8 a9 a10 a11 a12 a13 a14 a15 a16 a17
          = (fun _ => 1#1)) :
    AllReal a0 ∧ AllReal a1 ∧ AllReal a4 ∧ AllReal a5 ∧ AllReal a6 ∧ AllReal a7 ∧ AllReal a8 ∧ AllReal a9
      ∧ AllReal a10 ∧ AllReal a11 ∧ AllReal a12 ∧ AllReal a13 ∧ AllReal a14 ∧ AllReal a15 ∧ AllReal a16
      ∧ AllReal a17 := by
  have e := congrFun h ix0
  unfold Cert.Pre_finite_inputs.fn Cert.Pre_finite_inputs.fn_part1 Cert.Pre_finite_inputs.fn_part2
    Cert.Pre_finite_inputs.fn_part3 Cert.Pre_finite_inputs.fn_part4 at e
  dsimp only at e
  simp only [andi, IntOp.andi_eq_one] at e
  obtain ⟨⟨⟨⟨⟨⟨⟨⟨⟨⟨⟨⟨⟨⟨⟨h0, h1⟩, h4⟩, h5⟩, h6⟩, h7⟩, h8⟩, h9⟩, h10⟩, h11⟩, h12⟩, h13⟩, h14⟩, h15⟩, h16⟩, h17⟩ := e
  exact ⟨allReal_of_all a0 _ _ _ _ _ h0, allReal_of_all a1 _ _ _ _ _ h1, allReal_of_all a4 _ _ _ _ _ h4,
    allReal_of_all a5 _ _ _ _ _ h5, allReal_of_all a6 _ _ _ _ _ h6, allReal_of_all a7 _ _ _ _ _ h7,
    allReal_of_all a8 _ _ _ _ _ h8, allReal_of_all a9 _ _ _ _ _ h9, allReal_of_all a10 _ _ _ _ _ h10,
    allReal_of_all a11 _ _ _ _ _ h11, allReal_of_all a12 _ _ _ _ _ h12, allReal_of_all a13 _ _ _ _ _ h13,
    allReal_of_all a14 _ _ _ _ _ h14, allReal_of_all a15 _ _ _ _ _ h15, allReal_of_all a16 _ _ _ _ _ h16,
    allReal_of_all a17 _ _ _ _ _ h17⟩

end Cert.Gnn

end
-- ==== Proof.LibRowGather.lean ====
/-
  THE ROW GATHER READ AT AN INDEX. What `X[idx]` of a matrix `X : [N, C]` at an integer vector `idx : [E]`
  lowers to is `stablehlo.gather` with offset_dims `[1]`, collapsed_slice_dims `[0]`, start_index_map `[0]`,
  index_vector_dim `1` and slice_sizes `[1, C]` over the indices reshaped to `[E, 1]`: one whole row of the operand per
  start index. This file names those dimension numbers (`rowDims`) and proves the one fact a value proof needs
  (`gather_rows_apply`): result element `(t, q)` is the operand's element in column `q` of the row `idx[t, 0]`, that
  start index read as a signed integer and clamped into `[0, N − 1]`, as StableHLO's gather clamps every start index.
  On the row axis the slice has size 1, the axis is collapsed, and the start index map names it; on the column axis the
  start is 0 and the result's offset coordinate is the column. It follows `gather_take_apply` (the rank-1 operand) step by step.
-/
import Idealize.ShloMosaic.Lib.ValueIdx

noncomputable section

namespace Idealize.ShloMosaic.ValueIdx

open Idealize.ShloMosaic

section Rows
variable {α : Type}

/-- The row gather's dimension numbers for an operand `[N, C]`, start indices `[E, 1]` and result `[E, C]`; their
    conditions `wf` are decided on a program's literal shapes. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, q)`: column `q` of the operand's row `idx[t, 0]`, the start index read signed and
    clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (t : Fin E) (q : Fin C) :
    Host.gather (rowDims N E C wf) x idx (ix2 t q)
      = x (ix2 ⟨min (idx (ix2 t ⟨0, Nat.one_pos⟩)).toInt.toNat (N - 1), by omega⟩ q) := by
  unfold Host.gather
  congr 1
  funext a
  refine Fin.ext ?_
  show (rowDims N E C wf).start (ix2 t q) idx a + (rowDims N E C wf).batchCoord (ix2 t q) a
      + (rowDims N E C wf).offCoord (ix2 t q) a = _
  rw [GatherDims.batchCoord_eq_zero _ _ _ List.not_mem_nil]
  simp only [Nat.add_zero]
  match a with
  | ⟨0, _⟩ =>
    -- the row axis: collapsed, so no offset; named by the start index map, so the clamped start index
    show (rowDims N E C wf).start (ix2 t q) idx (0 : Fin 2) + (rowDims N E C wf).offCoord (ix2 t q) (0 : Fin 2)
      = min (idx (ix2 t ⟨0, Nat.one_pos⟩)).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 t q) ⟨List.idxOf (0 : Fin 2) (rowDims N E C wf).startIndexMap,
        List.idxOf_lt_length_iff.2 (List.mem_singleton.mpr rfl)⟩ = ix2 t ⟨0, Nat.one_pos⟩ := by
      funext b; refine Fin.ext ?_
      match b with
      | ⟨0, _⟩ => rfl
      | ⟨1, _⟩ => rfl
    rw [hsi]
    rfl
  | ⟨1, _⟩ =>
    -- the column axis: not in the start index map, so the start is 0; the offset is the result's column
    show (rowDims N E C wf).start (ix2 t q) idx (1 : Fin 2) + (rowDims N E C wf).offCoord (ix2 t q) (1 : Fin 2) = q.val
    unfold GatherDims.start
    rw [dif_neg (show (1 : Fin 2) ∉ (rowDims N E C wf).startIndexMap from
      fun h => absurd (congrArg Fin.val (List.mem_singleton.mp h)) Nat.one_ne_zero)]
    rw [Nat.zero_add]
    rfl

end Rows

end Idealize.ShloMosaic.ValueIdx

end
-- ==== Proof.RefEdge.lean ====
/-
  THE REFERENCE, PART ONE: THE EDGE VALUES. The reference program's stages up to the gated message, read at one
  index and identified with the specification's functions (Spec.lean): each of the five affine maps is `linT`
  (the contraction reads the weight matrix through a transpose, the bias through two broadcasts), each row gather reads
  the affine map at the row the endpoint selects (`rowSel`: a negative endpoint has the row count added once, then
  the gather clamps), the sum of the two gathered rows and the edge's own affine map is `eVal`, one over one plus the
  exponential of its negation is `gate`, and the gathered source row times the gate is `msg`.
-/
import proofs.«150221_j25598005084171_2_alg».proof.Proof.Gen.ReferenceIdeal.Read
import proofs.«150221_j25598005084171_2_alg».proof.Proof.Spec
import proofs.«150221_j25598005084171_2_alg».proof.Proof.LibRowGather

noncomputable section

namespace Cert.ReferenceIdeal.RefValue

open Cert.ReferenceIdeal Cert.ReferenceIdeal.Gen Cert.ReferenceIdeal.Read Cert.Gnn
open Idealize.ShloMosaic Idealize.ShloMosaic.TcCoe Idealize.SL.Sem Idealize.ShloMosaic.StableHlo Idealize.ShloMosaic.ValueIdx

/-- The reference's arrays at the ideal instance: node rows, edge rows, a weight matrix, a vector, the endpoints. -/
abbrev TN := (⟨S50000x128, .f32⟩ : BufTy).Contents (Elt Ideal)
abbrev TE := (⟨S800000x128, .f32⟩ : BufTy).Contents (Elt Ideal)
abbrev TW := (⟨S128x128, .f32⟩ : BufTy).Contents (Elt Ideal)
abbrev TV := (⟨S128, .f32⟩ : BufTy).Contents (Elt Ideal)
abbrev TI := (⟨S800000, .i32⟩ : BufTy).Contents (Elt Ideal)

variable (x0 : TN) (x1 : TE) (x2 x3 : TI) (x4 : TW) (x5 : TV) (x6 : TW) (x7 : TV) (x8 : TW) (x9 : TV)
  (x10 : TW) (x11 : TV) (x12 : TW) (x13 : TV) (x14 x15 x16 x17 : TV)

/-- Stage v4 is the affine map `x0 x4ᵀ + x5`: the contraction reads `x4` through the transpose, the bias through its two broadcasts. -/
theorem lin_v4 (p : Fin 50000) (q : Fin 128) :
    val_main_v4 (F := Ideal) x0 x4 x5 (ix2 p q) = linT x0 x4 x5 p q := by
  rw [val_main_v4_apply, val_main_v1_apply, val_main_v3_apply, val_main_v2_apply]
  show (∑ k : Fin 128, x0 (lidx_main_v1 (ix2 p q) k) * val_main_v0 (F := Ideal) x4 (ridx_main_v1 (ix2 p q) k))
      + x5 (idx_main_v2 (idx_main_v3 (ix2 p q))) = _
  unfold linT
  congr 1
  · refine Finset.sum_congr rfl fun k _ => ?_
    rw [val_main_v0_apply,
      show lidx_main_v1 (ix2 p q) k = ix2 p k from funext fun a => Fin.ext (by match a with | ⟨0, _⟩ => rfl | ⟨1, _⟩ => rfl),
      show idx_main_v0 (ridx_main_v1 (ix2 p q) k) = ix2 q k from funext fun a => Fin.ext (by match a with | ⟨0, _⟩ => rfl | ⟨1, _⟩ => rfl)]
  · exact congrArg x5 (funext fun a => Fin.ext (by match a with | ⟨0, _⟩ => rfl))

/-- Stage v9 is the affine map `x0 x6ᵀ + x7`: the contraction reads `x6` through the transpose, the bias through its two broadcasts. -/
theorem lin_v9 (p : Fin 50000) (q : Fin 128) :
    val_main_v9 (F := Ideal) x0 x6 x7 (ix2 p q) = linT x0 x6 x7 p q := by
  rw [val_main_v9_apply, val_main_v6_apply, val_main_v8_apply, val_main_v7_apply]
  show (∑ k : Fin 128, x0 (lidx_main_v6 (ix2 p q) k) * val_main_v5 (F := Ideal) x6 (ridx_main_v6 (ix2 p q) k))
      + x7 (idx_main_v7 (idx_main_v8 (ix2 p q))) = _
  unfold linT
  congr 1
  · refine Finset.sum_congr rfl fun k _ => ?_
    rw [val_main_v5_apply,
      show lidx_main_v6 (ix2 p q) k = ix2 p k from funext fun a => Fin.ext (by match a with | ⟨0, _⟩ => rfl | ⟨1, _⟩ => rfl),
      show idx_main_v5 (ridx_main_v6 (ix2 p q) k) = ix2 q k from funext fun a => Fin.ext (by match a with | ⟨0, _⟩ => rfl | ⟨1, _⟩ => rfl)]
  · exact congrArg x7 (funext fun a => Fin.ext (by match a with | ⟨0, _⟩ => rfl))

/-- Stage v14 is the affine map `x0 x10ᵀ + x11`: the contraction reads `x10` through the transpose, the bias through its two broadcasts. -/
theorem lin_v14 (p : Fin 50000) (q : Fin 128) :
    val_main_v14 (F := Ideal) x0 x10 x11 (ix2 p q) = linT x0 x10 x11 p q := by
  rw [val_main_v14_apply, val_main_v11_apply, val_main_v13_apply, val_main_v12_apply]
  show (∑ k : Fin 128, x0 (lidx_main_v11 (ix2 p q) k) * val_main_v10 (F := Ideal) x10 (ridx_main_v11 (ix2 p q) k))
      + x11 (idx_main_v12 (idx_main_v13 (ix2 p q))) = _
  unfold linT
  congr 1
  · refine Finset.sum_congr rfl fun k _ => ?_
    rw [val_main_v10_apply,
      show lidx_main_v11 (ix2 p q) k = ix2 p k from funext fun a => Fin.ext (by match a with | ⟨0, _⟩ => rfl | ⟨1, _⟩ => rfl),
      show idx_main_v10 (ridx_main_v11 (ix2 p q) k) = ix2 q k from funext fun a => Fin.ext (by match a with | ⟨0, _⟩ => rfl | ⟨1, _⟩ => rfl)]
  · exact congrArg x11 (funext fun a => Fin.ext (by match a with | ⟨0, _⟩ => rfl))

/-- Stage v19 is the affine map `x0 x12ᵀ + x13`: the contraction reads `x12` through the transpose, the bias through its two broadcasts. -/
theorem lin_v19 (p : Fin 50000) (q : Fin 128) :
    val_main_v19 (F := Ideal) x0 x12 x13 (ix2 p q) = linT x0 x12 x13 p q := by
  rw [val_main_v19_apply, val_main_v16_apply, val_main_v18_apply, val_main_v17_apply]
  show (∑ k : Fin 128, x0 (lidx_main_v16 (ix2 p q) k) * val_main_v15 (F := Ideal) x12 (ridx_main_v16 (ix2 p q) k))
      + x13 (idx_main_v17 (idx_main_v18 (ix2 p q))) = _
  unfold linT
  congr 1
  · refine Finset.sum_congr rfl fun k _ => ?_
    rw [val_main_v15_apply,
      show lidx_main_v16 (ix2 p q) k = ix2 p k from funext fun a => Fin.ext (by match a with | ⟨0, _⟩ => rfl | ⟨1, _⟩ => rfl),
      show idx_main_v15 (ridx_main_v16 (ix2 p q) k) = ix2 q k from funext fun a => Fin.ext (by match a with | ⟨0, _⟩ => rfl | ⟨1, _⟩ => rfl)]
  · exact congrArg x13 (funext fun a => Fin.ext (by match a with | ⟨0, _⟩ => rfl))

/-- Stage v24 is the affine map `x1 x8ᵀ + x9`: the contraction reads `x8` through the transpose, the bias through its two broadcasts. -/
theorem lin_v24 (t : Fin 800000) (q : Fin 128) :
    val_main_v24 (F := Ideal) x1 x8 x9 (ix2 t q) = linT x1 x8 x9 t q := by
  rw [val_main_v24_apply, val_main_v21_apply, val_main_v23_apply, val_main_v22_apply]
  show (∑ k : Fin 128, x1 (lidx_main_v21 (ix2 t q) k) * val_main_v20 (F := Ideal) x8 (ridx_main_v21 (ix2 t q) k))
      + x9 (idx_main_v22 (idx_main_v23 (ix2 t q))) = _
  unfold linT
  congr 1
  · refine Finset.sum_congr rfl fun k _ => ?_
    rw [val_main_v20_apply,
      show lidx_main_v21 (ix2 t q) k = ix2 t k from funext fun a => Fin.ext (by match a with | ⟨0, _⟩ => rfl | ⟨1, _⟩ => rfl),
      show idx_main_v20 (ridx_main_v21 (ix2 t q) k) = ix2 q k from funext fun a => Fin.ext (by match a with | ⟨0, _⟩ => rfl | ⟨1, _⟩ => rfl)]
  · exact congrArg x9 (funext fun a => Fin.ext (by match a with | ⟨0, _⟩ => rfl))

/-- The index column of stage v30, read at row `t`: the endpoint with the row count added once when it is negative. -/
theorem norm_v30 (t : Fin 800000) :
    val_main_v30 (F := Ideal) x2 (ix2 t ⟨0, Nat.one_pos⟩) = normIdx (x2 (ix1 t)) := by
  rw [val_main_v30_apply, show idx_main_v30 (ix2 t ⟨0, Nat.one_pos⟩) = ix1 t from funext fun a => Fin.ext (by match a with | ⟨0, _⟩ => rfl),
    val_main_v29_apply, val_main_v26_apply, val_main_v28_apply, val_main_v25_apply, val_main_v27_apply,
    val_main_c_apply, val_main_c_0_apply]
  rfl

/-- The index column of stage v37, read at row `t`: the endpoint with the row count added once when it is negative. -/
theorem norm_v37 (t : Fin 800000) :
    val_main_v37 (F := Ideal) x3 (ix2 t ⟨0, Nat.one_pos⟩) = normIdx (x3 (ix1 t)) := by
  rw [val_main_v37_apply, show idx_main_v37 (ix2 t ⟨0, Nat.one_pos⟩) = ix1 t from funext fun a => Fin.ext (by match a with | ⟨0, _⟩ => rfl),
    val_main_v36_apply, val_main_v33_apply, val_main_v35_apply, val_main_v32_apply, val_main_v34_apply,
    val_main_c_1_apply, val_main_c_2_apply]
  rfl

/-- The index column of stage v52, read at row `t`: the endpoint with the row count added once when it is negative. -/
theorem norm_v52 (t : Fin 800000) :
    val_main_v52 (F := Ideal) x2 (ix2 t ⟨0, Nat.one_pos⟩) = normIdx (x2 (ix1 t)) := by
  rw [val_main_v52_apply, show idx_main_v52 (ix2 t ⟨0, Nat.one_pos⟩) = ix1 t from funext fun a => Fin.ext (by match a with | ⟨0, _⟩ => rfl),
    val_main_v51_apply, val_main_v48_apply, val_main_v50_apply, val_main_v47_apply, val_main_v49_apply,
    val_main_c_4_apply, val_main_c_5_apply]
  rfl

/-- Stage v31 gathers whole rows of stage v14: at `(t, q)` it is that affine map at the row the endpoint selects. -/
theorem gath_v31 (t : Fin 800000) (q : Fin 128) :
    val_main_v31 (F := Ideal) x0 x2 x10 x11 (ix2 t q) = linT x0 x10 x11 (rowSel (x2 (ix1 t))) q := by
  unfold val_main_v31
  rw [show gather_S50000x128_S800000x1_S800000x128_1_0_n_n_0_1_1128 = rowDims 50000 800000 128 _ from rfl,
    gather_rows_apply (by decide), lin_v14]
  refine congrArg (fun r => linT x0 x10 x11 r q) (Fin.ext ?_)
  show min (val_main_v30 (F := Ideal) x2 (ix2 t ⟨0, Nat.one_pos⟩)).toInt.toNat (50000 - 1) = _
  rw [norm_v30]
  rfl

/-- Stage v38 gathers whole rows of stage v19: at `(t, q)` it is that affine map at the row the endpoint selects. -/
theorem gath_v38 (t : Fin 800000) (q : Fin 128) :
    val_main_v38 (F := Ideal) x0 x3 x12 x13 (ix2 t q) = linT x0 x12 x13 (rowSel (x3 (ix1 t))) q := by
  unfold val_main_v38
  rw [show gather_S50000x128_S800000x1_S800000x128_1_0_n_n_0_1_1128 = rowDims 50000 800000 128 _ from rfl,
    gather_rows_apply (by decide), lin_v19]
  refine congrArg (fun r => linT x0 x12 x13 r q) (Fin.ext ?_)
  show min (val_main_v37 (F := Ideal) x3 (ix2 t ⟨0, Nat.one_pos⟩)).toInt.toNat (50000 - 1) = _
  rw [norm_v37]
  rfl

/-- Stage v53 gathers whole rows of stage v9: at `(t, q)` it is that affine map at the row the endpoint selects. -/
theorem gath_v53 (t : Fin 800000) (q : Fin 128) :
    val_main_v53 (F := Ideal) x0 x2 x6 x7 (ix2 t q) = linT x0 x6 x7 (rowSel (x2 (ix1 t))) q := by
  unfold val_main_v53
  rw [show gather_S50000x128_S800000x1_S800000x128_1_0_n_n_0_1_1128 = rowDims 50000 800000 128 _ from rfl,
    gather_rows_apply (by decide), lin_v9]
  refine congrArg (fun r => linT x0 x6 x7 r q) (Fin.ext ?_)
  show min (val_main_v52 (F := Ideal) x2 (ix2 t ⟨0, Nat.one_pos⟩)).toInt.toNat (50000 - 1) = _
  rw [norm_v52]
  rfl

/-- The float pattern of `1.0` denotes `1`. -/
theorem one_f32 : Ideal.ofBits .f32 0x3F800000#32 = 1 := by
  simp [Ideal.ofBits, Ideal.ieee, -EReal.coe_mul]; norm_num

/-- Stage 40 is the edge pre-activation: source row plus destination row plus the edge's own affine map. -/
theorem e_v40 (t : Fin 800000) (q : Fin 128) :
    val_main_v40 (F := Ideal) x0 x1 x2 x3 x8 x9 x10 x11 x12 x13 (ix2 t q) = eVal x0 x1 x2 x3 x8 x9 x10 x11 x12 x13 t q := by
  rw [val_main_v40_apply, val_main_v39_apply, gath_v31, gath_v38, lin_v24]
  rfl

/-- Stage 46 is the gate: `1 / (1 + exp (− e))`, which is how the logistic function is defined. -/
theorem gate_v46 (t : Fin 800000) (q : Fin 128) :
    val_main_v46 (F := Ideal) x0 x1 x2 x3 x8 x9 x10 x11 x12 x13 (ix2 t q) = gate x0 x1 x2 x3 x8 x9 x10 x11 x12 x13 t q := by
  rw [val_main_v46_apply, val_main_v45_apply, val_main_cst_3_apply, val_main_v44_apply, val_main_v43_apply,
    val_main_cst_apply, val_main_v42_apply, val_main_v41_apply, e_v40]
  show Ideal.div (Ideal.ofBits .f32 0x3F800000#32) (Ideal.ofBits .f32 0x3F800000#32 + Ideal.exp (-_)) = _
  rw [one_f32]
  rfl

/-- Stage 54 is the gated message: the gathered source row times the gate. -/
theorem msg_v54 (t : Fin 800000) (q : Fin 128) :
    val_main_v54 (F := Ideal) x0 x1 x2 x3 x6 x7 x8 x9 x10 x11 x12 x13 (ix2 t q) = msg x0 x1 x2 x3 x6 x7 x8 x9 x10 x11 x12 x13 t q := by
  rw [val_main_v54_apply, gath_v53, gate_v46]
  rfl

end Cert.ReferenceIdeal.RefValue

end
-- ==== Proof.RefNode.lean ====
/-
  THE REFERENCE, PART THREE: THE NODE RESULT. The two scatter-adds are the host's accumulating scatter into a zero
  array, at the destination column, of the gated messages and of the gates: the specification's `sumMsg` and `sumGate`
  with the reference's own dimension record (their three operands are identified array by array; which edges land on
  which node is never opened). Their quotient added to the first affine map is `hRaw`, and the reference's first result,
  read at one index, is the two-pass column normalisation `bnTwo` of `hRaw` with the node count.
-/
import proofs.«150221_j25598005084171_2_alg».proof.Proof.RefEdge

noncomputable section

namespace Cert.ReferenceIdeal.RefValue

open Cert.ReferenceIdeal Cert.ReferenceIdeal.Gen Cert.ReferenceIdeal.Read Cert.Gnn
open Idealize.ShloMosaic Idealize.ShloMosaic.TcCoe Idealize.SL.Sem Idealize.ShloMosaic.StableHlo Idealize.ShloMosaic.ValueIdx

variable (x0 : TN) (x1 : TE) (x2 x3 : TI) (x4 : TW) (x5 : TV) (x6 : TW) (x7 : TV) (x8 : TW) (x9 : TV)
  (x10 : TW) (x11 : TV) (x12 : TW) (x13 : TV) (x14 x15 x16 x17 : TV)

/-- The reference's scatter dimension record. -/
local notation "dR" => Cert.ReferenceIdeal.scatter_S50000x128_S800000x1_S800000x128_1_0_0_1

/-- Stage 57, the scatter-add of the gated messages into zeros by destination, is `sumMsg`. -/
theorem sc_v57 : val_main_v57 (F := Ideal) x0 x1 x2 x3 x6 x7 x8 x9 x10 x11 x12 x13 = sumMsg dR x0 x1 x2 x3 x6 x7 x8 x9 x10 x11 x12 x13 := by
  unfold val_main_v57 sumMsg
  show Ideal.hostScatterAdd dR (val_main_v55 (F := Ideal)) (val_main_v56 (F := Ideal) x3) (val_main_v54 (F := Ideal) x0 x1 x2 x3 x6 x7 x8 x9 x10 x11 x12 x13)
    = Ideal.hostScatterAdd dR (fun _ => (0 : EReal)) (dstCol x3) (asMat (msg x0 x1 x2 x3 x6 x7 x8 x9 x10 x11 x12 x13))
  congr 1
  · funext i
    rw [val_main_v55_apply, val_main_cst_6_apply, Ideal.ofBits_def, Ideal.ofBits_zero_f32]
  · funext i
    rw [val_main_v56_apply]
    show x3 (idx_main_v56 i) = x3 (ix1 ⟨(i 0).val, idx2_lt0 i⟩)
    exact congrArg x3 (funext fun a => Fin.ext (by match a with | ⟨0, _⟩ => rfl))
  · funext i
    obtain ⟨t, q, rfl⟩ : ∃ t q, i = ix2 t q := ⟨i 0, i 1, eq_ix2 i⟩
    rw [msg_v54]
    rfl

/-- Stage 60, the scatter-add of the gates into zeros by destination, is `sumGate`. -/
theorem sc_v60 : val_main_v60 (F := Ideal) x0 x1 x2 x3 x8 x9 x10 x11 x12 x13 = sumGate dR x0 x1 x2 x3 x8 x9 x10 x11 x12 x13 := by
  unfold val_main_v60 sumGate
  show Ideal.hostScatterAdd dR (val_main_v58 (F := Ideal)) (val_main_v59 (F := Ideal) x3) (val_main_v46 (F := Ideal) x0 x1 x2 x3 x8 x9 x10 x11 x12 x13)
    = Ideal.hostScatterAdd dR (fun _ => (0 : EReal)) (dstCol x3) (asMat (gate x0 x1 x2 x3 x8 x9 x10 x11 x12 x13))
  congr 1
  · funext i
    rw [val_main_v58_apply, val_main_cst_7_apply, Ideal.ofBits_def, Ideal.ofBits_zero_f32]
  · funext i
    rw [val_main_v59_apply]
    show x3 (idx_main_v59 i) = x3 (ix1 ⟨(i 0).val, idx2_lt0 i⟩)
    exact congrArg x3 (funext fun a => Fin.ext (by match a with | ⟨0, _⟩ => rfl))
  · funext i
    obtain ⟨t, q, rfl⟩ : ∃ t q, i = ix2 t q := ⟨i 0, i 1, eq_ix2 i⟩
    rw [gate_v46]
    rfl

/-- Stage 64 is the node value before normalisation: the first affine map plus the gated mean of the messages. -/
theorem h_v64 (p : Fin 50000) (q : Fin 128) :
    val_main_v64 (F := Ideal) x0 x1 x2 x3 x4 x5 x6 x7 x8 x9 x10 x11 x12 x13 (ix2 p q) = hRaw dR x0 x1 x2 x3 x4 x5 x6 x7 x8 x9 x10 x11 x12 x13 p q := by
  rw [val_main_v64_apply, lin_v4, val_main_v63_apply, val_main_v62_apply, sc_v57, sc_v60, val_main_v61_apply,
    val_main_cst_8_apply]
  rfl

/-- Column `q`'s sum of stage v64 over the rows: the reduction starts from the float zero, which denotes `0`. -/
theorem sum_v65 (q : Fin 128) :
    val_main_v65 (F := Ideal) x0 x1 x2 x3 x4 x5 x6 x7 x8 x9 x10 x11 x12 x13 (ix1 q) = ∑ k : Fin 50000, hRaw dR x0 x1 x2 x3 x4 x5 x6 x7 x8 x9 x10 x11 x12 x13 k q := by
  rw [val_main_v65_apply, val_main_cst_9_apply, Ideal.ofBits_def, Ideal.ofBits_zero_f32, zero_add]
  refine Finset.sum_congr rfl fun k _ => ?_
  rw [show idx_main_v65 (ix1 q) k = ix2 k q from funext fun a => Fin.ext (by match a with | ⟨0, _⟩ => rfl | ⟨1, _⟩ => rfl), h_v64]

/-- Stage v67 is the column mean. -/
theorem mean_v67 (q : Fin 128) :
    val_main_v67 (F := Ideal) x0 x1 x2 x3 x4 x5 x6 x7 x8 x9 x10 x11 x12 x13 (ix1 q) = colMean cntN (hRaw dR x0 x1 x2 x3 x4 x5 x6 x7 x8 x9 x10 x11 x12 x13) q := by
  rw [val_main_v67_apply, val_main_v66_apply, val_main_cst_10_apply, sum_v65]
  rfl

/-- Stage v70 is the deviation from the column mean (the mean read through its two broadcasts). -/
theorem dev_v70 (r : Fin 50000) (q : Fin 128) :
    val_main_v70 (F := Ideal) x0 x1 x2 x3 x4 x5 x6 x7 x8 x9 x10 x11 x12 x13 (ix2 r q) = hRaw dR x0 x1 x2 x3 x4 x5 x6 x7 x8 x9 x10 x11 x12 x13 r q - colMean cntN (hRaw dR x0 x1 x2 x3 x4 x5 x6 x7 x8 x9 x10 x11 x12 x13) q := by
  rw [val_main_v70_apply, h_v64, val_main_v69_apply, val_main_v68_apply,
    show idx_main_v68 (idx_main_v69 (ix2 r q)) = ix1 q from funext fun a => Fin.ext (by match a with | ⟨0, _⟩ => rfl), mean_v67]
  rfl

/-- Column `q`'s sum of the squared deviations. -/
theorem sumsq_v72 (q : Fin 128) :
    val_main_v72 (F := Ideal) x0 x1 x2 x3 x4 x5 x6 x7 x8 x9 x10 x11 x12 x13 (ix1 q)
      = ∑ k : Fin 50000, (hRaw dR x0 x1 x2 x3 x4 x5 x6 x7 x8 x9 x10 x11 x12 x13 k q - colMean cntN (hRaw dR x0 x1 x2 x3 x4 x5 x6 x7 x8 x9 x10 x11 x12 x13) q) * (hRaw dR x0 x1 x2 x3 x4 x5 x6 x7 x8 x9 x10 x11 x12 x13 k q - colMean cntN (hRaw dR x0 x1 x2 x3 x4 x5 x6 x7 x8 x9 x10 x11 x12 x13) q) := by
  rw [val_main_v72_apply, val_main_cst_11_apply, Ideal.ofBits_def, Ideal.ofBits_zero_f32, zero_add]
  refine Finset.sum_congr rfl fun k _ => ?_
  rw [show idx_main_v72 (ix1 q) k = ix2 k q from funext fun a => Fin.ext (by match a with | ⟨0, _⟩ => rfl | ⟨1, _⟩ => rfl), val_main_v71_apply, dev_v70]
  rfl

/-- Stage v74 is the two-pass column variance. -/
theorem var_v74 (q : Fin 128) :
    val_main_v74 (F := Ideal) x0 x1 x2 x3 x4 x5 x6 x7 x8 x9 x10 x11 x12 x13 (ix1 q) = varTwo cntN (hRaw dR x0 x1 x2 x3 x4 x5 x6 x7 x8 x9 x10 x11 x12 x13) q := by
  rw [val_main_v74_apply, val_main_v73_apply, val_main_cst_12_apply, sumsq_v72]
  rfl

/-- Stage v77 is the deviation from the column mean again (a second pair of broadcasts of the same mean). -/
theorem dev_v77 (r : Fin 50000) (q : Fin 128) :
    val_main_v77 (F := Ideal) x0 x1 x2 x3 x4 x5 x6 x7 x8 x9 x10 x11 x12 x13 (ix2 r q) = hRaw dR x0 x1 x2 x3 x4 x5 x6 x7 x8 x9 x10 x11 x12 x13 r q - colMean cntN (hRaw dR x0 x1 x2 x3 x4 x5 x6 x7 x8 x9 x10 x11 x12 x13) q := by
  rw [val_main_v77_apply, h_v64, val_main_v76_apply, val_main_v75_apply,
    show idx_main_v75 (idx_main_v76 (ix2 r q)) = ix1 q from funext fun a => Fin.ext (by match a with | ⟨0, _⟩ => rfl), mean_v67]
  rfl

/-- THE RESULT: the input plus the floor at zero of the scaled, shifted, normalised value, the normalisation
    dividing by the root of the two-pass variance plus the small constant. -/
theorem ref_nodes (p : Fin 50000) (q : Fin 128) :
    val_main_v117 (F := Ideal) x0 x1 x2 x3 x4 x5 x6 x7 x8 x9 x10 x11 x12 x13 x14 x15 (ix2 p q) = bnTwo cntN (hRaw dR x0 x1 x2 x3 x4 x5 x6 x7 x8 x9 x10 x11 x12 x13) x14 x15 x0 p q := by
  rw [val_main_v117_apply, val_main_v90_apply, val_main_call0_v0_apply, val_main_call0_cst_apply,
    val_main_v89_apply, val_main_v88_apply, val_main_v87_apply,
    show idx_main_v87 (idx_main_v88 (ix2 p q)) = ix1 q from funext fun a => Fin.ext (by match a with | ⟨0, _⟩ => rfl),
    val_main_v86_apply, val_main_v80_apply, val_main_v79_apply, val_main_v78_apply,
    show idx_main_v78 (idx_main_v79 (ix2 p q)) = ix1 q from funext fun a => Fin.ext (by match a with | ⟨0, _⟩ => rfl), dev_v77,
    val_main_v85_apply, val_main_v84_apply,
    show idx_main_v84 (idx_main_v85 (ix2 p q)) = ix1 q from funext fun a => Fin.ext (by match a with | ⟨0, _⟩ => rfl),
    val_main_v83_apply, val_main_v82_apply, var_v74, val_main_v81_apply, val_main_cst_13_apply]
  simp only [Ideal.ofBits_def, Ideal.ofBits_zero_f32]
  rfl

end Cert.ReferenceIdeal.RefValue

end
-- ==== Proof.RefEdgeOut.lean ====
/-
  THE REFERENCE, PART TWO: THE EDGE RESULT. The reference's second result, read at one index, is the specification's
  two-pass column normalisation `bnTwo` of the edge pre-activation `eVal` with the edge count: each reduction over the
  rows is the column sum (its initial value, the float zero, denotes `0`), the mean and the variance are those sums
  divided by the count, the mean reaches every row through two broadcasts, and the tail is read off operation by operation.
-/
import proofs.«150221_j25598005084171_2_alg».proof.Proof.RefEdge

noncomputable section

namespace Cert.ReferenceIdeal.RefValue

open Cert.ReferenceIdeal Cert.ReferenceIdeal.Gen Cert.ReferenceIdeal.Read Cert.Gnn
open Idealize.ShloMosaic Idealize.ShloMosaic.TcCoe Idealize.SL.Sem Idealize.ShloMosaic.StableHlo Idealize.ShloMosaic.ValueIdx

variable (x0 : TN) (x1 : TE) (x2 x3 : TI) (x4 : TW) (x5 : TV) (x6 : TW) (x7 : TV) (x8 : TW) (x9 : TV)
  (x10 : TW) (x11 : TV) (x12 : TW) (x13 : TV) (x14 x15 x16 x17 : TV)

/-- Column `q`'s sum of stage v40 over the rows: the reduction starts from the float zero, which denotes `0`. -/
theorem sum_v91 (q : Fin 128) :
    val_main_v91 (F := Ideal) x0 x1 x2 x3 x8 x9 x10 x11 x12 x13 (ix1 q) = ∑ k : Fin 800000, eVal x0 x1 x2 x3 x8 x9 x10 x11 x12 x13 k q := by
  rw [val_main_v91_apply, val_main_cst_14_apply, Ideal.ofBits_def, Ideal.ofBits_zero_f32, zero_add]
  refine Finset.sum_congr rfl fun k _ => ?_
  rw [show idx_main_v91 (ix1 q) k = ix2 k q from funext fun a => Fin.ext (by match a with | ⟨0, _⟩ => rfl | ⟨1, _⟩ => rfl), e_v40]

/-- Stage v93 is the column mean. -/
theorem mean_v93 (q : Fin 128) :
    val_main_v93 (F := Ideal) x0 x1 x2 x3 x8 x9 x10 x11 x12 x13 (ix1 q) = colMean cntE (eVal x0 x1 x2 x3 x8 x9 x10 x11 x12 x13) q := by
  rw [val_main_v93_apply, val_main_v92_apply, val_main_cst_15_apply, sum_v91]
  rfl

/-- Stage v96 is the deviation from the column mean (the mean read through its two broadcasts). -/
theorem dev_v96 (r : Fin 800000) (q : Fin 128) :
    val_main_v96 (F := Ideal) x0 x1 x2 x3 x8 x9 x10 x11 x12 x13 (ix2 r q) = eVal x0 x1 x2 x3 x8 x9 x10 x11 x12 x13 r q - colMean cntE (eVal x0 x1 x2 x3 x8 x9 x10 x11 x12 x13) q := by
  rw [val_main_v96_apply, e_v40, val_main_v95_apply, val_main_v94_apply,
    show idx_main_v94 (idx_main_v95 (ix2 r q)) = ix1 q from funext fun a => Fin.ext (by match a with | ⟨0, _⟩ => rfl), mean_v93]
  rfl

/-- Column `q`'s sum of the squared deviations. -/
theorem sumsq_v98 (q : Fin 128) :
    val_main_v98 (F := Ideal) x0 x1 x2 x3 x8 x9 x10 x11 x12 x13 (ix1 q)
      = ∑ k : Fin 800000, (eVal x0 x1 x2 x3 x8 x9 x10 x11 x12 x13 k q - colMean cntE (eVal x0 x1 x2 x3 x8 x9 x10 x11 x12 x13) q) * (eVal x0 x1 x2 x3 x8 x9 x10 x11 x12 x13 k q - colMean cntE (eVal x0 x1 x2 x3 x8 x9 x10 x11 x12 x13) q) := by
  rw [val_main_v98_apply, val_main_cst_16_apply, Ideal.ofBits_def, Ideal.ofBits_zero_f32, zero_add]
  refine Finset.sum_congr rfl fun k _ => ?_
  rw [show idx_main_v98 (ix1 q) k = ix2 k q from funext fun a => Fin.ext (by match a with | ⟨0, _⟩ => rfl | ⟨1, _⟩ => rfl), val_main_v97_apply, dev_v96]
  rfl

/-- Stage v100 is the two-pass column variance. -/
theorem var_v100 (q : Fin 128) :
    val_main_v100 (F := Ideal) x0 x1 x2 x3 x8 x9 x10 x11 x12 x13 (ix1 q) = varTwo cntE (eVal x0 x1 x2 x3 x8 x9 x10 x11 x12 x13) q := by
  rw [val_main_v100_apply, val_main_v99_apply, val_main_cst_17_apply, sumsq_v98]
  rfl

/-- Stage v103 is the deviation from the column mean again (a second pair of broadcasts of the same mean). -/
theorem dev_v103 (r : Fin 800000) (q : Fin 128) :
    val_main_v103 (F := Ideal) x0 x1 x2 x3 x8 x9 x10 x11 x12 x13 (ix2 r q) = eVal x0 x1 x2 x3 x8 x9 x10 x11 x12 x13 r q - colMean cntE (eVal x0 x1 x2 x3 x8 x9 x10 x11 x12 x13) q := by
  rw [val_main_v103_apply, e_v40, val_main_v102_apply, val_main_v101_apply,
    show idx_main_v101 (idx_main_v102 (ix2 r q)) = ix1 q from funext fun a => Fin.ext (by match a with | ⟨0, _⟩ => rfl), mean_v93]
  rfl

/-- THE RESULT: the input plus the floor at zero of the scaled, shifted, normalised value, the normalisation
    dividing by the root of the two-pass variance plus the small constant. -/
theorem ref_edges (t : Fin 800000) (q : Fin 128) :
    val_main_v118 (F := Ideal) x0 x1 x2 x3 x8 x9 x10 x11 x12 x13 x16 x17 (ix2 t q) = bnTwo cntE (eVal x0 x1 x2 x3 x8 x9 x10 x11 x12 x13) x16 x17 x1 t q := by
  rw [val_main_v118_apply, val_main_v116_apply, val_main_call1_v0_apply, val_main_call1_cst_apply,
    val_main_v115_apply, val_main_v114_apply, val_main_v113_apply,
    show idx_main_v113 (idx_main_v114 (ix2 t q)) = ix1 q from funext fun a => Fin.ext (by match a with | ⟨0, _⟩ => rfl),
    val_main_v112_apply, val_main_v106_apply, val_main_v105_apply, val_main_v104_apply,
    show idx_main_v104 (idx_main_v105 (ix2 t q)) = ix1 q from funext fun a => Fin.ext (by match a with | ⟨0, _⟩ => rfl), dev_v103,
    val_main_v111_apply, val_main_v110_apply,
    show idx_main_v110 (idx_main_v111 (ix2 t q)) = ix1 q from funext fun a => Fin.ext (by match a with | ⟨0, _⟩ => rfl),
    val_main_v109_apply, val_main_v108_apply, var_v100, val_main_v107_apply, val_main_cst_18_apply]
  simp only [Ideal.ofBits_def, Ideal.ofBits_zero_f32]
  rfl

end Cert.ReferenceIdeal.RefValue

end
-- ==== Proof.KRun.lean ====
/-
  The idealized kernel program's run with its two results named.

  The program is five pipelined kernel launches among stretches of host operations. The generated frame
  proof folds the buffer contents through those ten segments (`Gen.W0` … `Gen.W10`) and shows that every
  weakly fair execution terminates without a fault in a state whose unscoped buffers hold the last fold
  `Gen.W10`. Its stated conclusion keeps only the argument arrays. Here the same launch theorem is applied
  with a conclusion that also keeps the two result buffers, each at its `Gen.W10` contents; the later
  modules read those contents back through the fold.
-/
import proofs.«150221_j25598005084171_2_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the node result and the
    edge result at the last boundary's contents and the argument arrays as launched. -/
theorem run_values : θ_run defs (onTc (τ := τ) (main (F := F))) ⟨m, fun _ => 0, ρ⟩ (fun r => ∀ c : Dev nD,
      r.2.mem ((c.tc : Thread nD τ).loc main_v48) = W10 m ρ c (Proc.devRef .tc main_v48)
      ∧ r.2.mem ((c.tc : Thread nD τ).loc main_v59) = W10 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v48 (by decide)),
       h c _ (mem_uc main_v59 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩)

end Cert.KernelIdeal.Bridge

end
-- ==== Proof.KDefs.lean ====
/-
  The whole-array functions the five kernel launches compute, each from the arrays its launch reads.

  Every launch cuts its arrays into row bands (5000 node rows or 4000 edge rows per grid point). What a launch
  writes at a row depends only on that row of its banded inputs and on its small whole inputs, so its result is
  ONE function of the arrays; a launch that also emits per-band column sums writes, for band t, the sum over the
  band's rows. The functions are stated for any row count so that a band (5000 or 4000 rows) and the whole array
  (50000 or 800000 rows) are instances of the same definition.
-/
import proofs.«150221_j25598005084171_2_alg».proof.Proof.Spec

noncomputable section

namespace Cert.KernelIdeal.Bridge

open Idealize.ShloMosaic Idealize.ShloMosaic.ValueIdx Cert.Gnn

/-- Column `q` of an index of a two-axis array, as an index of a one-row array. -/
abbrev colOf {n m : Nat} (i : (⟨2, ![n, m]⟩ : Shape).Idx) : (⟨2, ![1, m]⟩ : Shape).Idx :=
  ix2 (0 : Fin 1) (⟨(i 1).val, idx2_lt1 i⟩ : Fin m)

/-- Row `p` of an index, as a number below the row count. -/
abbrev rowOf {n m : Nat} (i : (⟨2, ![n, m]⟩ : Shape).Idx) : Fin n := ⟨(i 0).val, idx2_lt0 i⟩

/-- Rows normalised by given column statistics, scaled, shifted, floored at zero and added to a residual. -/
def normRows {n : Nat} (X R : Mat n 128) (mu var g b : Mat 1 128) : Mat n 128 := fun i =>
  R i + max (g (colOf i) * (X i - mu (colOf i)) * Ideal.rsqrt (var (colOf i) + epsBn) + b (colOf i)) 0

/-- `x Wᵀ + b` with the bias a one-row matrix: at `(p, q)` the sum over `k` of `x p k · W q k`, plus `b 0 q`. -/
def lin2 {n : Nat} (X : Mat n 128) (W : Mat 128 128) (b : Mat 1 128) : Mat n 128 := fun i =>
  (∑ k : Fin 128, X (ix2 (rowOf i) k) * W (ix2 (⟨(i 1).val, idx2_lt1 i⟩ : Fin 128) k)) + b (colOf i)

/-- Two 128-column matrices side by side as one 256-column matrix. -/
def sideBySide {n : Nat} (A B : Mat n 128) : Mat n 256 := fun i =>
  if h : (i 1).val < 128 then A (ix2 (rowOf i) (⟨(i 1).val, h⟩ : Fin 128))
  else B (ix2 (rowOf i) (⟨(i 1).val - 128, by have := idx2_lt1 i; omega⟩ : Fin 128))

/-- The left 128 columns of a 256-column matrix. -/
def leftHalf {n : Nat} (D : Mat n 256) : Mat n 128 := fun i =>
  D (ix2 (rowOf i) (⟨(i 1).val, by have := idx2_lt1 i; omega⟩ : Fin 256))

/-- The right 128 columns of a 256-column matrix. -/
def rightHalf {n : Nat} (D : Mat n 256) : Mat n 128 := fun i =>
  D (ix2 (rowOf i) (⟨128 + (i 1).val, by have := idx2_lt1 i; omega⟩ : Fin 256))

/-- The edge pre-activation from the gathered rows: left half plus the other gathered row plus `x Wᵀ + b`. -/
def edgePre {n : Nat} (E : Mat n 128) (D2 : Mat n 256) (H : Mat n 128) (W : Mat 128 128) (b : Mat 1 128) : Mat n 128 :=
  fun i => (leftHalf D2 i + H i) + lin2 E W b i

/-- The gated message: the right half times the logistic of the pre-activation. -/
def edgeMsg {n : Nat} (E : Mat n 128) (D2 : Mat n 256) (H : Mat n 128) (W : Mat 128 128) (b : Mat 1 128) : Mat n 128 :=
  fun i => rightHalf D2 i * Ideal.logistic (edgePre E D2 H W b i)

/-- A node's value before normalisation: `A + S / (T + ε)`. -/
def gatedMean {n : Nat} (A S T : Mat n 128) : Mat n 128 := fun i => A i + Ideal.div (S i) (T i + epsNorm)

/-- Entry by entry squares. -/
def squares {n : Nat} (X : Mat n 128) : Mat n 128 := fun i => X i * X i

/-- Row `r` of band `t`, bands of `b` rows, is a row of the whole. -/
theorem band_lt {a b n : Nat} (h : a * b = n) (t : Fin a) (r : Fin b) : b * t.val + r.val < n := by
  have ht := t.isLt
  have hr := r.isLt
  calc b * t.val + r.val < b * t.val + b := by omega
    _ = b * (t.val + 1) := by rw [Nat.mul_add, Nat.mul_one]
    _ ≤ b * a := Nat.mul_le_mul_left _ (by omega)
    _ = n := by rw [Nat.mul_comm]; exact h

/-- Row `r` of band `t`. -/
abbrev bandRow {a b n : Nat} (h : a * b = n) (t : Fin a) (r : Fin b) : Fin n := ⟨b * t.val + r.val, band_lt h t r⟩

/-- Per band, the column sums over the band's rows: entry `(t, 0, q)` is the sum over the `b` rows of band `t`. -/
def bandSums (a b n : Nat) (h : a * b = n) (X : Mat n 128) : (⟨3, ![a, 1, 128]⟩ : Shape).Idx → EReal := fun i =>
  ∑ r : Fin b, X (ix2 (bandRow h (⟨(i 0).val, (i 0).isLt⟩ : Fin a) r) (⟨(i 2).val, (i 2).isLt⟩ : Fin 128))

/-- The band sums of all bands add up to the column sum over all rows. -/
theorem sum_bandRows {M : Type} [AddCommMonoid M] {a b n : Nat} (h : a * b = n) (g : Fin n → M) :
    ∑ t : Fin a, ∑ r : Fin b, g (bandRow h t r) = ∑ p : Fin n, g p := by
  subst h
  rw [← Finset.sum_product' (s := Finset.univ) (t := Finset.univ) (f := fun t r => g (bandRow rfl t r)), Finset.univ_product_univ]
  refine Fintype.sum_equiv finProdFinEquiv _ _ fun x => congrArg g (Fin.ext ?_)
  obtain ⟨t, r⟩ := x
  show b * t.val + r.val = r.val + b * t.val
  omega

end Cert.KernelIdeal.Bridge

end
-- ==== Proof.KAlg.lean ====
/-
  The kernel-side array functions against the specification's.

  `lin2` with a one-row bias is `linT` with the bias vector; the per-band column sums of a matrix add up,
  over the bands, to its column sums, so the statistics the kernel program forms from band sums are the
  specification's `colMean` and `varOne`; and rows normalised with exactly those statistics are `bnOne`.
-/
import proofs.«150221_j25598005084171_2_alg».proof.Proof.KDefs

noncomputable section

namespace Cert.KernelIdeal.Bridge

open Idealize.ShloMosaic Idealize.ShloMosaic.ValueIdx Cert.Gnn

/-- With the one-row bias holding the bias vector, `lin2` at `(p, q)` is `linT`. -/
theorem lin2_eq_linT {n : Nat} (X : Mat n 128) (W : Mat 128 128) (b2 : Mat 1 128) (b : Vec1 128)
    (hb : ∀ q : Fin 128, b2 (ix2 (0 : Fin 1) q) = b (ix1 q)) (p : Fin n) (q : Fin 128) :
    lin2 X W b2 (ix2 p q) = linT X W b p q := by
  unfold lin2 linT
  rw [← hb q]
  rfl

/-- The band sums of a matrix, summed over the bands, are its column sums. -/
theorem sum_bandSums (a b n : Nat) (h : a * b = n) (X : Mat n 128) (q : Fin 128) :
    ∑ t : Fin a, bandSums a b n h X (ix3 t (0 : Fin 1) q) = ∑ p : Fin n, X (ix2 p q) := by
  unfold bandSums
  exact sum_bandRows h (fun p => X (ix2 p q))

/-- The column mean formed from band sums. -/
theorem colMean_of_bands (a b n : Nat) (h : a * b = n) (cnt : EReal) (X : Mat n 128) (Xc : Fin n → Fin 128 → EReal)
    (hX : ∀ p q, X (ix2 p q) = Xc p q) (q : Fin 128) :
    Ideal.div (∑ t : Fin a, bandSums a b n h X (ix3 t (0 : Fin 1) q)) cnt = colMean cnt Xc q := by
  rw [sum_bandSums]
  unfold colMean
  exact congrArg (fun s => Ideal.div s cnt) (Finset.sum_congr rfl fun p _ => hX p q)

/-- The one-pass variance formed from band sums of the squares. -/
theorem varOne_of_bands (a b n : Nat) (h : a * b = n) (cnt : EReal) (X : Mat n 128) (Xc : Fin n → Fin 128 → EReal)
    (hX : ∀ p q, X (ix2 p q) = Xc p q) (mu : EReal) (q : Fin 128) (hmu : mu = colMean cnt Xc q) :
    max (Ideal.div (∑ t : Fin a, bandSums a b n h (squares X) (ix3 t (0 : Fin 1) q)) cnt - mu * mu) 0 = varOne cnt Xc q := by
  rw [sum_bandSums, hmu]
  unfold varOne
  have hs : (∑ p : Fin n, squares X (ix2 p q)) = ∑ p : Fin n, Xc p q * Xc p q :=
    Finset.sum_congr rfl fun p _ => by unfold squares; rw [hX p q]
  rw [hs]

/-- Rows normalised with the one-pass column statistics of the same matrix are `bnOne`. -/
theorem normRows_eq_bnOne {n : Nat} (cnt : EReal) (X R : Mat n 128) (mu var g2 b2 : Mat 1 128) (Xc : Fin n → Fin 128 → EReal)
    (g b : Vec1 128) (hX : ∀ p q, X (ix2 p q) = Xc p q)
    (hmu : ∀ q : Fin 128, mu (ix2 (0 : Fin 1) q) = colMean cnt Xc q)
    (hvar : ∀ q : Fin 128, var (ix2 (0 : Fin 1) q) = varOne cnt Xc q)
    (hg : ∀ q : Fin 128, g2 (ix2 (0 : Fin 1) q) = g (ix1 q)) (hb : ∀ q : Fin 128, b2 (ix2 (0 : Fin 1) q) = b (ix1 q))
    (p : Fin n) (q : Fin 128) :
    normRows X R mu var g2 b2 (ix2 p q) = bnOne cnt Xc g b R p q := by
  unfold normRows bnOne
  show R (ix2 p q) + max (g2 (ix2 (0 : Fin 1) q) * (X (ix2 p q) - mu (ix2 (0 : Fin 1) q)) * Ideal.rsqrt (var (ix2 (0 : Fin 1) q) + epsBn) + b2 (ix2 (0 : Fin 1) q)) 0 = _
  rw [hX, hmu, hvar, hg, hb]

end Cert.KernelIdeal.Bridge

end
-- ==== Proof.KReg3.lean ====
/-
  Kernel launch 3 (the node finaliser), read as one whole-array function.

  Its grid has 10 points; point t holds rows 5000 t … 5000 t + 4999 of the value array and of the residual
  array, and the whole one-row arrays of the column mean, the column variance, the scale and the shift. The
  body computes, at row r and column q of its block,
      residual + max (scale q · (value − mean q) · rsqrt (variance q + ε) + shift q, 0),
  which depends only on the array index, not on the block; so the blocks written back are the row bands of
  ONE function `normRows` of the six arrays, and since the bands tile the array, the result array after the
  launch is that function.
-/
import proofs.«150221_j25598005084171_2_alg».proof.Proof.Gen.KernelIdeal.Frame
import proofs.«150221_j25598005084171_2_alg».proof.Proof.KDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Gnn (Mat)

/-- The body's arithmetic on its blocks is `normRows` of the blocks. -/
theorem k3_pay1_eq (x res : Vec Ideal S5000x128 .f32) (var g mu b : Vec Ideal S1x128 .f32) :
    k3_pay1 (F := Ideal) x var g mu b res = normRows (n := 5000) x res mu var g b := by
  funext j
  obtain ⟨r, q, rfl⟩ : ∃ (r : Fin 5000) (q : Fin 128), j = ix2 r q := ⟨j 0, j 1, eq_ix2 j⟩
  unfold k3_pay1 normRows
  simp only [shapeCast_self, addf_apply, mulf_apply, subf_apply, maximumf_apply, broadcast_apply,
    broadcastTo_1b_ab_apply]
  show res (ix2 r q) + max (g (ix2 0 q) * (x (ix2 r q) - mu (ix2 0 q)) * Ideal.rsqrt (var (ix2 0 q) + Ideal.ofBits .f32 0x3727C5AC#32) + b (ix2 0 q))
      (Ideal.ofBits .f32 0x00000000#32) = _
  rw [Ideal.ofBits_zero_f32]
  rfl

/-- A band of rows normalised with the same column statistics is that band of the whole: if the band's two
    matrices hold rows `o …` of the whole ones, the entry at local row `r` is the whole's entry at row `o + r`. -/
theorem normRows_band3 (X R : Mat 50000 128) (xb rb : Mat 5000 128) (mu var g b : Mat 1 128) (o : Nat)
    (hx : ∀ (r : Fin 5000) (q : Fin 128) (h : o + r.val < 50000), xb (ix2 r q) = X (ix2 ⟨o + r.val, h⟩ q))
    (hr : ∀ (r : Fin 5000) (q : Fin 128) (h : o + r.val < 50000), rb (ix2 r q) = R (ix2 ⟨o + r.val, h⟩ q))
    (j : S5000x128.Idx) (e : S50000x128.Idx) (he0 : (e 0).val = o + (j 0).val) (he1 : (e 1).val = (j 1).val) :
    normRows xb rb mu var g b j = normRows X R mu var g b e := by
  have hlt : o + (rowOf j).val < 50000 := by show o + (j 0).val < 50000; have := idx2_lt0 e; omega
  have hidx : (ix2 (⟨o + (rowOf j).val, hlt⟩ : Fin 50000) (⟨(j 1).val, idx2_lt1 j⟩ : Fin 128) : S50000x128.Idx) = e :=
    funext fun a => Fin.ext (by match a with | ⟨0, _⟩ => exact he0.symm | ⟨1, _⟩ => exact he1.symm)
  have hjx : xb j = X e := (congrArg xb (eq_ix2 j)).trans ((hx (rowOf j) ⟨(j 1).val, idx2_lt1 j⟩ hlt).trans (congrArg X hidx))
  have hjr : rb j = R e := (congrArg rb (eq_ix2 j)).trans ((hr (rowOf j) ⟨(j 1).val, idx2_lt1 j⟩ hlt).trans (congrArg R hidx))
  have hcol : colOf j = colOf e := by
    show ix2 (0 : Fin 1) (⟨(j 1).val, idx2_lt1 j⟩ : Fin 128) = ix2 (0 : Fin 1) (⟨(e 1).val, idx2_lt1 e⟩ : Fin 128)
    exact congrArg (ix2 (0 : Fin 1)) (Fin.ext he1.symm)
  unfold normRows
  rw [hjx, hjr, hcol]

variable (V : (c : Dev nD) → (b : Ref sig .tc) → Buf (Elt Ideal) ((c : Thread nD τ).loc b))

theorem noOffset_nodeFinal : (![0, 0] : Fin 2 → Nat) = fun _ => 0 := funext fun a => by fin_cases a <;> rfl

/-- The printed index maps over the grid: the value, residual and result windows move down the rows together … -/
theorem idxBanded3 : ∀ t : Fin cfg3.N, win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0 :=
  (by decide +kernel : ∀ t : Fin grid3.N, _)

/-- … and the four one-row windows stay at block zero. -/
theorem idxWhole3 : ∀ t : Fin cfg3.N, win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Window 0's block at point `t` is rows `5000 t …` of its array. -/
theorem blk3_0 (c : Dev nD) (t : Fin cfg3.N) (r : Fin 5000) (q : Fin 128) (h : t.val * 5000 + r.val < 50000) :
    iblk3 V c 0 t (ix2 r q) = V c main_v33_0 (ix2 ⟨t.val * 5000 + r.val, h⟩ q) := by
  obtain ⟨e0, e1, -⟩ := idxBanded3 t
  show V c main_v33_0 (((cfg3.win 0).blk t).view.emb (ix2 r q)) = _
  refine congrArg (V c main_v33_0) ?_
  funext a; apply Fin.ext
  match a with
  | ⟨0, _⟩ => show win3_0.index t (0 : Fin 2) * 5000 + 1 * r.val = t.val * 5000 + r.val; omega
  | ⟨1, _⟩ => show win3_0.index t (1 : Fin 2) * 128 + 1 * q.val = q.val; omega

/-- Window 1's block at point `t` is rows `5000 t …` of its array. -/
theorem blk3_1 (c : Dev nD) (t : Fin cfg3.N) (r : Fin 5000) (q : Fin 128) (h : t.val * 5000 + r.val < 50000) :
    iblk3 V c 1 t (ix2 r q) = V c main_arg0 (ix2 ⟨t.val * 5000 + r.val, h⟩ q) := by
  obtain ⟨-, -, e0, e1, -⟩ := idxBanded3 t
  show V c main_arg0 (((cfg3.win 1).blk t).view.emb (ix2 r q)) = _
  refine congrArg (V c main_arg0) ?_
  funext a; apply Fin.ext
  match a with
  | ⟨0, _⟩ => show win3_1.index t (0 : Fin 2) * 5000 + 1 * r.val = t.val * 5000 + r.val; omega
  | ⟨1, _⟩ => show win3_1.index t (1 : Fin 2) * 128 + 1 * q.val = q.val; omega

/-- Window 2's block is the whole of its one-row array at every point. -/
theorem blk3_2 (c : Dev nD) (t : Fin cfg3.N) : (iblk3 V c 2 t : Mat 1 128) = V c main_v39 := by
  obtain ⟨e0, e1, -⟩ := idxWhole3 t
  funext y
  show V c main_v39 (((cfg3.win 2).blk t).view.emb y) = V c main_v39 y
  refine congrArg (V c main_v39) ?_
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 3's block is the whole of its one-row array at every point. -/
theorem blk3_3 (c : Dev nD) (t : Fin cfg3.N) : (iblk3 V c 3 t : Mat 1 128) = V c main_v45 := by
  obtain ⟨-, -, e0, e1, -⟩ := idxWhole3 t
  funext y
  show V c main_v45 (((cfg3.win 3).blk t).view.emb y) = V c main_v45 y
  refine congrArg (V c main_v45) ?_
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block is the whole of its one-row array at every point. -/
theorem blk3_4 (c : Dev nD) (t : Fin cfg3.N) : (iblk3 V c 4 t : Mat 1 128) = V c main_v46 := by
  obtain ⟨-, -, -, -, e0, e1, -⟩ := idxWhole3 t
  funext y
  show V c main_v46 (((cfg3.win 4).blk t).view.emb y) = V c main_v46 y
  refine congrArg (V c main_v46) ?_
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Window 5's block is the whole of its one-row array at every point. -/
theorem blk3_5 (c : Dev nD) (t : Fin cfg3.N) : (iblk3 V c 5 t : Mat 1 128) = V c main_v47 := by
  obtain ⟨-, -, -, -, -, -, e0, e1⟩ := idxWhole3 t
  funext y
  show V c main_v47 (((cfg3.win 5).blk t).view.emb y) = V c main_v47 y
  refine congrArg (V c main_v47) ?_
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- What point `t` writes back is band `t` of `normRows` of the arrays as the launch finds them. -/
theorem band3_eq (c : Dev nD) (t : Fin cfg3.N) :
    (dat3 V c).flushed 6 t = ((cfg3.win 6).blk t).view.read (Elt Ideal)
      (normRows (n := 50000) (V c main_v33_0) (V c main_arg0) (V c main_v39) (V c main_v45) (V c main_v46) (V c main_v47)) := by
  show (cfg3.win 6).cut (grid3.coords t) ((dat3 V c).after 6 t) = _
  rw [after3_6]
  unfold out3_6
  rw [View.canon_unit_zero noOffset_nodeFinal]
  simp only [View.ld_unit_zero (S := S5000x128) noOffset_nodeFinal, View.ld_unit_zero (S := S1x128) noOffset_nodeFinal]
  rw [k3_pay1_eq]
  obtain ⟨e0, e1, e2, e3, e4, e5⟩ := idxBanded3 t
  funext j
  show normRows (n := 5000) (iblk3 V c 0 t) (iblk3 V c 1 t) (iblk3 V c 2 t) (iblk3 V c 3 t) (iblk3 V c 4 t) (iblk3 V c 5 t) j
    = normRows (n := 50000) (V c main_v33_0) (V c main_arg0) (V c main_v39) (V c main_v45) (V c main_v46) (V c main_v47) (((cfg3.win 6).blk t).view.emb j)
  rw [blk3_2, blk3_3, blk3_4, blk3_5]
  refine normRows_band3 _ _ _ _ _ _ _ _ (t.val * 5000) (fun r q h => blk3_0 V c t r q h) (fun r q h => blk3_1 V c t r q h) j _ ?_ ?_
  · show win3_6.index t (0 : Fin 2) * 5000 + 1 * (j 0).val = t.val * 5000 + (j 0).val; omega
  · show win3_6.index t (1 : Fin 2) * 128 + 1 * (j 1).val = (j 1).val; omega

/-- An index of the array is in point `t`'s band iff each coordinate is in the band's range on its axis. -/
theorem mem_band3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v48).slice (win3_6.rect t)).set ↔ _
  rw [View.set_slice_whole, Rect.mem_set_unit]
  exact Iff.rfl

/-- Every row lies in the band of the point numbered by its row divided by 5000. -/
theorem bands_cover3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e0, e1, e2, e3, e4, e5⟩ := idxBanded3 t
  refine ⟨t, flush3_6 t, ?_⟩
  rw [mem_band3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The result array after the launch is `normRows` of the six arrays the launch found. -/
theorem final3 (c : Dev nD) : (dat3 V c).arrAt 6 cfg3.N
    = normRows (n := 50000) (V c main_v33_0) (V c main_arg0) (V c main_v39) (V c main_v45) (V c main_v46) (V c main_v47) :=
  (dat3 V c).arrAt_eq_of_cover 6 _ (fun t _ => band3_eq V c t) (bands_cover3)

end Cert.KernelIdeal.Bridge

end
-- ==== Proof.KReg4.lean ====
/-
  Kernel launch 4 (the edge finaliser), read as one whole-array function.

  Its grid has 200 points; point t holds rows 4000 t … 4000 t + 3999 of the value array and of the residual
  array, and the whole one-row arrays of the column mean, the column variance, the scale and the shift. The
  body computes, at row r and column q of its block,
      residual + max (scale q · (value − mean q) · rsqrt (variance q + ε) + shift q, 0),
  which depends only on the array index, not on the block; so the blocks written back are the row bands of
  ONE function `normRows` of the six arrays, and since the bands tile the array, the result array after the
  launch is that function.
-/
import proofs.«150221_j25598005084171_2_alg».proof.Proof.Gen.KernelIdeal.Frame
import proofs.«150221_j25598005084171_2_alg».proof.Proof.KDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Gnn (Mat)

/-- The body's arithmetic on its blocks is `normRows` of the blocks. -/
theorem k4_pay1_eq (x res : Vec Ideal S4000x128 .f32) (var g mu b : Vec Ideal S1x128 .f32) :
    k4_pay1 (F := Ideal) x var g mu b res = normRows (n := 4000) x res mu var g b := by
  funext j
  obtain ⟨r, q, rfl⟩ : ∃ (r : Fin 4000) (q : Fin 128), j = ix2 r q := ⟨j 0, j 1, eq_ix2 j⟩
  unfold k4_pay1 normRows
  simp only [shapeCast_self, addf_apply, mulf_apply, subf_apply, maximumf_apply, broadcast_apply,
    broadcastTo_1b_ab_apply]
  show res (ix2 r q) + max (g (ix2 0 q) * (x (ix2 r q) - mu (ix2 0 q)) * Ideal.rsqrt (var (ix2 0 q) + Ideal.ofBits .f32 0x3727C5AC#32) + b (ix2 0 q))
      (Ideal.ofBits .f32 0x00000000#32) = _
  rw [Ideal.ofBits_zero_f32]
  rfl

/-- A band of rows normalised with the same column statistics is that band of the whole: if the band's two
    matrices hold rows `o …` of the whole ones, the entry at local row `r` is the whole's entry at row `o + r`. -/
theorem normRows_band4 (X R : Mat 800000 128) (xb rb : Mat 4000 128) (mu var g b : Mat 1 128) (o : Nat)
    (hx : ∀ (r : Fin 4000) (q : Fin 128) (h : o + r.val < 800000), xb (ix2 r q) = X (ix2 ⟨o + r.val, h⟩ q))
    (hr : ∀ (r : Fin 4000) (q : Fin 128) (h : o + r.val < 800000), rb (ix2 r q) = R (ix2 ⟨o + r.val, h⟩ q))
    (j : S4000x128.Idx) (e : S800000x128.Idx) (he0 : (e 0).val = o + (j 0).val) (he1 : (e 1).val = (j 1).val) :
    normRows xb rb mu var g b j = normRows X R mu var g b e := by
  have hlt : o + (rowOf j).val < 800000 := by show o + (j 0).val < 800000; have := idx2_lt0 e; omega
  have hidx : (ix2 (⟨o + (rowOf j).val, hlt⟩ : Fin 800000) (⟨(j 1).val, idx2_lt1 j⟩ : Fin 128) : S800000x128.Idx) = e :=
    funext fun a => Fin.ext (by match a with | ⟨0, _⟩ => exact he0.symm | ⟨1, _⟩ => exact he1.symm)
  have hjx : xb j = X e := (congrArg xb (eq_ix2 j)).trans ((hx (rowOf j) ⟨(j 1).val, idx2_lt1 j⟩ hlt).trans (congrArg X hidx))
  have hjr : rb j = R e := (congrArg rb (eq_ix2 j)).trans ((hr (rowOf j) ⟨(j 1).val, idx2_lt1 j⟩ hlt).trans (congrArg R hidx))
  have hcol : colOf j = colOf e := by
    show ix2 (0 : Fin 1) (⟨(j 1).val, idx2_lt1 j⟩ : Fin 128) = ix2 (0 : Fin 1) (⟨(e 1).val, idx2_lt1 e⟩ : Fin 128)
    exact congrArg (ix2 (0 : Fin 1)) (Fin.ext he1.symm)
  unfold normRows
  rw [hjx, hjr, hcol]

variable (V : (c : Dev nD) → (b : Ref sig .tc) → Buf (Elt Ideal) ((c : Thread nD τ).loc b))

theorem noOffset_edgeFinal : (![0, 0] : Fin 2 → Nat) = fun _ => 0 := funext fun a => by fin_cases a <;> rfl

/-- The printed index maps over the grid: the value, residual and result windows move down the rows together … -/
theorem idxBanded4 : ∀ t : Fin cfg4.N, win4_0.index t (0 : Fin 2) = t.val ∧ win4_0.index t (1 : Fin 2) = 0
    ∧ win4_1.index t (0 : Fin 2) = t.val ∧ win4_1.index t (1 : Fin 2) = 0
    ∧ win4_6.index t (0 : Fin 2) = t.val ∧ win4_6.index t (1 : Fin 2) = 0 :=
  (by decide +kernel : ∀ t : Fin grid4.N, _)

/-- … and the four one-row windows stay at block zero. -/
theorem idxWhole4 : ∀ t : Fin cfg4.N, win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Window 0's block at point `t` is rows `4000 t …` of its array. -/
theorem blk4_0 (c : Dev nD) (t : Fin cfg4.N) (r : Fin 4000) (q : Fin 128) (h : t.val * 4000 + r.val < 800000) :
    iblk4 V c 0 t (ix2 r q) = V c main_v20_0 (ix2 ⟨t.val * 4000 + r.val, h⟩ q) := by
  obtain ⟨e0, e1, -⟩ := idxBanded4 t
  show V c main_v20_0 (((cfg4.win 0).blk t).view.emb (ix2 r q)) = _
  refine congrArg (V c main_v20_0) ?_
  funext a; apply Fin.ext
  match a with
  | ⟨0, _⟩ => show win4_0.index t (0 : Fin 2) * 4000 + 1 * r.val = t.val * 4000 + r.val; omega
  | ⟨1, _⟩ => show win4_0.index t (1 : Fin 2) * 128 + 1 * q.val = q.val; omega

/-- Window 1's block at point `t` is rows `4000 t …` of its array. -/
theorem blk4_1 (c : Dev nD) (t : Fin cfg4.N) (r : Fin 4000) (q : Fin 128) (h : t.val * 4000 + r.val < 800000) :
    iblk4 V c 1 t (ix2 r q) = V c main_arg1 (ix2 ⟨t.val * 4000 + r.val, h⟩ q) := by
  obtain ⟨-, -, e0, e1, -⟩ := idxBanded4 t
  show V c main_arg1 (((cfg4.win 1).blk t).view.emb (ix2 r q)) = _
  refine congrArg (V c main_arg1) ?_
  funext a; apply Fin.ext
  match a with
  | ⟨0, _⟩ => show win4_1.index t (0 : Fin 2) * 4000 + 1 * r.val = t.val * 4000 + r.val; omega
  | ⟨1, _⟩ => show win4_1.index t (1 : Fin 2) * 128 + 1 * q.val = q.val; omega

/-- Window 2's block is the whole of its one-row array at every point. -/
theorem blk4_2 (c : Dev nD) (t : Fin cfg4.N) : (iblk4 V c 2 t : Mat 1 128) = V c main_v50 := by
  obtain ⟨e0, e1, -⟩ := idxWhole4 t
  funext y
  show V c main_v50 (((cfg4.win 2).blk t).view.emb y) = V c main_v50 y
  refine congrArg (V c main_v50) ?_
  funext a; apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- Window 3's block is the whole of its one-row array at every point. -/
theorem blk4_3 (c : Dev nD) (t : Fin cfg4.N) : (iblk4 V c 3 t : Mat 1 128) = V c main_v56 := by
  obtain ⟨-, -, e0, e1, -⟩ := idxWhole4 t
  funext y
  show V c main_v56 (((cfg4.win 3).blk t).view.emb y) = V c main_v56 y
  refine congrArg (V c main_v56) ?_
  funext a; apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- Window 4's block is the whole of its one-row array at every point. -/
theorem blk4_4 (c : Dev nD) (t : Fin cfg4.N) : (iblk4 V c 4 t : Mat 1 128) = V c main_v57 := by
  obtain ⟨-, -, -, -, e0, e1, -⟩ := idxWhole4 t
  funext y
  show V c main_v57 (((cfg4.win 4).blk t).view.emb y) = V c main_v57 y
  refine congrArg (V c main_v57) ?_
  funext a; apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Window 5's block is the whole of its one-row array at every point. -/
theorem blk4_5 (c : Dev nD) (t : Fin cfg4.N) : (iblk4 V c 5 t : Mat 1 128) = V c main_v58 := by
  obtain ⟨-, -, -, -, -, -, e0, e1⟩ := idxWhole4 t
  funext y
  show V c main_v58 (((cfg4.win 5).blk t).view.emb y) = V c main_v58 y
  refine congrArg (V c main_v58) ?_
  funext a; apply Fin.ext
  match a with
  | ⟨0, _⟩ => show win4_5.index t (0 : Fin 2) * 1 + 1 * (y 0).val = (y 0).val; omega
  | ⟨1, _⟩ => show win4_5.index t (1 : Fin 2) * 128 + 1 * (y 1).val = (y 1).val; omega

/-- What point `t` writes back is band `t` of `normRows` of the arrays as the launch finds them. -/
theorem band4_eq (c : Dev nD) (t : Fin cfg4.N) :
    (dat4 V c).flushed 6 t = ((cfg4.win 6).blk t).view.read (Elt Ideal)
      (normRows (n := 800000) (V c main_v20_0) (V c main_arg1) (V c main_v50) (V c main_v56) (V c main_v57) (V c main_v58)) := by
  show (cfg4.win 6).cut (grid4.coords t) ((dat4 V c).after 6 t) = _
  rw [after4_6]
  unfold out4_6
  rw [View.canon_unit_zero noOffset_edgeFinal]
  simp only [View.ld_unit_zero (S := S4000x128) noOffset_edgeFinal, View.ld_unit_zero (S := S1x128) noOffset_edgeFinal]
  rw [k4_pay1_eq]
  obtain ⟨e0, e1, e2, e3, e4, e5⟩ := idxBanded4 t
  funext j
  show normRows (n := 4000) (iblk4 V c 0 t) (iblk4 V c 1 t) (iblk4 V c 2 t) (iblk4 V c 3 t) (iblk4 V c 4 t) (iblk4 V c 5 t) j
    = normRows (n := 800000) (V c main_v20_0) (V c main_arg1) (V c main_v50) (V c main_v56) (V c main_v57) (V c main_v58) (((cfg4.win 6).blk t).view.emb j)
  rw [blk4_2, blk4_3, blk4_4, blk4_5]
  refine normRows_band4 _ _ _ _ _ _ _ _ (t.val * 4000) (fun r q h => blk4_0 V c t r q h) (fun r q h => blk4_1 V c t r q h) j _ ?_ ?_
  · show win4_6.index t (0 : Fin 2) * 4000 + 1 * (j 0).val = t.val * 4000 + (j 0).val; omega
  · show win4_6.index t (1 : Fin 2) * 128 + 1 * (j 1).val = (j 1).val; omega

/-- An index of the array is in point `t`'s band iff each coordinate is in the band's range on its axis. -/
theorem mem_band4 (t : Fin cfg4.N) (i : S800000x128.Idx) :
    i ∈ ((cfg4.win 6).blk t).view.set ↔ ∀ a : Fin 2, win4_6.index t a * S4000x128.size a ≤ (i a).val ∧ (i a).val < win4_6.index t a * S4000x128.size a + S4000x128.size a := by
  show i ∈ ((View.whole main_v59).slice (win4_6.rect t)).set ↔ _
  rw [View.set_slice_whole, Rect.mem_set_unit]
  exact Iff.rfl

/-- Every row lies in the band of the point numbered by its row divided by 4000. -/
theorem bands_cover4 (i : S800000x128.Idx) : ∃ t : Fin cfg4.N, (cfg4.win 6).flush t = true ∧ i ∈ ((cfg4.win 6).blk t).view.set := by
  have hi0 : (i 0).val < 800000 := (i 0).isLt
  have hi1 : (i 1).val < 128 := (i 1).isLt
  have hN : cfg4.N = 200 := N_4
  obtain ⟨t, ht⟩ : ∃ t : Fin cfg4.N, t.val = (i 0).val / 4000 := ⟨⟨(i 0).val / 4000, by rw [hN]; omega⟩, rfl⟩
  obtain ⟨e0, e1, e2, e3, e4, e5⟩ := idxBanded4 t
  refine ⟨t, flush4_6 t, ?_⟩
  rw [mem_band4]
  intro a
  match a with
  | ⟨0, _⟩ => show win4_6.index t (0 : Fin 2) * 4000 ≤ (i 0).val ∧ (i 0).val < win4_6.index t (0 : Fin 2) * 4000 + 4000; omega
  | ⟨1, _⟩ => show win4_6.index t (1 : Fin 2) * 128 ≤ (i 1).val ∧ (i 1).val < win4_6.index t (1 : Fin 2) * 128 + 128; omega

/-- The result array after the launch is `normRows` of the six arrays the launch found. -/
theorem final4 (c : Dev nD) : (dat4 V c).arrAt 6 cfg4.N
    = normRows (n := 800000) (V c main_v20_0) (V c main_arg1) (V c main_v50) (V c main_v56) (V c main_v57) (V c main_v58) :=
  (dat4 V c).arrAt_eq_of_cover 6 _ (fun t _ => band4_eq V c t) (bands_cover4)

end Cert.KernelIdeal.Bridge

end
-- ==== Proof.KWalk.lean ====
/-
  Which buffer holds what at which boundary of the kernel program's run.

  The run is ten segments: five stretches of host operations, each followed by a pipelined kernel launch. The
  generated frame proof names the buffer contents at the eleven boundaries. A host stretch rewrites the
  buffers its operations write and no other; a launch rewrites its output arrays and no other buffer (an
  input array it reads through a window is left as found). So a buffer's contents at a boundary are its
  contents at the last boundary before which something wrote it: for an argument array, the launch
  memory. A vector argument reaches a launch as a one-row matrix through a host reshape, whose entry at
  column q is the vector's entry q.
-/
import proofs.«150221_j25598005084171_2_alg».proof.Proof.Gen.KernelIdeal.Frame
import Idealize.ShloMosaic.Lib.StableHlo.Run
import Idealize.ShloMosaic.Lib.ValueIdx
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A buffer that no operation of a host stretch writes holds after the stretch what it held before: the
    stretch's operations are listed, each one's written buffer read off, and the buffer is none of them. -/
macro "host_keeps " ops:ident buf:ident : tactic =>
  `(tactic| exact StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg)

/-! ## The first launch's inputs at its entry -/

/-- Argument 0 enters the first launch as launched. -/
theorem at_V1_arg0 (c : Dev nD) : V1 m ρ c main_arg0 = m ((c : Thread nD τ).loc main_arg0) :=
  calc V1 m ρ c main_arg0
    _ = W0 m ρ c (Proc.devRef .tc main_arg0) := by host_keeps hostOps0 main_arg0
    _ = m ((c : Thread nD τ).loc main_arg0) := rfl

/-- Argument 4 enters the first launch as launched. -/
theorem at_V1_arg4 (c : Dev nD) : V1 m ρ c main_arg4 = m ((c : Thread nD τ).loc main_arg4) :=
  calc V1 m ρ c main_arg4
    _ = W0 m ρ c (Proc.devRef .tc main_arg4) := by host_keeps hostOps0 main_arg4
    _ = m ((c : Thread nD τ).loc main_arg4) := rfl

/-- Argument 6 enters the first launch as launched. -/
theorem at_V1_arg6 (c : Dev nD) : V1 m ρ c main_arg6 = m ((c : Thread nD τ).loc main_arg6) :=
  calc V1 m ρ c main_arg6
    _ = W0 m ρ c (Proc.devRef .tc main_arg6) := by host_keeps hostOps0 main_arg6
    _ = m ((c : Thread nD τ).loc main_arg6) := rfl

/-- Argument 10 enters the first launch as launched. -/
theorem at_V1_arg10 (c : Dev nD) : V1 m ρ c main_arg10 = m ((c : Thread nD τ).loc main_arg10) :=
  calc V1 m ρ c main_arg10
    _ = W0 m ρ c (Proc.devRef .tc main_arg10) := by host_keeps hostOps0 main_arg10
    _ = m ((c : Thread nD τ).loc main_arg10) := rfl

/-- Argument 12 enters the first launch as launched. -/
theorem at_V1_arg12 (c : Dev nD) : V1 m ρ c main_arg12 = m ((c : Thread nD τ).loc main_arg12) :=
  calc V1 m ρ c main_arg12
    _ = W0 m ρ c (Proc.devRef .tc main_arg12) := by host_keeps hostOps0 main_arg12
    _ = m ((c : Thread nD τ).loc main_arg12) := rfl

/-! ## The second launch -/

/-- Argument 1 enters the second launch as launched. -/
theorem at_V3_arg1 (c : Dev nD) : V3 m ρ c main_arg1 = m ((c : Thread nD τ).loc main_arg1) :=
  calc V3 m ρ c main_arg1
    _ = W2 m ρ c (Proc.devRef .tc main_arg1) := by host_keeps hostOps1 main_arg1
    _ = W1 m ρ c (Proc.devRef .tc main_arg1) := W2_of_ne m ρ c main_arg1 (by decide)
    _ = W0 m ρ c (Proc.devRef .tc main_arg1) := by host_keeps hostOps0 main_arg1
    _ = m ((c : Thread nD τ).loc main_arg1) := rfl

/-- Argument 8 enters the second launch as launched. -/
theorem at_V3_arg8 (c : Dev nD) : V3 m ρ c main_arg8 = m ((c : Thread nD τ).loc main_arg8) :=
  calc V3 m ρ c main_arg8
    _ = W2 m ρ c (Proc.devRef .tc main_arg8) := by host_keeps hostOps1 main_arg8
    _ = W1 m ρ c (Proc.devRef .tc main_arg8) := W2_of_ne m ρ c main_arg8 (by decide)
    _ = W0 m ρ c (Proc.devRef .tc main_arg8) := by host_keeps hostOps0 main_arg8
    _ = m ((c : Thread nD τ).loc main_arg8) := rfl

/-- Argument 2 leaves the first launch as launched. -/
theorem at_W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by host_keeps hostOps0 main_arg2
    _ = m ((c : Thread nD τ).loc main_arg2) := rfl

/-- Argument 3 leaves the first launch as launched. -/
theorem at_W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by host_keeps hostOps0 main_arg3
    _ = m ((c : Thread nD τ).loc main_arg3) := rfl

/-- Argument 9 leaves the first launch as launched. -/
theorem at_W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by host_keeps hostOps0 main_arg9
    _ = m ((c : Thread nD τ).loc main_arg9) := rfl

/-! ## The third launch -/

/-- The first launch's first result enters the third launch as the first launch left it. -/
theorem at_V5_v4_0 (c : Dev nD) : V5 m ρ c main_v4_0 = W2 m ρ c (Proc.devRef .tc main_v4_0) :=
  calc V5 m ρ c main_v4_0
    _ = W4 m ρ c (Proc.devRef .tc main_v4_0) := by host_keeps hostOps2 main_v4_0
    _ = W3 m ρ c (Proc.devRef .tc main_v4_0) := W4_of_ne m ρ c main_v4_0 (by decide)
    _ = W2 m ρ c (Proc.devRef .tc main_v4_0) := by host_keeps hostOps1 main_v4_0

/-- Argument 3 leaves the second launch as launched. -/
theorem at_W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps1 main_arg3
    _ = W1 m ρ c (Proc.devRef .tc main_arg3) := W2_of_ne m ρ c main_arg3 (by decide)
    _ = W0 m ρ c (Proc.devRef .tc main_arg3) := by host_keeps hostOps0 main_arg3
    _ = m ((c : Thread nD τ).loc main_arg3) := rfl

/-! ## The fourth launch -/

/-- Argument 0 enters the fourth launch as launched. -/
theorem at_V7_arg0 (c : Dev nD) : V7 m ρ c main_arg0 = m ((c : Thread nD τ).loc main_arg0) :=
  calc V7 m ρ c main_arg0
    _ = W6 m ρ c (Proc.devRef .tc main_arg0) := by host_keeps hostOps3 main_arg0
    _ = W5 m ρ c (Proc.devRef .tc main_arg0) := W6_of_ne m ρ c main_arg0 (by decide)
    _ = W4 m ρ c (Proc.devRef .tc main_arg0) := by host_keeps hostOps2 main_arg0
    _ = W3 m ρ c (Proc.devRef .tc main_arg0) := W4_of_ne m ρ c main_arg0 (by decide)
    _ = W2 m ρ c (Proc.devRef .tc main_arg0) := by host_keeps hostOps1 main_arg0
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by host_keeps hostOps0 main_arg0
    _ = m ((c : Thread nD τ).loc main_arg0) := rfl

/-- The third launch's first result enters the fourth launch as the third launch left it. -/
theorem at_V7_v33_0 (c : Dev nD) : V7 m ρ c main_v33_0 = W6 m ρ c (Proc.devRef .tc main_v33_0) :=
  calc V7 m ρ c main_v33_0
    _ = W6 m ρ c (Proc.devRef .tc main_v33_0) := by host_keeps hostOps3 main_v33_0

/-- Argument 14 leaves the third launch as launched. -/
theorem at_W6_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := by host_keeps hostOps2 main_arg14
    _ = W3 m ρ c (Proc.devRef .tc main_arg14) := W4_of_ne m ρ c main_arg14 (by decide)
    _ = W2 m ρ c (Proc.devRef .tc main_arg14) := by host_keeps hostOps1 main_arg14
    _ = W1 m ρ c (Proc.devRef .tc main_arg14) := W2_of_ne m ρ c main_arg14 (by decide)
    _ = W0 m ρ c (Proc.devRef .tc main_arg14) := by host_keeps hostOps0 main_arg14
    _ = m ((c : Thread nD τ).loc main_arg14) := rfl

/-- Argument 15 leaves the third launch as launched. -/
theorem at_W6_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := by host_keeps hostOps2 main_arg15
    _ = W3 m ρ c (Proc.devRef .tc main_arg15) := W4_of_ne m ρ c main_arg15 (by decide)
    _ = W2 m ρ c (Proc.devRef .tc main_arg15) := by host_keeps hostOps1 main_arg15
    _ = W1 m ρ c (Proc.devRef .tc main_arg15) := W2_of_ne m ρ c main_arg15 (by decide)
    _ = W0 m ρ c (Proc.devRef .tc main_arg15) := by host_keeps hostOps0 main_arg15
    _ = m ((c : Thread nD τ).loc main_arg15) := rfl

/-- The second launch's band sums pass the third launch and the stretch before it. -/
theorem at_W6_v20_2 (c : Dev nD) : W6 m ρ c (Proc.devRef .tc main_v20_2) = W4 m ρ c (Proc.devRef .tc main_v20_2) :=
  calc W6 m ρ c (Proc.devRef .tc main_v20_2)
    _ = W5 m ρ c (Proc.devRef .tc main_v20_2) := W6_of_ne m ρ c main_v20_2 (by decide)
    _ = W4 m ρ c (Proc.devRef .tc main_v20_2) := by host_keeps hostOps2 main_v20_2

/-- The second launch's band sums pass the third launch and the stretch before it. -/
theorem at_W6_v20_3 (c : Dev nD) : W6 m ρ c (Proc.devRef .tc main_v20_3) = W4 m ρ c (Proc.devRef .tc main_v20_3) :=
  calc W6 m ρ c (Proc.devRef .tc main_v20_3)
    _ = W5 m ρ c (Proc.devRef .tc main_v20_3) := W6_of_ne m ρ c main_v20_3 (by decide)
    _ = W4 m ρ c (Proc.devRef .tc main_v20_3) := by host_keeps hostOps2 main_v20_3

/-! ## The fifth launch -/

/-- Argument 1 enters the fifth launch as launched. -/
theorem at_V9_arg1 (c : Dev nD) : V9 m ρ c main_arg1 = m ((c : Thread nD τ).loc main_arg1) :=
  calc V9 m ρ c main_arg1
    _ = W8 m ρ c (Proc.devRef .tc main_arg1) := by host_keeps hostOps4 main_arg1
    _ = W7 m ρ c (Proc.devRef .tc main_arg1) := W8_of_ne m ρ c main_arg1 (by decide)
    _ = W6 m ρ c (Proc.devRef .tc main_arg1) := by host_keeps hostOps3 main_arg1
    _ = W5 m ρ c (Proc.devRef .tc main_arg1) := W6_of_ne m ρ c main_arg1 (by decide)
    _ = W4 m ρ c (Proc.devRef .tc main_arg1) := by host_keeps hostOps2 main_arg1
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := by host_keeps hostOps1 main_arg1
    _ = W1 m ρ c (Proc.devRef .tc main_arg1) := W2_of_ne m ρ c main_arg1 (by decide)
    _ = W0 m ρ c (Proc.devRef .tc main_arg1) := by host_keeps hostOps0 main_arg1
    _ = m ((c : Thread nD τ).loc main_arg1) := rfl

/-- The second launch's first result enters the fifth launch as the second launch left it. -/
theorem at_V9_v20_0 (c : Dev nD) : V9 m ρ c main_v20_0 = W4 m ρ c (Proc.devRef .tc main_v20_0) :=
  calc V9 m ρ c main_v20_0
    _ = W8 m ρ c (Proc.devRef .tc main_v20_0) := by host_keeps hostOps4 main_v20_0
    _ = W7 m ρ c (Proc.devRef .tc main_v20_0) := W8_of_ne m ρ c main_v20_0 (by decide)
    _ = W6 m ρ c (Proc.devRef .tc main_v20_0) := by host_keeps hostOps3 main_v20_0
    _ = W5 m ρ c (Proc.devRef .tc main_v20_0) := W6_of_ne m ρ c main_v20_0 (by decide)
    _ = W4 m ρ c (Proc.devRef .tc main_v20_0) := by host_keeps hostOps2 main_v20_0

/-- Argument 16 leaves the fourth launch as launched. -/
theorem at_W8_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := by host_keeps hostOps3 main_arg16
    _ = W5 m ρ c (Proc.devRef .tc main_arg16) := W6_of_ne m ρ c main_arg16 (by decide)
    _ = W4 m ρ c (Proc.devRef .tc main_arg16) := by host_keeps hostOps2 main_arg16
    _ = W3 m ρ c (Proc.devRef .tc main_arg16) := W4_of_ne m ρ c main_arg16 (by decide)
    _ = W2 m ρ c (Proc.devRef .tc main_arg16) := by host_keeps hostOps1 main_arg16
    _ = W1 m ρ c (Proc.devRef .tc main_arg16) := W2_of_ne m ρ c main_arg16 (by decide)
    _ = W0 m ρ c (Proc.devRef .tc main_arg16) := by host_keeps hostOps0 main_arg16
    _ = m ((c : Thread nD τ).loc main_arg16) := rfl

/-- Argument 17 leaves the fourth launch as launched. -/
theorem at_W8_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := by host_keeps hostOps3 main_arg17
    _ = W5 m ρ c (Proc.devRef .tc main_arg17) := W6_of_ne m ρ c main_arg17 (by decide)
    _ = W4 m ρ c (Proc.devRef .tc main_arg17) := by host_keeps hostOps2 main_arg17
    _ = W3 m ρ c (Proc.devRef .tc main_arg17) := W4_of_ne m ρ c main_arg17 (by decide)
    _ = W2 m ρ c (Proc.devRef .tc main_arg17) := by host_keeps hostOps1 main_arg17
    _ = W1 m ρ c (Proc.devRef .tc main_arg17) := W2_of_ne m ρ c main_arg17 (by decide)
    _ = W0 m ρ c (Proc.devRef .tc main_arg17) := by host_keeps hostOps0 main_arg17
    _ = m ((c : Thread nD τ).loc main_arg17) := rfl

/-- The edge column sums pass the fourth launch. -/
theorem at_W8_v34 (c : Dev nD) : W8 m ρ c (Proc.devRef .tc main_v34) = W7 m ρ c (Proc.devRef .tc main_v34) :=
  calc W8 m ρ c (Proc.devRef .tc main_v34)
    _ = W7 m ρ c (Proc.devRef .tc main_v34) := W8_of_ne m ρ c main_v34 (by decide)

/-- The edge column sums pass the fourth launch. -/
theorem at_W8_v35 (c : Dev nD) : W8 m ρ c (Proc.devRef .tc main_v35) = W7 m ρ c (Proc.devRef .tc main_v35) :=
  calc W8 m ρ c (Proc.devRef .tc main_v35)
    _ = W7 m ρ c (Proc.devRef .tc main_v35) := W8_of_ne m ρ c main_v35 (by decide)

/-! ## The node result -/

/-- The node result passes the fifth launch and the stretch before it. -/
theorem at_W10_v48 (c : Dev nD) : W10 m ρ c (Proc.devRef .tc main_v48) = W8 m ρ c (Proc.devRef .tc main_v48) :=
  calc W10 m ρ c (Proc.devRef .tc main_v48)
    _ = W9 m ρ c (Proc.devRef .tc main_v48) := W10_of_ne m ρ c main_v48 (by decide)
    _ = W8 m ρ c (Proc.devRef .tc main_v48) := by host_keeps hostOps4 main_v48

/-! ## The one-row copies of the vector arguments -/

/-- The one-row copy `main_v0` of the vector argument `main_arg5`, read at column `q`. -/
theorem row_V1_v0 (c : Dev nD) (q : Fin 128) :
    V1 m ρ c main_v0 (ix2 (0 : Fin 1) q) = m ((c : Thread nD τ).loc main_arg5) (ix1 q) := by
  show StableHlo.after hostOps0 (W0 m ρ c) (Proc.devRef .tc main_v0) (ix2 (0 : Fin 1) q) = _
  after_results
  exact shapeCast_a_1a_apply _ _ 0 q

/-- The one-row copy `main_v1` of the vector argument `main_arg7`, read at column `q`. -/
theorem row_V1_v1 (c : Dev nD) (q : Fin 128) :
    V1 m ρ c main_v1 (ix2 (0 : Fin 1) q) = m ((c : Thread nD τ).loc main_arg7) (ix1 q) := by
  show StableHlo.after hostOps0 (W0 m ρ c) (Proc.devRef .tc main_v1) (ix2 (0 : Fin 1) q) = _
  after_results
  exact shapeCast_a_1a_apply _ _ 0 q

/-- The one-row copy `main_v2` of the vector argument `main_arg11`, read at column `q`. -/
theorem row_V1_v2 (c : Dev nD) (q : Fin 128) :
    V1 m ρ c main_v2 (ix2 (0 : Fin 1) q) = m ((c : Thread nD τ).loc main_arg11) (ix1 q) := by
  show StableHlo.after hostOps0 (W0 m ρ c) (Proc.devRef .tc main_v2) (ix2 (0 : Fin 1) q) = _
  after_results
  exact shapeCast_a_1a_apply _ _ 0 q

/-- The one-row copy `main_v3` of the vector argument `main_arg13`, read at column `q`. -/
theorem row_V1_v3 (c : Dev nD) (q : Fin 128) :
    V1 m ρ c main_v3 (ix2 (0 : Fin 1) q) = m ((c : Thread nD τ).loc main_arg13) (ix1 q) := by
  show StableHlo.after hostOps0 (W0 m ρ c) (Proc.devRef .tc main_v3) (ix2 (0 : Fin 1) q) = _
  after_results
  exact shapeCast_a_1a_apply _ _ 0 q

/-- The one-row copy `main_v19` of the vector argument `main_arg9`, read at column `q`. -/
theorem row_V3_v19 (c : Dev nD) (q : Fin 128) :
    V3 m ρ c main_v19 (ix2 (0 : Fin 1) q) = m ((c : Thread nD τ).loc main_arg9) (ix1 q) := by
  show StableHlo.after hostOps1 (W2 m ρ c) (Proc.devRef .tc main_v19) (ix2 (0 : Fin 1) q) = _
  after_results
  rw [at_W2_arg9 m ρ c]
  exact shapeCast_a_1a_apply _ _ 0 q

/-- The one-row copy `main_v46` of the vector argument `main_arg14`, read at column `q`. -/
theorem row_V7_v46 (c : Dev nD) (q : Fin 128) :
    V7 m ρ c main_v46 (ix2 (0 : Fin 1) q) = m ((c : Thread nD τ).loc main_arg14) (ix1 q) := by
  show StableHlo.after hostOps3 (W6 m ρ c) (Proc.devRef .tc main_v46) (ix2 (0 : Fin 1) q) = _
  after_results
  rw [at_W6_arg14 m ρ c]
  exact shapeCast_a_1a_apply _ _ 0 q

/-- The one-row copy `main_v47` of the vector argument `main_arg15`, read at column `q`. -/
theorem row_V7_v47 (c : Dev nD) (q : Fin 128) :
    V7 m ρ c main_v47 (ix2 (0 : Fin 1) q) = m ((c : Thread nD τ).loc main_arg15) (ix1 q) := by
  show StableHlo.after hostOps3 (W6 m ρ c) (Proc.devRef .tc main_v47) (ix2 (0 : Fin 1) q) = _
  after_results
  rw [at_W6_arg15 m ρ c]
  exact shapeCast_a_1a_apply _ _ 0 q

/-- The one-row copy `main_v57` of the vector argument `main_arg16`, read at column `q`. -/
theorem row_V9_v57 (c : Dev nD) (q : Fin 128) :
    V9 m ρ c main_v57 (ix2 (0 : Fin 1) q) = m ((c : Thread nD τ).loc main_arg16) (ix1 q) := by
  show StableHlo.after hostOps4 (W8 m ρ c) (Proc.devRef .tc main_v57) (ix2 (0 : Fin 1) q) = _
  after_results
  rw [at_W8_arg16 m ρ c]
  exact shapeCast_a_1a_apply _ _ 0 q

/-- The one-row copy `main_v58` of the vector argument `main_arg17`, read at column `q`. -/
theorem row_V9_v58 (c : Dev nD) (q : Fin 128) :
    V9 m ρ c main_v58 (ix2 (0 : Fin 1) q) = m ((c : Thread nD τ).loc main_arg17) (ix1 q) := by
  show StableHlo.after hostOps4 (W8 m ρ c) (Proc.devRef .tc main_v58) (ix2 (0 : Fin 1) q) = _
  after_results
  rw [at_W8_arg17 m ρ c]
  exact shapeCast_a_1a_apply _ _ 0 q

end Cert.KernelIdeal.Bridge

end
-- ==== Proof.KHost.lean ====
/-
  The host stretches between the kernel launches, read at an index.

  Between its five launches the kernel program runs ordinary array operations: it normalises the edge endpoints
  and gathers node rows by them; it recomputes the gate 1 / (1 + exp (−e)) from the pre-activation array and
  scatter-adds the messages and the gates into zero arrays by destination; it adds up the per-band column sums
  and forms the column mean and the floored variance (mean of squares minus squared mean) for the nodes and for
  the edges. Each result is stated here as a formula over the buffers the stretch starts from.
-/
import proofs.«150221_j25598005084171_2_alg».proof.Proof.Gen.KernelIdeal.Frame
import proofs.«150221_j25598005084171_2_alg».proof.Proof.Gen.ReferenceIdeal.Read
import proofs.«150221_j25598005084171_2_alg».proof.Proof.Spec
import proofs.«150221_j25598005084171_2_alg».proof.Proof.KDefs
import proofs.«150221_j25598005084171_2_alg».proof.Proof.LibRowGather
import proofs.«150221_j25598005084171_2_alg».proof.Proof.RefEdge
import proofs.«150221_j25598005084171_2_alg».proof.Proof.BnConsts
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx Cert.Gnn

variable (m : (ℓ : Loc nD τ sig) → Buf (Elt Ideal) ℓ) (ρ : Dev nD → PrngReg)

/-- The kernel program's scatter dimension record. -/
local notation "dK" => Cert.KernelIdeal.scatter_S50000x128_S800000x1_S800000x128_1_0_0_1

/-- After the second host stretch, the gathered 256-column rows: row `t` is the row of the side-by-side array that
    edge `t`'s source endpoint selects. -/
theorem gather_V3_v11 (c : Dev nD) (t : Fin 800000) (j : Fin 256) :
    V3 m ρ c main_v11 (ix2 t j)
      = W2 m ρ c (Proc.devRef .tc main_v4_1) (ix2 (rowSel (W2 m ρ c (Proc.devRef .tc main_arg2) (ix1 t))) j) := by
  have h : V3 m ρ c main_v11 = Host.gather gather_S50000x256_S800000x1_S800000x256_1_0_n_n_0_1_1256
      (W2 m ρ c (Proc.devRef .tc main_v4_1))
      (Cert.ReferenceIdeal.Read.val_main_v30 (F := Ideal) (W2 m ρ c (Proc.devRef .tc main_arg2))) := by
    show StableHlo.after hostOps1 (W2 m ρ c) (Proc.devRef .tc main_v11) = _
    after_results
    rfl
  refine (congrFun h (ix2 t j)).trans ?_
  rw [show gather_S50000x256_S800000x1_S800000x256_1_0_n_n_0_1_1256 = rowDims 50000 800000 256 _ from rfl,
    gather_rows_apply (by decide)]
  refine congrArg (fun r => W2 m ρ c (Proc.devRef .tc main_v4_1) (ix2 r j)) (Fin.ext ?_)
  show min (Cert.ReferenceIdeal.Read.val_main_v30 (F := Ideal) (W2 m ρ c (Proc.devRef .tc main_arg2)) (ix2 t ⟨0, Nat.one_pos⟩)).toInt.toNat (50000 - 1) = _
  rw [Cert.ReferenceIdeal.RefValue.norm_v30]
  rfl

set_option maxHeartbeats 1000000 in
/-- After the second host stretch, the gathered 128-column rows: row `t` is the row that edge `t`'s destination
    endpoint selects. -/
theorem gather_V3_v18 (c : Dev nD) (t : Fin 800000) (q : Fin 128) :
    V3 m ρ c main_v18 (ix2 t q)
      = W2 m ρ c (Proc.devRef .tc main_v4_2) (ix2 (rowSel (W2 m ρ c (Proc.devRef .tc main_arg3) (ix1 t))) q) := by
  have h : V3 m ρ c main_v18 = Host.gather gather_S50000x128_S800000x1_S800000x128_1_0_n_n_0_1_1128
      (W2 m ρ c (Proc.devRef .tc main_v4_2))
      (Cert.ReferenceIdeal.Read.val_main_v37 (F := Ideal) (W2 m ρ c (Proc.devRef .tc main_arg3))) := by
    show StableHlo.after hostOps1 (W2 m ρ c) (Proc.devRef .tc main_v18) = _
    after_results
    rfl
  refine (congrFun h (ix2 t q)).trans ?_
  rw [show gather_S50000x128_S800000x1_S800000x128_1_0_n_n_0_1_1128 = rowDims 50000 800000 128 _ from rfl,
    gather_rows_apply (by decide)]
  refine congrArg (fun r => W2 m ρ c (Proc.devRef .tc main_v4_2) (ix2 r q)) (Fin.ext ?_)
  show min (Cert.ReferenceIdeal.Read.val_main_v37 (F := Ideal) (W2 m ρ c (Proc.devRef .tc main_arg3)) (ix2 t ⟨0, Nat.one_pos⟩)).toInt.toNat (50000 - 1) = _
  rw [Cert.ReferenceIdeal.RefValue.norm_v37]
  rfl

/-- After the third host stretch, the message totals: the scatter-add, by destination and into zeros, of the
    message array the second launch left. -/
theorem scatterMsg_V5 (c : Dev nD) :
    V5 m ρ c main_v29 = Ideal.hostScatterAdd dK (fun _ => (0 : EReal))
      (dstCol (W4 m ρ c (Proc.devRef .tc main_arg3))) (W4 m ρ c (Proc.devRef .tc main_v20_1)) := by
  show StableHlo.after hostOps2 (W4 m ρ c) (Proc.devRef .tc main_v29) = _
  after_results
  show Ideal.hostScatterAdd dK (Cert.ReferenceIdeal.Read.val_main_v55 (F := Ideal))
      (Cert.ReferenceIdeal.Read.val_main_v56 (F := Ideal) (W4 m ρ c (Proc.devRef .tc main_arg3)))
      (W4 m ρ c (Proc.devRef .tc main_v20_1)) = _
  congr 1
  · funext i
    rw [Cert.ReferenceIdeal.Read.val_main_v55_apply, Cert.ReferenceIdeal.Read.val_main_cst_6_apply, Ideal.ofBits_def,
      Ideal.ofBits_zero_f32]
  · funext i
    rw [Cert.ReferenceIdeal.Read.val_main_v56_apply]
    exact congrArg (W4 m ρ c (Proc.devRef .tc main_arg3)) (funext fun a => Fin.ext (by match a with | ⟨0, _⟩ => rfl))

/-- The gate as the host spells it, one over one plus the exponential of the negation with the float one as the
    literal, is the logistic function. -/
theorem host_logistic (x : EReal) :
    Ideal.div (Ideal.ofBits .f32 0x3F800000#32) (Ideal.ofBits .f32 0x3F800000#32 + Ideal.exp (-x)) = Ideal.logistic x := by
  rw [Cert.Gnn.ofBits_one]
  rfl

/-- After the third host stretch, the gate totals: the scatter-add, by destination and into zeros, of the gate
    1 / (1 + exp (−e)) of the pre-activation array the second launch left. -/
theorem scatterGate_V5 (c : Dev nD) :
    V5 m ρ c main_v32 = Ideal.hostScatterAdd dK (fun _ => (0 : EReal))
      (dstCol (W4 m ρ c (Proc.devRef .tc main_arg3)))
      (fun i => Ideal.logistic (W4 m ρ c (Proc.devRef .tc main_v20_0) i)) := by
  show StableHlo.after hostOps2 (W4 m ρ c) (Proc.devRef .tc main_v32) = _
  after_results
  show Ideal.hostScatterAdd dK (Cert.ReferenceIdeal.Read.val_main_v55 (F := Ideal))
      (Cert.ReferenceIdeal.Read.val_main_v56 (F := Ideal) (W4 m ρ c (Proc.devRef .tc main_arg3))) _ = _
  congr 1
  · funext i
    rw [Cert.ReferenceIdeal.Read.val_main_v55_apply, Cert.ReferenceIdeal.Read.val_main_cst_6_apply, Ideal.ofBits_def,
      Ideal.ofBits_zero_f32]
  · funext i
    rw [Cert.ReferenceIdeal.Read.val_main_v56_apply]
    exact congrArg (W4 m ρ c (Proc.devRef .tc main_arg3)) (funext fun a => Fin.ext (by match a with | ⟨0, _⟩ => rfl))
  · funext i
    exact host_logistic _

end Cert.KernelIdeal.Bridge

end
-- ==== Proof.KStats.lean ====
/-
  The column statistics the host stretches compute between the launches.

  Before the fourth launch the host adds the per-band column sums of the third launch (ten bands) and of the
  second launch (two hundred bands) over the bands, divides the node sums by the node count to get each
  column's mean and mean square, and floors the mean square minus the squared mean at zero. Before the fifth
  launch it does the same division and floor for the edge sums with the edge count. Each of these is a
  pointwise operation on one-row matrices, or a sum over the leading axis starting from zero; read at a column
  they are the formulas below.
-/
import proofs.«150221_j25598005084171_2_alg».proof.Proof.Gen.KernelIdeal.Frame
import proofs.«150221_j25598005084171_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Gnn

/-! ## The operations read at a column -/

/-- The host's quotient at an index is the quotient of the operands there. -/
theorem hostDivf_apply {s : Shape} {φ : FTy} (a b : FVec Ideal s φ) (i : s.Idx) : Host.divf a b i = Ideal.div (a i) (b i) := rfl

/-- A scalar spread over a one-row matrix reads the scalar everywhere. -/
theorem spread_scalar_apply (y : FVec Ideal S_ .f32) (j : S1x128.Idx) :
    broadcastInDim S1x128 ![] bcast_S_S1x128 y j = y ix0 :=
  broadcastInDim_apply _ bcast_S_S1x128 y j ix0 (fun a => a.elim0)

/-- The zero word spread over a one-row matrix reads zero. -/
theorem spread_zero_apply (j : S1x128.Idx) :
    broadcastInDim S1x128 ![] bcast_S_S1x128 (constant (F := Ideal) S_ .f32 0x00000000#32) j = (0 : EReal) :=
  (spread_scalar_apply _ j).trans Ideal.ofBits_zero_f32

/-- The host's sum over the 200 edge bands, starting from zero, at column `q`. -/
theorem sum200_apply (x : FVec Ideal S200x1x128 .f32) (q : Fin 128) :
    Host.reduceAdd x (constant S_ .f32 0x00000000#32) reducesTo_S200x1x128_S1x128_d0 h_S_ (ix2 (0 : Fin 1) q)
      = ∑ t : Fin 200, x (ix3 t (0 : Fin 1) q) := by
  simp only [Host.reduceAdd, Ideal.hostReduceAdd_def]
  rw [Ideal.hostReduceAdd_single reducesTo_S200x1x128_S1x128_d0 (by decide)]
  have h0 : (constant (F := Ideal) S_ .f32 0x00000000#32) (Shape.Idx.first h_S_) = 0 := Ideal.ofBits_zero_f32
  rw [h0, zero_add]
  exact Finset.sum_congr rfl fun k _ => congrArg x (funext fun a => Fin.ext (by
    match a with | ⟨0, _⟩ => rfl | ⟨1, _⟩ => rfl | ⟨2, _⟩ => rfl))

/-- The host's sum over the 10 node bands, starting from zero, at column `q`. -/
theorem sum10_apply (x : FVec Ideal S10x1x128 .f32) (q : Fin 128) :
    Host.reduceAdd x (constant S_ .f32 0x00000000#32) reducesTo_S10x1x128_S1x128_d0 h_S_ (ix2 (0 : Fin 1) q)
      = ∑ t : Fin 10, x (ix3 t (0 : Fin 1) q) := by
  simp only [Host.reduceAdd, Ideal.hostReduceAdd_def]
  rw [Ideal.hostReduceAdd_single reducesTo_S10x1x128_S1x128_d0 (by decide)]
  have h0 : (constant (F := Ideal) S_ .f32 0x00000000#32) (Shape.Idx.first h_S_) = 0 := Ideal.ofBits_zero_f32
  rw [h0, zero_add]
  exact Finset.sum_congr rfl fun k _ => congrArg x (funext fun a => Fin.ext (by
    match a with | ⟨0, _⟩ => rfl | ⟨1, _⟩ => rfl | ⟨2, _⟩ => rfl))

variable (m : (ℓ : Loc nD τ sig) → Buf (Elt Ideal) ℓ) (ρ : Dev nD → PrngReg)

/-! ## Before the fourth launch -/

/-- The edge column sums: the second launch's per-band sums added over the 200 bands. -/
theorem sum_W7_v34 (c : Dev nD) (q : Fin 128) :
    W7 m ρ c (Proc.devRef .tc main_v34) (ix2 (0 : Fin 1) q)
      = (∑ t : Fin 200, W6 m ρ c (Proc.devRef .tc main_v20_2) (ix3 t (0 : Fin 1) q) : EReal) := by
  show StableHlo.after hostOps3 (W6 m ρ c) (Proc.devRef .tc main_v34) (ix2 (0 : Fin 1) q) = _
  after_results
  exact sum200_apply _ q

/-- The edge column sums of squares, likewise. -/
theorem sum_W7_v35 (c : Dev nD) (q : Fin 128) :
    W7 m ρ c (Proc.devRef .tc main_v35) (ix2 (0 : Fin 1) q)
      = (∑ t : Fin 200, W6 m ρ c (Proc.devRef .tc main_v20_3) (ix3 t (0 : Fin 1) q) : EReal) := by
  show StableHlo.after hostOps3 (W6 m ρ c) (Proc.devRef .tc main_v35) (ix2 (0 : Fin 1) q) = _
  after_results
  exact sum200_apply _ q

/-- The node column mean: the third launch's per-band sums added over the 10 bands, over the node count. -/
theorem mean_V7 (c : Dev nD) (q : Fin 128) :
    V7 m ρ c main_v39 (ix2 (0 : Fin 1) q)
      = Ideal.div (∑ t : Fin 10, W6 m ρ c (Proc.devRef .tc main_v33_1) (ix3 t (0 : Fin 1) q)) cntN := by
  show StableHlo.after hostOps3 (W6 m ρ c) (Proc.devRef .tc main_v39) (ix2 (0 : Fin 1) q) = _
  after_results
  simp only [hostDivf_apply, sum10_apply, spread_scalar_apply]
  rfl

/-- The node column variance: the mean of squares minus the squared mean, floored at zero. -/
theorem var_V7 (c : Dev nD) (q : Fin 128) :
    V7 m ρ c main_v45 (ix2 (0 : Fin 1) q)
      = max (Ideal.div (∑ t : Fin 10, W6 m ρ c (Proc.devRef .tc main_v33_2) (ix3 t (0 : Fin 1) q)) cntN
          - HMul.hMul (α := EReal) (β := EReal) (γ := EReal) (V7 m ρ c main_v39 (ix2 (0 : Fin 1) q)) (V7 m ρ c main_v39 (ix2 (0 : Fin 1) q))) 0 := by
  rw [mean_V7 m ρ c q]
  show StableHlo.after hostOps3 (W6 m ρ c) (Proc.devRef .tc main_v45) (ix2 (0 : Fin 1) q) = _
  after_results_simp
  simp only [maximumf_apply, subf_apply, mulf_apply, hostDivf_apply, sum10_apply]
  rw [spread_zero_apply]
  rfl

/-! ## Before the fifth launch -/

/-- The edge column mean: the column sum over the edge count. -/
theorem mean_V9 (c : Dev nD) (q : Fin 128) :
    V9 m ρ c main_v50 (ix2 (0 : Fin 1) q) = Ideal.div (W8 m ρ c (Proc.devRef .tc main_v34) (ix2 (0 : Fin 1) q)) cntE := by
  show StableHlo.after hostOps4 (W8 m ρ c) (Proc.devRef .tc main_v50) (ix2 (0 : Fin 1) q) = _
  after_results
  simp only [hostDivf_apply, spread_scalar_apply]
  rfl

/-- The edge column variance: the mean of squares minus the squared mean, floored at zero. -/
theorem var_V9 (c : Dev nD) (q : Fin 128) :
    V9 m ρ c main_v56 (ix2 (0 : Fin 1) q)
      = max (Ideal.div (W8 m ρ c (Proc.devRef .tc main_v35) (ix2 (0 : Fin 1) q)) cntE
          - HMul.hMul (α := EReal) (β := EReal) (γ := EReal) (V9 m ρ c main_v50 (ix2 (0 : Fin 1) q)) (V9 m ρ c main_v50 (ix2 (0 : Fin 1) q))) 0 := by
  rw [mean_V9 m ρ c q]
  show StableHlo.after hostOps4 (W8 m ρ c) (Proc.devRef .tc main_v56) (ix2 (0 : Fin 1) q) = _
  after_results
  simp only [maximumf_apply, subf_apply, mulf_apply, hostDivf_apply]
  rw [spread_zero_apply]
  rfl

end Cert.KernelIdeal.Bridge

end
-- ==== Proof.KReg0.lean ====
/-
  The first kernel launch (the node-side linear maps), read as whole-array functions.

  Its grid has ten points; point t holds rows 5000 t … 5000 t + 4999 of the node features, and the whole of
  four 128 × 128 matrices and four one-row biases. On its block x the body computes four times the map
      (r, q) ↦ Σ_k x (r, k) · W (q, k) + b (0, q)
  (a product contracting the second axis of both operands, into a zero accumulator, plus the broadcast bias
  row; the narrowing of the operands to a shorter format is the identity on extended reals). That is `lin2`
  of the block, and `lin2` at a row reads only that row of x, so the ten blocks written back to a result
  array are the ten row bands of `lin2` of the whole feature array. Two of the four results share one
  256-column array, one in columns 0 … 127 and the other in columns 128 … 255: `sideBySide`. The bands tile
  each array, so after the launch each result array is that one function of the launch's inputs.
-/
import proofs.«150221_j25598005084171_2_alg».proof.Proof.Gen.KernelIdeal.Frame
import proofs.«150221_j25598005084171_2_alg».proof.Proof.KDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Gnn

/-! ## The product: where it reads its operands -/

/-- The launch's product record: both operands contracted along their second axis. -/
abbrev dotT : DotDims S5000x128 S128x128 S5000x128 := dot_S5000x128_S128x128_S5000x128_1_1_0_0_n_n

/-- The left operand is read at the result's row … -/
theorem dotT_lhs0 (i : S5000x128.Idx) (k : dotT.contr.Idx) : (dotT.lhsIdx i k 0).val = (i 0).val := by
  unfold DotDims.lhsIdx
  rw [dif_neg (show ¬(0 : Fin S5000x128.rank) ∈ dotT.lhsBatch by decide),
    dif_pos (show (0 : Fin S5000x128.rank) ∈ dotT.lhsNonContracting by decide)]
  rfl
/-- … and at the contraction position; -/
theorem dotT_lhs1 (i : S5000x128.Idx) (k : dotT.contr.Idx) : (dotT.lhsIdx i k 1).val = (k ⟨0, by decide⟩).val :=
  dotT.lhsIdx_val_of_single rfl i k
/-- the right operand at the result's column, as ITS row … -/
theorem dotT_rhs0 (i : S5000x128.Idx) (k : dotT.contr.Idx) : (dotT.rhsIdx i k 0).val = (i 1).val := by
  unfold DotDims.rhsIdx
  rw [dif_neg (show ¬(0 : Fin S128x128.rank) ∈ dotT.rhsBatch by decide),
    dif_pos (show (0 : Fin S128x128.rank) ∈ dotT.rhsNonContracting by decide)]
  rfl
/-- … and at the contraction position. -/
theorem dotT_rhs1 (i : S5000x128.Idx) (k : dotT.contr.Idx) : (dotT.rhsIdx i k 1).val = (k ⟨0, by decide⟩).val :=
  dotT.rhsIdx_val_of_single rfl i k

/-- The product into the zero accumulator at row `r`, column `q`: the sum over `k` of `a (r, k) · w (q, k)`. -/
theorem matmulT_apply {φ₁ φ₂ : FTy} (a : FVec Ideal S5000x128 φ₁) (w : FVec Ideal S128x128 φ₂) (r : Fin 5000) (q : Fin 128) :
    FloatOps.matmul dotT none a w (constant S5000x128 .f32 0x00000000#32) (ix2 r q) = ∑ k : Fin 128, a (ix2 r k) * w (ix2 q k) := by
  rw [Ideal.matmul_constant_zero_apply, ← Equiv.sum_comp (contrEquiv1 dotT 128 rfl rfl).symm]
  refine Finset.sum_congr rfl fun k _ => ?_
  have hk := contrEquiv1_symm_val dotT 128 rfl rfl k
  have el : dotT.lhsIdx (ix2 r q) ((contrEquiv1 dotT 128 rfl rfl).symm k) = ix2 r k := funext fun a => Fin.ext (by
    match a with
    | ⟨0, _⟩ => exact dotT_lhs0 _ _
    | ⟨1, _⟩ => exact (dotT_lhs1 _ _).trans hk)
  have er : dotT.rhsIdx (ix2 r q) ((contrEquiv1 dotT 128 rfl rfl).symm k) = ix2 q k := funext fun a => Fin.ext (by
    match a with
    | ⟨0, _⟩ => exact dotT_rhs0 _ _
    | ⟨1, _⟩ => exact (dotT_rhs1 _ _).trans hk)
  rw [el, er]

/-! ## The body's arithmetic on its blocks -/

/-- The first result's payload is `lin2` of the blocks. -/
theorem k0_pay3_eq (x : Vec Ideal S5000x128 .f32) (W : Vec Ideal S128x128 .f32) (b : Vec Ideal S1x128 .f32) :
    k0_pay3 (F := Ideal) x W b = lin2 (n := 5000) x W b := by
  funext j
  obtain ⟨r, q, rfl⟩ : ∃ (r : Fin 5000) (q : Fin 128), j = ix2 r q := ⟨j 0, j 1, eq_ix2 j⟩
  unfold k0_pay3 k0_pay2 lin2
  simp only [shapeCast_self, addf_apply, broadcastTo_1b_ab_apply]
  refine congrArg₂ (· + ·) ((matmulT_apply _ _ r q).trans ?_) rfl
  rfl

/-- So is the payload of the shared array's left half … -/
theorem k0_pay4_eq (x : Vec Ideal S5000x128 .f32) (W : Vec Ideal S128x128 .f32) (b : Vec Ideal S1x128 .f32) :
    k0_pay4 (F := Ideal) x W b = lin2 (n := 5000) x W b := by
  funext j
  obtain ⟨r, q, rfl⟩ : ∃ (r : Fin 5000) (q : Fin 128), j = ix2 r q := ⟨j 0, j 1, eq_ix2 j⟩
  unfold k0_pay4 k0_pay2 lin2
  simp only [shapeCast_self, addf_apply, broadcastTo_1b_ab_apply]
  refine congrArg₂ (· + ·) ((matmulT_apply _ _ r q).trans ?_) rfl
  rfl

/-- … of its right half … -/
theorem k0_pay5_eq (x : Vec Ideal S5000x128 .f32) (W : Vec Ideal S128x128 .f32) (b : Vec Ideal S1x128 .f32) :
    k0_pay5 (F := Ideal) x W b = lin2 (n := 5000) x W b := by
  funext j
  obtain ⟨r, q, rfl⟩ : ∃ (r : Fin 5000) (q : Fin 128), j = ix2 r q := ⟨j 0, j 1, eq_ix2 j⟩
  unfold k0_pay5 k0_pay2 lin2
  simp only [shapeCast_self, addf_apply, broadcastTo_1b_ab_apply]
  refine congrArg₂ (· + ·) ((matmulT_apply _ _ r q).trans ?_) rfl
  rfl

/-- … and the last result's, whose product and bias are two payloads. -/
theorem k0_pay1_pay6_eq (x : Vec Ideal S5000x128 .f32) (W : Vec Ideal S128x128 .f32) (b : Vec Ideal S1x128 .f32) :
    k0_pay1 (F := Ideal) (k0_pay6 (F := Ideal) x W) b = lin2 (n := 5000) x W b := by
  funext j
  obtain ⟨r, q, rfl⟩ : ∃ (r : Fin 5000) (q : Fin 128), j = ix2 r q := ⟨j 0, j 1, eq_ix2 j⟩
  unfold k0_pay1 k0_pay6 k0_pay2 lin2
  simp only [shapeCast_self, addf_apply, broadcastTo_1b_ab_apply]
  refine congrArg₂ (· + ·) ((matmulT_apply _ _ r q).trans ?_) rfl
  rfl

/-! ## `lin2` and `sideBySide` read row by row -/

/-- `lin2` at a row reads only that row of its first argument: if `xb` is the rows `o, o + 1, …` of `A`, then `lin2` of
    `xb` at `(r, q)` is `lin2` of `A` at `(o + r, q)`. -/
theorem lin2_band (A : Mat 50000 128) (xb : Mat 5000 128) (W : Mat 128 128) (b : Mat 1 128) (o : Nat)
    (hx : ∀ (r : Fin 5000) (k : Fin 128) (h : o + r.val < 50000), xb (ix2 r k) = A (ix2 ⟨o + r.val, h⟩ k))
    (j : S5000x128.Idx) (e : S50000x128.Idx) (he0 : (e 0).val = o + (j 0).val) (he1 : (e 1).val = (j 1).val) :
    lin2 xb W b j = lin2 A W b e := by
  have hrow : ∀ k : Fin 128, xb (ix2 (rowOf j) k) = A (ix2 (rowOf e) k) := fun k => by
    rw [hx (rowOf j) k (by show o + (j 0).val < 50000; have := idx2_lt0 e; omega)]
    exact congrArg (fun p => A (ix2 p k)) (Fin.ext he0.symm)
  have hcol : (⟨(j 1).val, idx2_lt1 j⟩ : Fin 128) = ⟨(e 1).val, idx2_lt1 e⟩ := Fin.ext he1.symm
  show (∑ k : Fin 128, xb (ix2 (rowOf j) k) * W (ix2 (⟨(j 1).val, idx2_lt1 j⟩ : Fin 128) k)) + b (ix2 (0 : Fin 1) (⟨(j 1).val, idx2_lt1 j⟩ : Fin 128))
    = (∑ k : Fin 128, A (ix2 (rowOf e) k) * W (ix2 (⟨(e 1).val, idx2_lt1 e⟩ : Fin 128) k)) + b (ix2 (0 : Fin 1) (⟨(e 1).val, idx2_lt1 e⟩ : Fin 128))
  rw [hcol]
  exact congrArg (· + _) (Finset.sum_congr rfl fun k _ => by rw [hrow k])

/-- In its first 128 columns a side-by-side matrix is its left part … -/
theorem sideBySide_left {n : Nat} (A B : Mat n 128) (e : (⟨2, ![n, 256]⟩ : Shape).Idx) (h : (e 1).val < 128) :
    sideBySide A B e = A (ix2 (rowOf e) (⟨(e 1).val, h⟩ : Fin 128)) := by
  unfold sideBySide; rw [dif_pos h]

/-- … and in its last 128 columns its right part. -/
theorem sideBySide_right {n : Nat} (A B : Mat n 128) (e : (⟨2, ![n, 256]⟩ : Shape).Idx) (h : 128 ≤ (e 1).val) :
    sideBySide A B e = B (ix2 (rowOf e) (⟨(e 1).val - 128, by have := idx2_lt1 e; omega⟩ : Fin 128)) := by
  unfold sideBySide; rw [dif_neg (by omega)]

/-! ## The launch's blocks -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the feature window and the three result windows are at block row `t`,
    block column zero. -/
theorem idx0_banded : ∀ t : Fin cfg0.N, win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The four matrix windows and the four bias windows stay at block zero. -/
theorem idx0_whole : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The feature block at point `t` is rows `5000 t …` of the feature array. -/
theorem blk0_feat (c : Dev nD) (t : Fin cfg0.N) (r : Fin 5000) (k : Fin 128) (h : t.val * 5000 + r.val < 50000) :
    iblk0 V c 0 t (ix2 r k) = V c main_arg0 (ix2 ⟨t.val * 5000 + r.val, h⟩ k) := by
  obtain ⟨e0, e1, -⟩ := idx0_banded t
  show V c main_arg0 (((cfg0.win 0).blk t).view.emb (ix2 r k)) = _
  refine congrArg (V c main_arg0) ?_
  funext a; apply Fin.ext
  match a with
  | ⟨0, _⟩ => show win0_0.index t (0 : Fin 2) * 5000 + 1 * r.val = t.val * 5000 + r.val; omega
  | ⟨1, _⟩ => show win0_0.index t (1 : Fin 2) * 128 + 1 * k.val = k.val; omega

/-- Window 1's block is the whole of its array at every point. -/
theorem blk0_1 (c : Dev nD) (t : Fin cfg0.N) : (iblk0 V c 1 t : Mat 128 128) = V c main_arg4 := by
  obtain ⟨e0, e1, -⟩ := idx0_whole t
  funext y
  show V c main_arg4 (((cfg0.win 1).blk t).view.emb y) = V c main_arg4 y
  refine congrArg (V c main_arg4) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2's block is the whole of its array at every point. -/
theorem blk0_2 (c : Dev nD) (t : Fin cfg0.N) : (iblk0 V c 2 t : Mat 1 128) = V c main_v0 := by
  obtain ⟨-, -, e0, e1, -⟩ := idx0_whole t
  funext y
  show V c main_v0 (((cfg0.win 2).blk t).view.emb y) = V c main_v0 y
  refine congrArg (V c main_v0) ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3's block is the whole of its array at every point. -/
theorem blk0_3 (c : Dev nD) (t : Fin cfg0.N) : (iblk0 V c 3 t : Mat 128 128) = V c main_arg6 := by
  obtain ⟨-, -, -, -, e0, e1, -⟩ := idx0_whole t
  funext y
  show V c main_arg6 (((cfg0.win 3).blk t).view.emb y) = V c main_arg6 y
  refine congrArg (V c main_arg6) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block is the whole of its array at every point. -/
theorem blk0_4 (c : Dev nD) (t : Fin cfg0.N) : (iblk0 V c 4 t : Mat 1 128) = V c main_v1 := by
  obtain ⟨-, -, -, -, -, -, e0, e1, -⟩ := idx0_whole t
  funext y
  show V c main_v1 (((cfg0.win 4).blk t).view.emb y) = V c main_v1 y
  refine congrArg (V c main_v1) ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block is the whole of its array at every point. -/
theorem blk0_5 (c : Dev nD) (t : Fin cfg0.N) : (iblk0 V c 5 t : Mat 128 128) = V c main_arg10 := by
  obtain ⟨-, -, -, -, -, -, -, -, e0, e1, -⟩ := idx0_whole t
  funext y
  show V c main_arg10 (((cfg0.win 5).blk t).view.emb y) = V c main_arg10 y
  refine congrArg (V c main_arg10) ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block is the whole of its array at every point. -/
theorem blk0_6 (c : Dev nD) (t : Fin cfg0.N) : (iblk0 V c 6 t : Mat 1 128) = V c main_v2 := by
  obtain ⟨-, -, -, -, -, -, -, -, -, -, e0, e1, -⟩ := idx0_whole t
  funext y
  show V c main_v2 (((cfg0.win 6).blk t).view.emb y) = V c main_v2 y
  refine congrArg (V c main_v2) ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is the whole of its array at every point. -/
theorem blk0_7 (c : Dev nD) (t : Fin cfg0.N) : (iblk0 V c 7 t : Mat 128 128) = V c main_arg12 := by
  obtain ⟨-, -, -, -, -, -, -, -, -, -, -, -, e0, e1, -⟩ := idx0_whole t
  funext y
  show V c main_arg12 (((cfg0.win 7).blk t).view.emb y) = V c main_arg12 y
  refine congrArg (V c main_arg12) ?_
  funext a; apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block is the whole of its array at every point. -/
theorem blk0_8 (c : Dev nD) (t : Fin cfg0.N) : (iblk0 V c 8 t : Mat 1 128) = V c main_v3 := by
  obtain ⟨-, -, -, -, -, -, -, -, -, -, -, -, -, -, e0, e1⟩ := idx0_whole t
  funext y
  show V c main_v3 (((cfg0.win 8).blk t).view.emb y) = V c main_v3 y
  refine congrArg (V c main_v3) ?_
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-! ## What each point writes back -/

/-- What point `t` writes back to the first result is band `t` of `lin2` of the arrays as the launch finds them. -/
theorem flushed0_9_eq (c : Dev nD) (t : Fin cfg0.N) :
    (dat0 V c).flushed 9 t = ((cfg0.win 9).blk t).view.read (Elt Ideal)
      (lin2 (n := 50000) (V c main_arg0) (V c main_arg4) (V c main_v0)) := by
  show (cfg0.win 9).cut (grid0.coords t) ((dat0 V c).after 9 t) = _
  rw [after0_9]
  unfold out0_9
  rw [View.canon_unit_zero zero_offsets]
  simp only [View.ld_unit_zero (S := S5000x128) zero_offsets, View.ld_unit_zero (S := S128x128) zero_offsets,
    View.ld_unit_zero (S := S1x128) zero_offsets]
  rw [k0_pay3_eq]
  obtain ⟨e0, e1, e2, e3, e4, e5, e6, e7⟩ := idx0_banded t
  funext j
  show lin2 (n := 5000) (iblk0 V c 0 t) (iblk0 V c 1 t) (iblk0 V c 2 t) j
    = lin2 (n := 50000) (V c main_arg0) (V c main_arg4) (V c main_v0) (((cfg0.win 9).blk t).view.emb j)
  rw [blk0_1, blk0_2]
  refine lin2_band _ _ _ _ (t.val * 5000) (fun r k h => blk0_feat V c t r k h) j _ ?_ ?_
  · show win0_9.index t (0 : Fin 2) * 5000 + 1 * (j 0).val = t.val * 5000 + (j 0).val; omega
  · show win0_9.index t (1 : Fin 2) * 128 + 1 * (j 1).val = (j 1).val; omega

/-- What point `t` writes back to the shared 256-column result is band `t` of the two `lin2`s side by side: the
    store into columns 128 … 255 carries the one, the store into columns 0 … 127 the other, and the two
    rectangles cover the block. -/
theorem flushed0_10_eq (c : Dev nD) (t : Fin cfg0.N) :
    (dat0 V c).flushed 10 t = ((cfg0.win 10).blk t).view.read (Elt Ideal)
      (sideBySide (n := 50000) (lin2 (V c main_arg0) (V c main_arg10) (V c main_v2)) (lin2 (V c main_arg0) (V c main_arg6) (V c main_v1))) := by
  show (cfg0.win 10).cut (grid0.coords t) ((dat0 V c).after 10 t) = _
  rw [after0_10]
  unfold out0_10
  simp only [View.ld_unit_zero (S := S5000x128) zero_offsets, View.ld_unit_zero (S := S128x128) zero_offsets,
    View.ld_unit_zero (S := S1x128) zero_offsets]
  rw [k0_pay5_eq, k0_pay4_eq]
  obtain ⟨e0, e1, e2, e3, e4, e5, e6, e7⟩ := idx0_banded t
  funext y
  refine (View.canon_apply_of_pieces (fun y => sideBySide (n := 50000) (lin2 (V c main_arg0) (V c main_arg10) (V c main_v2))
      (lin2 (V c main_arg0) (V c main_arg6) (V c main_v1)) (((cfg0.win 10).blk t).view.emb y)) _ ?_ y (cover0_10 _ _ y)).trans rfl
  intro p hp
  simp only [List.mem_cons, List.not_mem_nil, or_false] at hp
  rcases hp with rfl | rfl
  · intro x
    have h0 : ((((cfg0.win 10).blk t).view.emb (r0_4.emb x)) 0).val = t.val * 5000 + (x 0).val := by
      show win0_10.index t (0 : Fin 2) * 5000 + 1 * (0 + 1 * (x 0).val) = t.val * 5000 + (x 0).val; omega
    have h1 : ((((cfg0.win 10).blk t).view.emb (r0_4.emb x)) 1).val = 128 + (x 1).val := by
      show win0_10.index t (1 : Fin 2) * 256 + 1 * (128 + 1 * (x 1).val) = 128 + (x 1).val; omega
    show lin2 (n := 5000) (iblk0 V c 0 t) (iblk0 V c 3 t) (iblk0 V c 4 t) x = sideBySide (n := 50000) _ _ (((cfg0.win 10).blk t).view.emb (r0_4.emb x))
    generalize ((cfg0.win 10).blk t).view.emb (r0_4.emb x) = e at h0 h1
    rw [sideBySide_right _ _ e (by omega), blk0_3, blk0_4]
    exact lin2_band _ _ _ _ (t.val * 5000) (fun r k h => blk0_feat V c t r k h) x _ h0 (by show (e 1).val - 128 = (x 1).val; omega)
  · intro x
    have h0 : ((((cfg0.win 10).blk t).view.emb (r0_3.emb x)) 0).val = t.val * 5000 + (x 0).val := by
      show win0_10.index t (0 : Fin 2) * 5000 + 1 * (0 + 1 * (x 0).val) = t.val * 5000 + (x 0).val; omega
    have h1 : ((((cfg0.win 10).blk t).view.emb (r0_3.emb x)) 1).val = (x 1).val := by
      show win0_10.index t (1 : Fin 2) * 256 + 1 * (0 + 1 * (x 1).val) = (x 1).val; omega
    have hx1 : (x 1).val < 128 := (x 1).isLt
    show lin2 (n := 5000) (iblk0 V c 0 t) (iblk0 V c 5 t) (iblk0 V c 6 t) x = sideBySide (n := 50000) _ _ (((cfg0.win 10).blk t).view.emb (r0_3.emb x))
    generalize ((cfg0.win 10).blk t).view.emb (r0_3.emb x) = e at h0 h1
    rw [sideBySide_left _ _ e (by omega), blk0_5, blk0_6]
    exact lin2_band _ _ _ _ (t.val * 5000) (fun r k h => blk0_feat V c t r k h) x _ h0 h1

/-- What point `t` writes back to the last result is band `t` of `lin2` of the arrays as the launch finds them. -/
theorem flushed0_11_eq (c : Dev nD) (t : Fin cfg0.N) :
    (dat0 V c).flushed 11 t = ((cfg0.win 11).blk t).view.read (Elt Ideal)
      (lin2 (n := 50000) (V c main_arg0) (V c main_arg12) (V c main_v3)) := by
  show (cfg0.win 11).cut (grid0.coords t) ((dat0 V c).after 11 t) = _
  rw [after0_11]
  unfold out0_11
  rw [View.canon_unit_zero zero_offsets]
  simp only [View.ld_unit_zero (S := S5000x128) zero_offsets, View.ld_unit_zero (S := S128x128) zero_offsets,
    View.ld_unit_zero (S := S1x128) zero_offsets]
  rw [k0_pay1_pay6_eq]
  obtain ⟨e0, e1, e2, e3, e4, e5, e6, e7⟩ := idx0_banded t
  funext j
  show lin2 (n := 5000) (iblk0 V c 0 t) (iblk0 V c 7 t) (iblk0 V c 8 t) j
    = lin2 (n := 50000) (V c main_arg0) (V c main_arg12) (V c main_v3) (((cfg0.win 11).blk t).view.emb j)
  rw [blk0_7, blk0_8]
  refine lin2_band _ _ _ _ (t.val * 5000) (fun r k h => blk0_feat V c t r k h) j _ ?_ ?_
  · show win0_11.index t (0 : Fin 2) * 5000 + 1 * (j 0).val = t.val * 5000 + (j 0).val; omega
  · show win0_11.index t (1 : Fin 2) * 128 + 1 * (j 1).val = (j 1).val; omega

/-! ## The bands tile each result array -/

/-- An index of the array is in point `t`'s band iff each coordinate is in the band's range on its axis. -/
theorem mem_band0_9 (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v4_0).slice (win0_9.rect t)).set ↔ _
  rw [View.set_slice_whole, Rect.mem_set_unit]
  exact Iff.rfl

/-- Every row lies in the band of the point numbered by its row divided by 5000. -/
theorem bands_cover0_9 (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5, e6, e7⟩ := idx0_banded t
  have ht : t.val = (i 0).val / 5000 := rfl
  refine ⟨t, flush0_9 t, ?_⟩
  rw [mem_band0_9]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- An index of the array is in point `t`'s band iff each coordinate is in the band's range on its axis. -/
theorem mem_band0_10 (t : Fin cfg0.N) (i : S50000x256.Idx) :
    i ∈ ((cfg0.win 10).blk t).view.set ↔ ∀ a : Fin 2, win0_10.index t a * S5000x256.size a ≤ (i a).val ∧ (i a).val < win0_10.index t a * S5000x256.size a + S5000x256.size a := by
  show i ∈ ((View.whole main_v4_1).slice (win0_10.rect t)).set ↔ _
  rw [View.set_slice_whole, Rect.mem_set_unit]
  exact Iff.rfl

/-- Every row lies in the band of the point numbered by its row divided by 5000. -/
theorem bands_cover0_10 (i : S50000x256.Idx) : ∃ t : Fin cfg0.N, (cfg0.win 10).flush t = true ∧ i ∈ ((cfg0.win 10).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨e0, e1, e2, e3, e4, e5, e6, e7⟩ := idx0_banded t
  have ht : t.val = (i 0).val / 5000 := rfl
  refine ⟨t, flush0_10 t, ?_⟩
  rw [mem_band0_10]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 256 ≤ (i 1).val ∧ (i 1).val < win0_10.index t (1 : Fin 2) * 256 + 256; omega

/-- An index of the array is in point `t`'s band iff each coordinate is in the band's range on its axis. -/
theorem mem_band0_11 (t : Fin cfg0.N) (i : S50000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v4_2).slice (win0_11.rect t)).set ↔ _
  rw [View.set_slice_whole, Rect.mem_set_unit]
  exact Iff.rfl

/-- Every row lies in the band of the point numbered by its row divided by 5000. -/
theorem bands_cover0_11 (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5, e6, e7⟩ := idx0_banded t
  have ht : t.val = (i 0).val / 5000 := rfl
  refine ⟨t, flush0_11 t, ?_⟩
  rw [mem_band0_11]
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 128 ≤ (i 1).val ∧ (i 1).val < win0_11.index t (1 : Fin 2) * 128 + 128; omega

/-! ## The arrays after the launch -/

/-- The first result array after the launch. -/
theorem final0_9 (c : Dev nD) : (dat0 V c).arrAt 9 cfg0.N = lin2 (n := 50000) (V c main_arg0) (V c main_arg4) (V c main_v0) :=
  (dat0 V c).arrAt_eq_of_cover 9 _ (fun t _ => flushed0_9_eq V c t) bands_cover0_9

/-- The shared 256-column result array after the launch. -/
theorem final0_10 (c : Dev nD) : (dat0 V c).arrAt 10 cfg0.N = sideBySide (n := 50000) (lin2 (V c main_arg0) (V c main_arg10) (V c main_v2)) (lin2 (V c main_arg0) (V c main_arg6) (V c main_v1)) :=
  (dat0 V c).arrAt_eq_of_cover 10 _ (fun t _ => flushed0_10_eq V c t) bands_cover0_10

/-- The last result array after the launch. -/
theorem final0_11 (c : Dev nD) : (dat0 V c).arrAt 11 cfg0.N = lin2 (n := 50000) (V c main_arg0) (V c main_arg12) (V c main_v3) :=
  (dat0 V c).arrAt_eq_of_cover 11 _ (fun t _ => flushed0_11_eq V c t) bands_cover0_11

end Cert.KernelIdeal.Bridge

end
-- ==== Proof.LibPairLayout.lean ====
/-
  Layout operations a pairwise table goes through, read at an index.

  A table over pairs `(i, j)` of rows of one `[a, b]` matrix is built by casting the matrix to `[a, 1, b]` and to
  `[1, a, b]` and repeating each along the unit axis: at `(i, j, r)` the first reads row `i`, the second row `j`.  A
  `[a, b]` table of weights is given a trailing unit axis and repeated along it.  Sums over the leading axis of the
  rank-three and rank-two results are plain sums over that axis's coordinate.
-/
import Idealize.ShloMosaic.Lib.Pipeline.Value
import Idealize.ShloMosaic.Lib.ValueIdx
import Idealize.ShloMosaic.PureOps.Ideal.Laws

namespace Idealize.ShloMosaic.ValueIdx

variable {α : Type}

/-- An `[a, b]` array cast to `[a, 1, b]` reads, at `(i, u, j)`, the operand at `(i, j)`: in row-major order the
    position is `(i · 1 + u) · b + j = i · b + j`, the unit coordinate being `0`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b]` array repeated along its unit axis to `[a, c, b]` reads, at `(i, k, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, a, b]` array repeated along its unit axis to `[c, a, b]` reads, at `(k, i, j)`, the operand at `(0, i, j)`. -/
theorem broadcastTo_1ab_cab_apply {a b c : ℕ} (v : (⟨3, ![1, a, b]⟩ : Shape).Idx → α)
    (h : (⟨3, ![1, a, b]⟩ : Shape).Broadcasts ⟨3, ![c, a, b]⟩) (k : Fin c) (i : Fin a) (j : Fin b) :
    broadcastTo ⟨3, ![c, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `[a, b, 1]` array repeated along its unit axis to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- At the exact values, the sum over the leading axis of an `[a, b, c]` array, read at `(j, r)`, is the sum over `k` of
    the entries `(k, j, r)`. -/
theorem sum_leading_of3 {a b c : ℕ} {φ : FTy} (src : FVec Ideal ⟨3, ![a, b, c]⟩ φ) (acc : BitVec φ.bits)
    (h : (⟨3, ![a, b, c]⟩ : Shape).Reduces [(0 : Fin 3)] ⟨2, ![b, c]⟩) (hφ : FKind.Formats φ)
    (hacc : acc = FKind.add.neutral φ hφ) (j : Fin b) (r : Fin c) :
    multiReduction .add [(0 : Fin 3)] ⟨2, ![b, c]⟩ src acc h hφ hacc (ix2 j r) = ∑ k : Fin a, src (ix3 k j r) := by
  rw [Ideal.multiReduction_add_single]
  refine Finset.sum_congr rfl fun k _ => congrArg src ?_
  funext d
  apply Fin.ext
  match d with
  | ⟨0, _⟩ => rfl
  | ⟨1, _⟩ => rfl
  | ⟨2, _⟩ => rfl

/-- At the exact values, the sum over the leading axis of an `[a, b]` array, read at `r`, is the sum over `k` of the
    entries `(k, r)`. -/
theorem sum_leading_of2 {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (r : Fin b) :
    multiReduction .add [(0 : Fin 2)] ⟨1, ![b]⟩ src acc h hφ hacc (ix1 r) = ∑ k : Fin a, src (ix2 k r) := by
  rw [Ideal.multiReduction_add_single]
  refine Finset.sum_congr rfl fun k _ => congrArg src ?_
  funext d
  apply Fin.ext
  match d with
  | ⟨0, _⟩ => rfl
  | ⟨1, _⟩ => rfl

end Idealize.ShloMosaic.ValueIdx
-- ==== Proof.LibUnitCast.lean ====
/-
  A VECTOR GIVEN TWO LEADING UNIT AXES, READ AT AN INDEX. A `[b]` array cast to `[1, 1, b]` reads, at `(u, v, j)`, the
  operand at `j`: in row-major order the position is `(u · 1 + v) · b + j = j`, both unit coordinates being `0`. This is
  what `vector.shape_cast` of a row of column sums to a `[1, 1, b]` block is, element by element.
-/
import Idealize.ShloMosaic.Lib.Pipeline.Value
import Idealize.ShloMosaic.Lib.ValueIdx

namespace Idealize.ShloMosaic.ValueIdx

variable {α : Type}

/-- A `[b]` array cast to `[1, 1, b]` reads, at `(u, v, j)`, the operand at `j`. -/
theorem shapeCast_b_11b_apply {b : ℕ} (x : (⟨1, ![b]⟩ : Shape).Idx → α)
    (h : (⟨1, ![b]⟩ : Shape).ShapeCasts ⟨3, ![1, 1, b]⟩) (u v : Fin 1) (j : Fin b) :
    shapeCast ⟨3, ![1, 1, b]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * b + j.val
    rw [hu, hv]
    simp)

end Idealize.ShloMosaic.ValueIdx
-- ==== Proof.KReg1.lean ====
/-
  Kernel launch 1 (the edge stage), read as whole-array functions.

  Its grid has 200 points; point t holds rows 4000 t … 4000 t + 3999 of the edge features, of the two gathered
  arrays (one of them two 128-column halves side by side) and of the two row-banded results, the whole weight
  matrix and bias row, and row t of the two arrays of per-band column sums. At row r and column q of its block
  the body computes
      pre = (left half + other gathered row) + (Σ_k edge r k · W q k + bias q),     msg = right half · logistic pre,
  and, per column, the sum over the block's 4000 rows of pre and of pre². The first two depend only on the array
  index, not on the block, so the blocks written back are the row bands of ONE function of the five arrays
  (`edgePre`, `edgeMsg`); the sums written at row t are the sums over band t of those functions (`bandSums`). Since
  the bands tile each array, each result array after the launch is that function.
-/
import proofs.«150221_j25598005084171_2_alg».proof.Proof.Gen.KernelIdeal.Frame
import proofs.«150221_j25598005084171_2_alg».proof.Proof.KDefs
import proofs.«150221_j25598005084171_2_alg».proof.Proof.LibPairLayout
import proofs.«150221_j25598005084171_2_alg».proof.Proof.LibUnitCast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Gnn (Mat)

/-- The left operand's row is the result's row. -/
theorem lhsRow1 (j : S4000x128.Idx) (k : dot_S4000x128_S128x128_S4000x128_1_1_0_0_n_n.contr.Idx) : (dot_S4000x128_S128x128_S4000x128_1_1_0_0_n_n.lhsIdx j k 0).val = (j 0).val := by
  unfold DotDims.lhsIdx
  rw [dif_neg (show ¬(0 : Fin S4000x128.rank) ∈ dot_S4000x128_S128x128_S4000x128_1_1_0_0_n_n.lhsBatch by decide),
    dif_pos (show (0 : Fin S4000x128.rank) ∈ dot_S4000x128_S128x128_S4000x128_1_1_0_0_n_n.lhsNonContracting by decide)]
  rfl

/-- The right operand's row is the result's column. -/
theorem rhsRow1 (j : S4000x128.Idx) (k : dot_S4000x128_S128x128_S4000x128_1_1_0_0_n_n.contr.Idx) : (dot_S4000x128_S128x128_S4000x128_1_1_0_0_n_n.rhsIdx j k 0).val = (j 1).val := by
  unfold DotDims.rhsIdx
  rw [dif_neg (show ¬(0 : Fin S128x128.rank) ∈ dot_S4000x128_S128x128_S4000x128_1_1_0_0_n_n.rhsBatch by decide),
    dif_pos (show (0 : Fin S128x128.rank) ∈ dot_S4000x128_S128x128_S4000x128_1_1_0_0_n_n.rhsNonContracting by decide)]
  rfl

/-- The product into a zero accumulator, at `(r, q)`: the sum over `k` of `e r k · w q k` (the narrowing of the operands
    is the identity on exact values). -/
theorem matmul1_apply (e : Vec Ideal S4000x128 .f32) (w : Vec Ideal S128x128 .f32) (r : Fin 4000) (q : Fin 128) :
    matmul dot_S4000x128_S128x128_S4000x128_1_1_0_0_n_n none (truncf .bf16 e bitsLt_bf16_f32 : FVec Ideal S4000x128 .bf16)
        (truncf .bf16 w bitsLt_bf16_f32 : FVec Ideal S128x128 .bf16) (constant S4000x128 .f32 0x00000000#32) (ix2 r q)
      = ∑ k : Fin 128, e (ix2 r k) * w (ix2 q k) := by
  show FloatOps.matmul dot_S4000x128_S128x128_S4000x128_1_1_0_0_n_n none _ _ (constant S4000x128 .f32 0x00000000#32) (ix2 r q) = _
  rw [Ideal.matmul_constant_zero_apply, ← Equiv.sum_comp (contrEquiv1 dot_S4000x128_S128x128_S4000x128_1_1_0_0_n_n 128 rfl rfl).symm]
  refine Finset.sum_congr rfl fun k _ => ?_
  have hk := contrEquiv1_symm_val dot_S4000x128_S128x128_S4000x128_1_1_0_0_n_n 128 rfl rfl k
  have el : dot_S4000x128_S128x128_S4000x128_1_1_0_0_n_n.lhsIdx (ix2 r q) ((contrEquiv1 dot_S4000x128_S128x128_S4000x128_1_1_0_0_n_n 128 rfl rfl).symm k) = ix2 r k := funext fun a => Fin.ext (by
    match a with
    | ⟨0, _⟩ => exact lhsRow1 _ _
    | ⟨1, _⟩ => exact (dot_S4000x128_S128x128_S4000x128_1_1_0_0_n_n.lhsIdx_val_of_single rfl _ _).trans hk)
  have er : dot_S4000x128_S128x128_S4000x128_1_1_0_0_n_n.rhsIdx (ix2 r q) ((contrEquiv1 dot_S4000x128_S128x128_S4000x128_1_1_0_0_n_n 128 rfl rfl).symm k) = ix2 q k := funext fun a => Fin.ext (by
    match a with
    | ⟨0, _⟩ => exact rhsRow1 _ _
    | ⟨1, _⟩ => exact (dot_S4000x128_S128x128_S4000x128_1_1_0_0_n_n.rhsIdx_val_of_single rfl _ _).trans hk)
  rw [el, er]
  rfl

/-- The first payload at `(r, q)`. -/
theorem k1_pay1_apply (e : Vec Ideal S4000x128 .f32) (w : Vec Ideal S128x128 .f32) (b : Vec Ideal S1x128 .f32)
    (l h : Vec Ideal S4000x128 .f32) (r : Fin 4000) (q : Fin 128) :
    k1_pay1 (F := Ideal) e w b l h (ix2 r q)
      = (l (ix2 r q) + h (ix2 r q)) + ((∑ k : Fin 128, e (ix2 r k) * w (ix2 q k)) + b (ix2 (0 : Fin 1) q)) := by
  unfold k1_pay1
  simp only [shapeCast_self, addf_apply, broadcastTo_1b_ab_apply, matmul1_apply]

/-- The load of columns 0 … 127 of a 256-column block is its left half. -/
theorem ld_left (x : Vec Ideal S4000x256 .f32) (r : Fin 4000) (q : Fin 128) :
    View.ld x r1_3 (ix2 r q) = leftHalf (n := 4000) x (ix2 r q) :=
  congrArg x (funext fun a => Fin.ext (by
    match a with
    | ⟨0, _⟩ => show 0 + 1 * r.val = r.val; omega
    | ⟨1, _⟩ => show 0 + 1 * q.val = q.val; omega))

/-- The load of columns 128 … 255 is its right half. -/
theorem ld_right (x : Vec Ideal S4000x256 .f32) (r : Fin 4000) (q : Fin 128) :
    View.ld x r1_4 (ix2 r q) = rightHalf (n := 4000) x (ix2 r q) :=
  congrArg x (funext fun a => Fin.ext (by
    match a with
    | ⟨0, _⟩ => show 0 + 1 * r.val = r.val; omega
    | ⟨1, _⟩ => show 128 + 1 * q.val = 128 + q.val; omega))

/-- The first payload of the loaded blocks is `edgePre` of the blocks. -/
theorem k1_pay1_block (e : Vec Ideal S4000x128 .f32) (d2 : Vec Ideal S4000x256 .f32) (h : Vec Ideal S4000x128 .f32)
    (w : Vec Ideal S128x128 .f32) (b : Vec Ideal S1x128 .f32) :
    k1_pay1 (F := Ideal) e w b (View.ld d2 r1_3) h = edgePre (n := 4000) e d2 h w b := by
  funext j
  obtain ⟨r, q, rfl⟩ : ∃ (r : Fin 4000) (q : Fin 128), j = ix2 r q := ⟨j 0, j 1, eq_ix2 j⟩
  rw [k1_pay1_apply, ld_left]
  rfl

/-- The second payload of the loaded blocks is `edgeMsg` of the blocks. -/
theorem k1_pay2_block (e : Vec Ideal S4000x128 .f32) (d2 : Vec Ideal S4000x256 .f32) (h : Vec Ideal S4000x128 .f32)
    (w : Vec Ideal S128x128 .f32) (b : Vec Ideal S1x128 .f32) :
    k1_pay2 (F := Ideal) e w b (View.ld d2 r1_3) (View.ld d2 r1_4) h = edgeMsg (n := 4000) e d2 h w b := by
  funext j
  obtain ⟨r, q, rfl⟩ : ∃ (r : Fin 4000) (q : Fin 128), j = ix2 r q := ⟨j 0, j 1, eq_ix2 j⟩
  unfold k1_pay2
  simp only [shapeCast_self, mulf_apply]
  show View.ld d2 r1_4 (ix2 r q) * Ideal.logistic (k1_pay1 (F := Ideal) e w b (View.ld d2 r1_3) h (ix2 r q)) = _
  rw [k1_pay1_block, ld_right]
  rfl

/-- The third payload at `(u, v, q)`: the sum over the block's rows of `edgePre` of the blocks in column `q`. -/
theorem k1_pay3_block (e : Vec Ideal S4000x128 .f32) (d2 : Vec Ideal S4000x256 .f32) (h : Vec Ideal S4000x128 .f32)
    (w : Vec Ideal S128x128 .f32) (b : Vec Ideal S1x128 .f32) (u v : Fin 1) (q : Fin 128) :
    k1_pay3 (F := Ideal) e w b (View.ld d2 r1_3) h (ix3 u v q) = ∑ r : Fin 4000, edgePre (n := 4000) e d2 h w b (ix2 r q) := by
  unfold k1_pay3
  refine (shapeCast_b_11b_apply _ _ u v q).trans ?_
  refine (sum_leading_of2 _ _ _ _ _ q).trans ?_
  rw [k1_pay1_block]

/-- The fourth payload at `(u, v, q)`: the same sum of the squares. -/
theorem k1_pay4_block (e : Vec Ideal S4000x128 .f32) (d2 : Vec Ideal S4000x256 .f32) (h : Vec Ideal S4000x128 .f32)
    (w : Vec Ideal S128x128 .f32) (b : Vec Ideal S1x128 .f32) (u v : Fin 1) (q : Fin 128) :
    k1_pay4 (F := Ideal) e w b (View.ld d2 r1_3) h (ix3 u v q)
      = ∑ r : Fin 4000, squares (edgePre (n := 4000) e d2 h w b) (ix2 r q) := by
  unfold k1_pay4
  refine (shapeCast_b_11b_apply _ _ u v q).trans ?_
  refine (sum_leading_of2 _ _ _ _ _ q).trans ?_
  rw [k1_pay1_block]
  rfl

/-- Two index positions at which the five arrays have the same entries give the same `edgePre` entry. -/
theorem edgePre_congr {n n' : Nat} (E : Mat n 128) (D2 : Mat n 256) (H : Mat n 128) (W : Mat 128 128) (b : Mat 1 128)
    (E' : Mat n' 128) (D2' : Mat n' 256) (H' : Mat n' 128) (W' : Mat 128 128) (b' : Mat 1 128)
    (i : (⟨2, ![n, 128]⟩ : Shape).Idx) (i' : (⟨2, ![n', 128]⟩ : Shape).Idx)
    (hD : leftHalf D2 i = leftHalf D2' i') (hH : H i = H' i')
    (hE : ∀ k : Fin 128, E (ix2 (rowOf i) k) = E' (ix2 (rowOf i') k))
    (hW : ∀ k : Fin 128, W (ix2 (⟨(i 1).val, idx2_lt1 i⟩ : Fin 128) k) = W' (ix2 (⟨(i' 1).val, idx2_lt1 i'⟩ : Fin 128) k))
    (hb : b (colOf i) = b' (colOf i')) :
    edgePre E D2 H W b i = edgePre E' D2' H' W' b' i' := by
  have hs : (∑ k : Fin 128, E (ix2 (rowOf i) k) * W (ix2 (⟨(i 1).val, idx2_lt1 i⟩ : Fin 128) k))
      = ∑ k : Fin 128, E' (ix2 (rowOf i') k) * W' (ix2 (⟨(i' 1).val, idx2_lt1 i'⟩ : Fin 128) k) :=
    Finset.sum_congr rfl fun k _ => by rw [hE k, hW k]
  unfold edgePre lin2
  rw [hD, hH, hb, hs]

/-- The same for `edgeMsg`, given also the right halves agree. -/
theorem edgeMsg_congr {n n' : Nat} (E : Mat n 128) (D2 : Mat n 256) (H : Mat n 128) (W : Mat 128 128) (b : Mat 1 128)
    (E' : Mat n' 128) (D2' : Mat n' 256) (H' : Mat n' 128) (W' : Mat 128 128) (b' : Mat 1 128)
    (i : (⟨2, ![n, 128]⟩ : Shape).Idx) (i' : (⟨2, ![n', 128]⟩ : Shape).Idx)
    (hR : rightHalf D2 i = rightHalf D2' i') (hP : edgePre E D2 H W b i = edgePre E' D2' H' W' b' i') :
    edgeMsg E D2 H W b i = edgeMsg E' D2' H' W' b' i' := by
  unfold edgeMsg
  rw [hR, hP]

variable (V : (c : Dev nD) → (b : Ref sig .tc) → Buf (Elt Ideal) ((c : Thread nD τ).loc b))

theorem zeroOffsets2 : (![0, 0] : Fin 2 → Nat) = fun _ => 0 := funext fun a => by fin_cases a <;> rfl
theorem zeroOffsets3 : (![0, 0, 0] : Fin 3 → Nat) = fun _ => 0 := funext fun a => by fin_cases a <;> rfl

/-- The printed index maps over the grid: the five row-banded windows are at block row `t`, the weight matrix and the
    bias row stay at block zero, and the two windows of per-band sums are at block `(t, 0, 0)`. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 3) = t.val ∧ win1_7.index t (1 : Fin 3) = 0 ∧ win1_7.index t (2 : Fin 3) = 0
    ∧ win1_8.index t (0 : Fin 3) = t.val ∧ win1_8.index t (1 : Fin 3) = 0 ∧ win1_8.index t (2 : Fin 3) = 0 :=
  (by decide +kernel : ∀ t : Fin grid1.N, _)

/-- At a row `p` of the whole arrays that is row `r` of band `t`, and a column `q`, `edgePre` of the point's blocks at
    `(r, q)` is `edgePre` of the arrays at `(p, q)`: each block entry read is the array entry the window places it at. -/
theorem edgePre_block (c : Dev nD) (t : Fin cfg1.N) (r : Fin 4000) (q : Fin 128) (p : Fin 800000)
    (hp : p.val = t.val * 4000 + r.val) :
    edgePre (n := 4000) (iblk1 V c 0 t) (iblk1 V c 1 t) (iblk1 V c 2 t) (iblk1 V c 3 t) (iblk1 V c 4 t) (ix2 r q) = edgePre (n := 800000) (V c main_arg1) (V c main_v11) (V c main_v18) (V c main_arg8) (V c main_v19) (ix2 p q) := by
  obtain ⟨e00, e01, e10, e11, e20, e21, e30, e31, e40, e41, -⟩ := blockIdx1 t
  have hD : ((cfg1.win 1).blk t).view.emb (ix2 r (⟨q.val, by omega⟩ : Fin 256)) = ix2 p (⟨q.val, by omega⟩ : Fin 256) := by
    funext a; apply Fin.ext
    match a with
    | ⟨0, _⟩ => show win1_1.index t (0 : Fin 2) * 4000 + 1 * r.val = p.val; omega
    | ⟨1, _⟩ => show win1_1.index t (1 : Fin 2) * 256 + 1 * q.val = q.val; omega
  have hH : ((cfg1.win 2).blk t).view.emb (ix2 r q) = ix2 p q := by
    funext a; apply Fin.ext
    match a with
    | ⟨0, _⟩ => show win1_2.index t (0 : Fin 2) * 4000 + 1 * r.val = p.val; omega
    | ⟨1, _⟩ => show win1_2.index t (1 : Fin 2) * 128 + 1 * q.val = q.val; omega
  have hE : ∀ k : Fin 128, ((cfg1.win 0).blk t).view.emb (ix2 r k) = ix2 p k := fun k => by
    funext a; apply Fin.ext
    match a with
    | ⟨0, _⟩ => show win1_0.index t (0 : Fin 2) * 4000 + 1 * r.val = p.val; omega
    | ⟨1, _⟩ => show win1_0.index t (1 : Fin 2) * 128 + 1 * k.val = k.val; omega
  have hW : ∀ k : Fin 128, ((cfg1.win 3).blk t).view.emb (ix2 q k) = ix2 q k := fun k => by
    funext a; apply Fin.ext
    match a with
    | ⟨0, _⟩ => show win1_3.index t (0 : Fin 2) * 128 + 1 * q.val = q.val; omega
    | ⟨1, _⟩ => show win1_3.index t (1 : Fin 2) * 128 + 1 * k.val = k.val; omega
  have hb : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 128 + 1 * q.val = q.val; omega
  exact edgePre_congr (iblk1 V c 0 t) (iblk1 V c 1 t) (iblk1 V c 2 t) (iblk1 V c 3 t) (iblk1 V c 4 t) (V c main_arg1) (V c main_v11) (V c main_v18) (V c main_arg8) (V c main_v19) (ix2 r q) (ix2 p q)
    (congrArg (V c main_v11) hD) (congrArg (V c main_v18) hH) (fun k => congrArg (V c main_arg1) (hE k))
    (fun k => congrArg (V c main_arg8) (hW k)) (congrArg (V c main_v19) hb)

/-- The same for the right half of the gathered pair. -/
theorem rightHalf_block (c : Dev nD) (t : Fin cfg1.N) (r : Fin 4000) (q : Fin 128) (p : Fin 800000)
    (hp : p.val = t.val * 4000 + r.val) :
    rightHalf (n := 4000) (iblk1 V c 1 t) (ix2 r q) = rightHalf (n := 800000) (V c main_v11) (ix2 p q) := by
  obtain ⟨e00, e01, e10, e11, -⟩ := blockIdx1 t
  have hD : ((cfg1.win 1).blk t).view.emb (ix2 r (⟨128 + q.val, by omega⟩ : Fin 256)) = ix2 p (⟨128 + q.val, by omega⟩ : Fin 256) := by
    funext a; apply Fin.ext
    match a with
    | ⟨0, _⟩ => show win1_1.index t (0 : Fin 2) * 4000 + 1 * r.val = p.val; omega
    | ⟨1, _⟩ => show win1_1.index t (1 : Fin 2) * 256 + 1 * (128 + q.val) = 128 + q.val; omega
  exact congrArg (V c main_v11) hD

/-- What point `t` writes back through window 5 is band `t` of `edgePre` of the arrays as the launch finds them. -/
theorem band1_5_eq (c : Dev nD) (t : Fin cfg1.N) :
    (dat1 V c).flushed 5 t = ((cfg1.win 5).blk t).view.read (Elt Ideal) (edgePre (n := 800000) (V c main_arg1) (V c main_v11) (V c main_v18) (V c main_arg8) (V c main_v19)) := by
  show (cfg1.win 5).cut (grid1.coords t) ((dat1 V c).after 5 t) = _
  rw [after1_5]
  unfold out1_5
  rw [View.canon_unit_zero zeroOffsets2]
  simp only [View.ld_unit_zero (S := S4000x128) zeroOffsets2, View.ld_unit_zero (S := S128x128) zeroOffsets2,
    View.ld_unit_zero (S := S1x128) zeroOffsets2]
  rw [k1_pay1_block]
  funext j
  obtain ⟨r, q, rfl⟩ : ∃ (r : Fin 4000) (q : Fin 128), j = ix2 r q := ⟨j 0, j 1, eq_ix2 j⟩
  obtain ⟨e00, e01, e10, e11, e20, e21, e30, e31, e40, e41, e50, e51, e60, e61, e70, e71, e72, e80, e81, e82⟩ := blockIdx1 t
  have ht : t.val < 200 := Nat.lt_of_lt_of_eq t.isLt N_1
  have hj : ((cfg1.win 5).blk t).view.emb (ix2 r q) = ix2 (⟨t.val * 4000 + r.val, by omega⟩ : Fin 800000) q := by
    funext a; apply Fin.ext
    match a with
    | ⟨0, _⟩ => show win1_5.index t (0 : Fin 2) * 4000 + 1 * r.val = t.val * 4000 + r.val; omega
    | ⟨1, _⟩ => show win1_5.index t (1 : Fin 2) * 128 + 1 * q.val = q.val; omega
  show edgePre (n := 4000) (iblk1 V c 0 t) (iblk1 V c 1 t) (iblk1 V c 2 t) (iblk1 V c 3 t) (iblk1 V c 4 t) (ix2 r q)
    = edgePre (n := 800000) (V c main_arg1) (V c main_v11) (V c main_v18) (V c main_arg8) (V c main_v19) (((cfg1.win 5).blk t).view.emb (ix2 r q))
  rw [hj]
  exact edgePre_block V c t r q _ rfl

/-- An index of the array is in point `t`'s band iff each coordinate is in the band's range on its axis. -/
theorem mem_band1_5 (t : Fin cfg1.N) (i : S800000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v20_0).slice (win1_5.rect t)).set ↔ _
  rw [View.set_slice_whole, Rect.mem_set_unit]
  exact Iff.rfl

/-- Every row lies in the band of the point numbered by its row divided by 4000. -/
theorem bands_cover1_5 (i : S800000x128.Idx) : ∃ t : Fin cfg1.N, (cfg1.win 5).flush t = true ∧ i ∈ ((cfg1.win 5).blk t).view.set := by
  have hi0 : (i 0).val < 800000 := (i 0).isLt
  have hi1 : (i 1).val < 128 := (i 1).isLt
  have hN : cfg1.N = 200 := N_1
  obtain ⟨t, ht⟩ : ∃ t : Fin cfg1.N, t.val = (i 0).val / 4000 := ⟨⟨(i 0).val / 4000, by rw [hN]; omega⟩, rfl⟩
  obtain ⟨e00, e01, e10, e11, e20, e21, e30, e31, e40, e41, e50, e51, e60, e61, e70, e71, e72, e80, e81, e82⟩ := blockIdx1 t
  refine ⟨t, flush1_5 t, ?_⟩
  rw [mem_band1_5]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- The array of window 5 after the launch is `edgePre` of the five arrays the launch found. -/
theorem final1_5 (c : Dev nD) : (dat1 V c).arrAt 5 cfg1.N = edgePre (n := 800000) (V c main_arg1) (V c main_v11) (V c main_v18) (V c main_arg8) (V c main_v19) :=
  (dat1 V c).arrAt_eq_of_cover 5 _ (fun t _ => band1_5_eq V c t) (bands_cover1_5)

/-- What point `t` writes back through window 6 is band `t` of `edgeMsg` of the arrays as the launch finds them. -/
theorem band1_6_eq (c : Dev nD) (t : Fin cfg1.N) :
    (dat1 V c).flushed 6 t = ((cfg1.win 6).blk t).view.read (Elt Ideal) (edgeMsg (n := 800000) (V c main_arg1) (V c main_v11) (V c main_v18) (V c main_arg8) (V c main_v19)) := by
  show (cfg1.win 6).cut (grid1.coords t) ((dat1 V c).after 6 t) = _
  rw [after1_6]
  unfold out1_6
  rw [View.canon_unit_zero zeroOffsets2]
  simp only [View.ld_unit_zero (S := S4000x128) zeroOffsets2, View.ld_unit_zero (S := S128x128) zeroOffsets2,
    View.ld_unit_zero (S := S1x128) zeroOffsets2]
  rw [k1_pay2_block]
  funext j
  obtain ⟨r, q, rfl⟩ : ∃ (r : Fin 4000) (q : Fin 128), j = ix2 r q := ⟨j 0, j 1, eq_ix2 j⟩
  obtain ⟨e00, e01, e10, e11, e20, e21, e30, e31, e40, e41, e50, e51, e60, e61, e70, e71, e72, e80, e81, e82⟩ := blockIdx1 t
  have ht : t.val < 200 := Nat.lt_of_lt_of_eq t.isLt N_1
  have hj : ((cfg1.win 6).blk t).view.emb (ix2 r q) = ix2 (⟨t.val * 4000 + r.val, by omega⟩ : Fin 800000) q := by
    funext a; apply Fin.ext
    match a with
    | ⟨0, _⟩ => show win1_6.index t (0 : Fin 2) * 4000 + 1 * r.val = t.val * 4000 + r.val; omega
    | ⟨1, _⟩ => show win1_6.index t (1 : Fin 2) * 128 + 1 * q.val = q.val; omega
  show edgeMsg (n := 4000) (iblk1 V c 0 t) (iblk1 V c 1 t) (iblk1 V c 2 t) (iblk1 V c 3 t) (iblk1 V c 4 t) (ix2 r q)
    = edgeMsg (n := 800000) (V c main_arg1) (V c main_v11) (V c main_v18) (V c main_arg8) (V c main_v19) (((cfg1.win 6).blk t).view.emb (ix2 r q))
  rw [hj]
  exact edgeMsg_congr (iblk1 V c 0 t) (iblk1 V c 1 t) (iblk1 V c 2 t) (iblk1 V c 3 t) (iblk1 V c 4 t) (V c main_arg1) (V c main_v11) (V c main_v18) (V c main_arg8) (V c main_v19) _ _
    (rightHalf_block V c t r q _ rfl) (edgePre_block V c t r q _ rfl)

/-- An index of the array is in point `t`'s band iff each coordinate is in the band's range on its axis. -/
theorem mem_band1_6 (t : Fin cfg1.N) (i : S800000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v20_1).slice (win1_6.rect t)).set ↔ _
  rw [View.set_slice_whole, Rect.mem_set_unit]
  exact Iff.rfl

/-- Every row lies in the band of the point numbered by its row divided by 4000. -/
theorem bands_cover1_6 (i : S800000x128.Idx) : ∃ t : Fin cfg1.N, (cfg1.win 6).flush t = true ∧ i ∈ ((cfg1.win 6).blk t).view.set := by
  have hi0 : (i 0).val < 800000 := (i 0).isLt
  have hi1 : (i 1).val < 128 := (i 1).isLt
  have hN : cfg1.N = 200 := N_1
  obtain ⟨t, ht⟩ : ∃ t : Fin cfg1.N, t.val = (i 0).val / 4000 := ⟨⟨(i 0).val / 4000, by rw [hN]; omega⟩, rfl⟩
  obtain ⟨e00, e01, e10, e11, e20, e21, e30, e31, e40, e41, e50, e51, e60, e61, e70, e71, e72, e80, e81, e82⟩ := blockIdx1 t
  refine ⟨t, flush1_6 t, ?_⟩
  rw [mem_band1_6]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The array of window 6 after the launch is `edgeMsg` of the five arrays the launch found. -/
theorem final1_6 (c : Dev nD) : (dat1 V c).arrAt 6 cfg1.N = edgeMsg (n := 800000) (V c main_arg1) (V c main_v11) (V c main_v18) (V c main_arg8) (V c main_v19) :=
  (dat1 V c).arrAt_eq_of_cover 6 _ (fun t _ => band1_6_eq V c t) (bands_cover1_6)

/-- What point `t` writes back through window 7 is row `t` of the per-band column sums of `edgePre` of the arrays. -/
theorem band1_7_eq (c : Dev nD) (t : Fin cfg1.N) :
    (dat1 V c).flushed 7 t = ((cfg1.win 7).blk t).view.read (Elt Ideal)
      (bandSums 200 4000 800000 rfl (edgePre (n := 800000) (V c main_arg1) (V c main_v11) (V c main_v18) (V c main_arg8) (V c main_v19))) := by
  show (cfg1.win 7).cut (grid1.coords t) ((dat1 V c).after 7 t) = _
  rw [after1_7]
  unfold out1_7
  rw [View.canon_unit_zero zeroOffsets3]
  simp only [View.ld_unit_zero (S := S4000x128) zeroOffsets2, View.ld_unit_zero (S := S128x128) zeroOffsets2,
    View.ld_unit_zero (S := S1x128) zeroOffsets2]
  funext j
  obtain ⟨u, v, q, rfl⟩ : ∃ (u v : Fin 1) (q : Fin 128), j = ix3 u v q := ⟨j 0, j 1, j 2, eq_ix3 j⟩
  refine (k1_pay3_block _ _ _ _ _ u v q).trans ?_
  obtain ⟨e00, e01, e10, e11, e20, e21, e30, e31, e40, e41, e50, e51, e60, e61, e70, e71, e72, e80, e81, e82⟩ := blockIdx1 t
  have ht : t.val < 200 := Nat.lt_of_lt_of_eq t.isLt N_1
  have hu : u.val = 0 := by omega
  have hv : v.val = 0 := by omega
  have hj : ((cfg1.win 7).blk t).view.emb (ix3 u v q) = ix3 (⟨t.val, ht⟩ : Fin 200) (0 : Fin 1) q := by
    funext a; apply Fin.ext
    match a with
    | ⟨0, _⟩ => show win1_7.index t (0 : Fin 3) * 1 + 1 * u.val = t.val; omega
    | ⟨1, _⟩ => show win1_7.index t (1 : Fin 3) * 1 + 1 * v.val = 0; omega
    | ⟨2, _⟩ => show win1_7.index t (2 : Fin 3) * 128 + 1 * q.val = q.val; omega
  show _ = bandSums 200 4000 800000 rfl (edgePre (n := 800000) (V c main_arg1) (V c main_v11) (V c main_v18) (V c main_arg8) (V c main_v19)) (((cfg1.win 7).blk t).view.emb (ix3 u v q))
  rw [hj]
  unfold bandSums
  refine Finset.sum_congr rfl fun r _ => ?_
  exact edgePre_block V c t r q _ (by show 4000 * t.val + r.val = t.val * 4000 + r.val; omega)

/-- An index of the array is in point `t`'s block iff each coordinate is in the block's range on its axis. -/
theorem mem_band1_7 (t : Fin cfg1.N) (i : S200x1x128.Idx) :
    i ∈ ((cfg1.win 7).blk t).view.set ↔ ∀ a : Fin 3, win1_7.index t a * S1x1x128.size a ≤ (i a).val ∧ (i a).val < win1_7.index t a * S1x1x128.size a + S1x1x128.size a := by
  show i ∈ ((View.whole main_v20_2).slice (win1_7.rect t)).set ↔ _
  rw [View.set_slice_whole, Rect.mem_set_unit]
  exact Iff.rfl

/-- Every row of the sums lies in the block of the point with its number. -/
theorem bands_cover1_7 (i : S200x1x128.Idx) : ∃ t : Fin cfg1.N, (cfg1.win 7).flush t = true ∧ i ∈ ((cfg1.win 7).blk t).view.set := by
  have hi0 : (i 0).val < 200 := (i 0).isLt
  have hi1 : (i 1).val < 1 := (i 1).isLt
  have hi2 : (i 2).val < 128 := (i 2).isLt
  have hN : cfg1.N = 200 := N_1
  obtain ⟨t, ht⟩ : ∃ t : Fin cfg1.N, t.val = (i 0).val := ⟨⟨(i 0).val, by rw [hN]; omega⟩, rfl⟩
  obtain ⟨e00, e01, e10, e11, e20, e21, e30, e31, e40, e41, e50, e51, e60, e61, e70, e71, e72, e80, e81, e82⟩ := blockIdx1 t
  refine ⟨t, flush1_7 t, ?_⟩
  rw [mem_band1_7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 1 ≤ (i 1).val ∧ (i 1).val < win1_7.index t (1 : Fin 3) * 1 + 1; omega
  | ⟨2, _⟩ => show win1_7.index t (2 : Fin 3) * 128 ≤ (i 2).val ∧ (i 2).val < win1_7.index t (2 : Fin 3) * 128 + 128; omega

/-- The array of window 7 after the launch holds, per band, the column sums of `edgePre` of the arrays over the band's rows. -/
theorem final1_7 (c : Dev nD) : (dat1 V c).arrAt 7 cfg1.N
    = bandSums 200 4000 800000 rfl (edgePre (n := 800000) (V c main_arg1) (V c main_v11) (V c main_v18) (V c main_arg8) (V c main_v19)) :=
  (dat1 V c).arrAt_eq_of_cover 7 _ (fun t _ => band1_7_eq V c t) (bands_cover1_7)

/-- What point `t` writes back through window 8 is row `t` of the per-band column sums of the squares of `edgePre` of the arrays. -/
theorem band1_8_eq (c : Dev nD) (t : Fin cfg1.N) :
    (dat1 V c).flushed 8 t = ((cfg1.win 8).blk t).view.read (Elt Ideal)
      (bandSums 200 4000 800000 rfl (squares (edgePre (n := 800000) (V c main_arg1) (V c main_v11) (V c main_v18) (V c main_arg8) (V c main_v19)))) := by
  show (cfg1.win 8).cut (grid1.coords t) ((dat1 V c).after 8 t) = _
  rw [after1_8]
  unfold out1_8
  rw [View.canon_unit_zero zeroOffsets3]
  simp only [View.ld_unit_zero (S := S4000x128) zeroOffsets2, View.ld_unit_zero (S := S128x128) zeroOffsets2,
    View.ld_unit_zero (S := S1x128) zeroOffsets2]
  funext j
  obtain ⟨u, v, q, rfl⟩ : ∃ (u v : Fin 1) (q : Fin 128), j = ix3 u v q := ⟨j 0, j 1, j 2, eq_ix3 j⟩
  refine (k1_pay4_block _ _ _ _ _ u v q).trans ?_
  obtain ⟨e00, e01, e10, e11, e20, e21, e30, e31, e40, e41, e50, e51, e60, e61, e70, e71, e72, e80, e81, e82⟩ := blockIdx1 t
  have ht : t.val < 200 := Nat.lt_of_lt_of_eq t.isLt N_1
  have hu : u.val = 0 := by omega
  have hv : v.val = 0 := by omega
  have hj : ((cfg1.win 8).blk t).view.emb (ix3 u v q) = ix3 (⟨t.val, ht⟩ : Fin 200) (0 : Fin 1) q := by
    funext a; apply Fin.ext
    match a with
    | ⟨0, _⟩ => show win1_8.index t (0 : Fin 3) * 1 + 1 * u.val = t.val; omega
    | ⟨1, _⟩ => show win1_8.index t (1 : Fin 3) * 1 + 1 * v.val = 0; omega
    | ⟨2, _⟩ => show win1_8.index t (2 : Fin 3) * 128 + 1 * q.val = q.val; omega
  show _ = bandSums 200 4000 800000 rfl (squares (edgePre (n := 800000) (V c main_arg1) (V c main_v11) (V c main_v18) (V c main_arg8) (V c main_v19))) (((cfg1.win 8).blk t).view.emb (ix3 u v q))
  rw [hj]
  unfold bandSums
  refine Finset.sum_congr rfl fun r _ => ?_
  have hp := edgePre_block V c t r q (bandRow (a := 200) (b := 4000) (n := 800000) rfl (⟨t.val, ht⟩ : Fin 200) r)
    (by show 4000 * t.val + r.val = t.val * 4000 + r.val; omega)
  show edgePre (n := 4000) (iblk1 V c 0 t) (iblk1 V c 1 t) (iblk1 V c 2 t) (iblk1 V c 3 t) (iblk1 V c 4 t) (ix2 r q) * edgePre (n := 4000) (iblk1 V c 0 t) (iblk1 V c 1 t) (iblk1 V c 2 t) (iblk1 V c 3 t) (iblk1 V c 4 t) (ix2 r q) = _
  rw [hp]
  rfl

/-- An index of the array is in point `t`'s block iff each coordinate is in the block's range on its axis. -/
theorem mem_band1_8 (t : Fin cfg1.N) (i : S200x1x128.Idx) :
    i ∈ ((cfg1.win 8).blk t).view.set ↔ ∀ a : Fin 3, win1_8.index t a * S1x1x128.size a ≤ (i a).val ∧ (i a).val < win1_8.index t a * S1x1x128.size a + S1x1x128.size a := by
  show i ∈ ((View.whole main_v20_3).slice (win1_8.rect t)).set ↔ _
  rw [View.set_slice_whole, Rect.mem_set_unit]
  exact Iff.rfl

/-- Every row of the sums lies in the block of the point with its number. -/
theorem bands_cover1_8 (i : S200x1x128.Idx) : ∃ t : Fin cfg1.N, (cfg1.win 8).flush t = true ∧ i ∈ ((cfg1.win 8).blk t).view.set := by
  have hi0 : (i 0).val < 200 := (i 0).isLt
  have hi1 : (i 1).val < 1 := (i 1).isLt
  have hi2 : (i 2).val < 128 := (i 2).isLt
  have hN : cfg1.N = 200 := N_1
  obtain ⟨t, ht⟩ : ∃ t : Fin cfg1.N, t.val = (i 0).val := ⟨⟨(i 0).val, by rw [hN]; omega⟩, rfl⟩
  obtain ⟨e00, e01, e10, e11, e20, e21, e30, e31, e40, e41, e50, e51, e60, e61, e70, e71, e72, e80, e81, e82⟩ := blockIdx1 t
  refine ⟨t, flush1_8 t, ?_⟩
  rw [mem_band1_8]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 1 ≤ (i 1).val ∧ (i 1).val < win1_8.index t (1 : Fin 3) * 1 + 1; omega
  | ⟨2, _⟩ => show win1_8.index t (2 : Fin 3) * 128 ≤ (i 2).val ∧ (i 2).val < win1_8.index t (2 : Fin 3) * 128 + 128; omega

/-- The array of window 8 after the launch holds, per band, the column sums of the squares of `edgePre` of the arrays over the band's rows. -/
theorem final1_8 (c : Dev nD) : (dat1 V c).arrAt 8 cfg1.N
    = bandSums 200 4000 800000 rfl (squares (edgePre (n := 800000) (V c main_arg1) (V c main_v11) (V c main_v18) (V c main_arg8) (V c main_v19))) :=
  (dat1 V c).arrAt_eq_of_cover 8 _ (fun t _ => band1_8_eq V c t) (bands_cover1_8)

end Cert.KernelIdeal.Bridge

end
-- ==== Proof.KVal1.lean ====
/-
  The kernel program's first two launches, in the specification's terms.

  Launch 0 leaves the four affine maps of the node features: `A h` and `E h` each in an array of their own, `D h` and
  `B h` side by side in one 256-column array. The host then gathers, for every edge, the row of the side-by-side
  array that the edge's source selects and the row of `E h` that its destination selects. Launch 1 adds the left
  half of the first, the second, and the edge's own affine map: that is the specification's `eVal`; and it
  multiplies the right half of the first by the logistic of that sum: the specification's `msg`.
-/
import proofs.«150221_j25598005084171_2_alg».proof.Proof.Gen.KernelIdeal.Frame
import proofs.«150221_j25598005084171_2_alg».proof.Proof.Spec
import proofs.«150221_j25598005084171_2_alg».proof.Proof.KDefs
import proofs.«150221_j25598005084171_2_alg».proof.Proof.KAlg
import proofs.«150221_j25598005084171_2_alg».proof.Proof.KReg0
import proofs.«150221_j25598005084171_2_alg».proof.Proof.KReg1
import proofs.«150221_j25598005084171_2_alg».proof.Proof.KWalk
import proofs.«150221_j25598005084171_2_alg».proof.Proof.KHost
import Idealize.ShloMosaic.Lib.Pipeline.Value
import Idealize.ShloMosaic.Lib.ValueIdx
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL.Sem
open Cert.Gnn

variable (m : (ℓ : Loc nD τ sig) → Buf (Elt Ideal) ℓ) (ρ : Dev nD → PrngReg) (c : Dev nD)

/-- After launch 0 the first result array holds `A h`. -/
theorem W2_nodeA (p : Fin 50000) (q : Fin 128) :
    W2 m ρ c (Proc.devRef .tc main_v4_0) (ix2 p q) = linT (m ((c : Thread nD τ).loc main_arg0)) (m ((c : Thread nD τ).loc main_arg4)) (m ((c : Thread nD τ).loc main_arg5)) p q := by
  have h : W2 m ρ c (Proc.devRef .tc main_v4_0) = lin2 (n := 50000) (m ((c : Thread nD τ).loc main_arg0)) (m ((c : Thread nD τ).loc main_arg4)) (V1 m ρ c main_v0) := by
    rw [show W2 m ρ c (Proc.devRef .tc main_v4_0) = (dat0 (V1 m ρ) c).arrAt 9 cfg0.N from W2_arr m ρ c 9,
      final0_9 (V1 m ρ) c, at_V1_arg0 m ρ c, at_V1_arg4 m ρ c]
  rw [h]
  exact lin2_eq_linT _ _ _ _ (fun q => row_V1_v0 m ρ c q) p q

/-- After launch 0 the third result array holds `E h`. -/
theorem W2_nodeE (p : Fin 50000) (q : Fin 128) :
    W2 m ρ c (Proc.devRef .tc main_v4_2) (ix2 p q) = linT (m ((c : Thread nD τ).loc main_arg0)) (m ((c : Thread nD τ).loc main_arg12)) (m ((c : Thread nD τ).loc main_arg13)) p q := by
  have h : W2 m ρ c (Proc.devRef .tc main_v4_2) = lin2 (n := 50000) (m ((c : Thread nD τ).loc main_arg0)) (m ((c : Thread nD τ).loc main_arg12)) (V1 m ρ c main_v3) := by
    rw [show W2 m ρ c (Proc.devRef .tc main_v4_2) = (dat0 (V1 m ρ) c).arrAt 11 cfg0.N from W2_arr m ρ c 11,
      final0_11 (V1 m ρ) c, at_V1_arg0 m ρ c, at_V1_arg12 m ρ c]
  rw [h]
  exact lin2_eq_linT _ _ _ _ (fun q => row_V1_v3 m ρ c q) p q

/-- After launch 0 the second result array holds `D h` in its left half and `B h` in its right half. -/
theorem W2_nodeDB :
    W2 m ρ c (Proc.devRef .tc main_v4_1) = sideBySide (n := 50000) (lin2 (m ((c : Thread nD τ).loc main_arg0)) (m ((c : Thread nD τ).loc main_arg10)) (V1 m ρ c main_v2)) (lin2 (m ((c : Thread nD τ).loc main_arg0)) (m ((c : Thread nD τ).loc main_arg6)) (V1 m ρ c main_v1)) := by
  rw [show W2 m ρ c (Proc.devRef .tc main_v4_1) = (dat0 (V1 m ρ) c).arrAt 10 cfg0.N from W2_arr m ρ c 10,
    final0_10 (V1 m ρ) c, at_V1_arg0 m ρ c, at_V1_arg10 m ρ c, at_V1_arg6 m ρ c]

/-- The left half of the gathered side-by-side row is `D h` at the row the source selects. -/
theorem gatherD (t : Fin 800000) (q : Fin 128) :
    leftHalf (n := 800000) (V3 m ρ c main_v11) (ix2 t q) = linT (m ((c : Thread nD τ).loc main_arg0)) (m ((c : Thread nD τ).loc main_arg10)) (m ((c : Thread nD τ).loc main_arg11)) (rowSel ((m ((c : Thread nD τ).loc main_arg2)) (ix1 t))) q := by
  show V3 m ρ c main_v11 (ix2 t (⟨q.val, by have := q.isLt; omega⟩ : Fin 256)) = _
  rw [gather_V3_v11 m ρ c, at_W2_arg2 m ρ c, W2_nodeDB m ρ c, sideBySide_left _ _ _ (by show q.val < 128; exact q.isLt)]
  exact lin2_eq_linT _ _ _ _ (fun q => row_V1_v2 m ρ c q) _ q

/-- The right half of the gathered side-by-side row is `B h` at the row the source selects. -/
theorem gatherB (t : Fin 800000) (q : Fin 128) :
    rightHalf (n := 800000) (V3 m ρ c main_v11) (ix2 t q) = linT (m ((c : Thread nD τ).loc main_arg0)) (m ((c : Thread nD τ).loc main_arg6)) (m ((c : Thread nD τ).loc main_arg7)) (rowSel ((m ((c : Thread nD τ).loc main_arg2)) (ix1 t))) q := by
  show V3 m ρ c main_v11 (ix2 t (⟨128 + q.val, by have := q.isLt; omega⟩ : Fin 256)) = _
  rw [gather_V3_v11 m ρ c, at_W2_arg2 m ρ c, W2_nodeDB m ρ c, sideBySide_right _ _ _ (by show 128 ≤ 128 + q.val; omega)]
  refine (congrArg (lin2 (m ((c : Thread nD τ).loc main_arg0)) (m ((c : Thread nD τ).loc main_arg6)) (V1 m ρ c main_v1)) (?_ : _ = ix2 (rowSel ((m ((c : Thread nD τ).loc main_arg2)) (ix1 t))) q)).trans
    (lin2_eq_linT _ _ _ _ (fun q => row_V1_v1 m ρ c q) _ q)
  funext a; apply Fin.ext
  match a with
  | ⟨0, _⟩ => rfl
  | ⟨1, _⟩ => show 128 + q.val - 128 = q.val; omega

/-- The other gathered row is `E h` at the row the destination selects. -/
theorem gatherE (t : Fin 800000) (q : Fin 128) :
    V3 m ρ c main_v18 (ix2 t q) = linT (m ((c : Thread nD τ).loc main_arg0)) (m ((c : Thread nD τ).loc main_arg12)) (m ((c : Thread nD τ).loc main_arg13)) (rowSel ((m ((c : Thread nD τ).loc main_arg3)) (ix1 t))) q := by
  rw [gather_V3_v18 m ρ c, at_W2_arg3 m ρ c, W2_nodeE m ρ c]

/-- Launch 1's first result is the edge pre-activation `eVal`. -/
theorem W4_edgePre (t : Fin 800000) (q : Fin 128) :
    W4 m ρ c (Proc.devRef .tc main_v20_0) (ix2 t q)
      = eVal (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) t q := by
  have h : W4 m ρ c (Proc.devRef .tc main_v20_0)
      = edgePre (n := 800000) (m ((c : Thread nD τ).loc main_arg1)) (V3 m ρ c main_v11) (V3 m ρ c main_v18) (m ((c : Thread nD τ).loc main_arg8)) (V3 m ρ c main_v19) := by
    rw [show W4 m ρ c (Proc.devRef .tc main_v20_0) = (dat1 (V3 m ρ) c).arrAt 5 cfg1.N from W4_arr m ρ c 5,
      final1_5 (V3 m ρ) c, at_V3_arg1 m ρ c, at_V3_arg8 m ρ c]
  rw [h]
  unfold edgePre eVal
  rw [gatherD m ρ c, gatherE m ρ c, lin2_eq_linT _ _ _ _ (fun q => row_V3_v19 m ρ c q) t q]

/-- Launch 1's second result is the gated message `msg`. -/
theorem W4_edgeMsg (t : Fin 800000) (q : Fin 128) :
    W4 m ρ c (Proc.devRef .tc main_v20_1) (ix2 t q)
      = msg (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) t q := by
  have h : W4 m ρ c (Proc.devRef .tc main_v20_1)
      = edgeMsg (n := 800000) (m ((c : Thread nD τ).loc main_arg1)) (V3 m ρ c main_v11) (V3 m ρ c main_v18) (m ((c : Thread nD τ).loc main_arg8)) (V3 m ρ c main_v19) := by
    rw [show W4 m ρ c (Proc.devRef .tc main_v20_1) = (dat1 (V3 m ρ) c).arrAt 6 cfg1.N from W4_arr m ρ c 6,
      final1_6 (V3 m ρ) c, at_V3_arg1 m ρ c, at_V3_arg8 m ρ c]
  have he := W4_edgePre m ρ c t q
  rw [show W4 m ρ c (Proc.devRef .tc main_v20_0)
      = edgePre (n := 800000) (m ((c : Thread nD τ).loc main_arg1)) (V3 m ρ c main_v11) (V3 m ρ c main_v18) (m ((c : Thread nD τ).loc main_arg8)) (V3 m ρ c main_v19) from by
    rw [show W4 m ρ c (Proc.devRef .tc main_v20_0) = (dat1 (V3 m ρ) c).arrAt 5 cfg1.N from W4_arr m ρ c 5,
      final1_5 (V3 m ρ) c, at_V3_arg1 m ρ c, at_V3_arg8 m ρ c]] at he
  rw [h]
  unfold edgeMsg msg gate
  rw [gatherB m ρ c, he]

/-- Launch 1's band sums of the pre-activation and of its squares. -/
theorem W4_edgeSums :
    W4 m ρ c (Proc.devRef .tc main_v20_2) = bandSums 200 4000 800000 rfl (W4 m ρ c (Proc.devRef .tc main_v20_0))
    ∧ W4 m ρ c (Proc.devRef .tc main_v20_3) = bandSums 200 4000 800000 rfl (squares (W4 m ρ c (Proc.devRef .tc main_v20_0))) := by
  have h5 : W4 m ρ c (Proc.devRef .tc main_v20_0) = (dat1 (V3 m ρ) c).arrAt 5 cfg1.N := W4_arr m ρ c 5
  rw [h5, final1_5 (V3 m ρ) c]
  exact ⟨(W4_arr m ρ c 7).trans (final1_7 (V3 m ρ) c), (W4_arr m ρ c 8).trans (final1_8 (V3 m ρ) c)⟩

end Cert.KernelIdeal.Bridge

end
-- ==== Proof.KReg2.lean ====
/-
  The third kernel launch (the node value before normalisation, with its per-band column sums), read as
  whole-array functions.

  Its grid has ten points; point t holds rows 5000 t … 5000 t + 4999 of the three input arrays (the affine
  image A, the message totals S, the gate totals T). At row r and column q of its block the body computes
      A + S / (T + ε),
  which depends only on the array index, so the ten blocks written back are the ten row bands of ONE function
  `gatedMean` of the three arrays. The body also writes, for its band, the column sums of that block and of
  its entrywise squares into row t of two [10, 1, 128] arrays: these are the band sums of `gatedMean` and of
  its squares. The bands tile the arrays, so after the launch each array is that function.
-/
import proofs.«150221_j25598005084171_2_alg».proof.Proof.Gen.KernelIdeal.Frame
import proofs.«150221_j25598005084171_2_alg».proof.Proof.KDefs
import proofs.«150221_j25598005084171_2_alg».proof.Proof.LibPairLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The body's pointwise arithmetic on its blocks is `gatedMean` of the blocks. -/
theorem k2_pay1_eq (x0 x1 x2 : Vec Ideal S5000x128 .f32) :
    k2_pay1 (F := Ideal) x0 x1 x2 = gatedMean (n := 5000) x0 x1 x2 := by
  funext j
  unfold k2_pay1 gatedMean
  simp only [shapeCast_self, addf_apply, divf_apply, broadcast_apply]
  rfl

/-- A 128-vector cast to [1, 1, 128] reads, at (0, 0, q), the vector at q. -/
theorem shapeCast_vec128_row_apply {α : Type} (x : (⟨1, ![128]⟩ : Shape).Idx → α)
    (h : (⟨1, ![128]⟩ : Shape).ShapeCasts ⟨3, ![1, 1, 128]⟩) (u v : Fin 1) (q : Fin 128) :
    shapeCast ⟨3, ![1, 1, 128]⟩ x h (ix3 u v q) = x (ix1 q) :=
  shapeCast_apply x h _ _ (by
    have hu : u.val = 0 := by omega
    have hv : v.val = 0 := by omega
    rw [Shape.rowMajor_val_three, Shape.rowMajor_val_one]
    show q.val = (u.val * 1 + v.val) * 128 + q.val
    omega)

/-- The body's first column-sum payload at (0, 0, q): the sum over the block's rows of `gatedMean`. -/
theorem k2_pay2_apply (x0 x1 x2 : Vec Ideal S5000x128 .f32) (u v : Fin 1) (q : Fin 128) :
    k2_pay2 (F := Ideal) x0 x1 x2 (ix3 u v q) = ∑ r : Fin 5000, gatedMean (n := 5000) x0 x1 x2 (ix2 r q) := by
  unfold k2_pay2
  refine (shapeCast_vec128_row_apply _ _ u v q).trans ?_
  refine (sum_leading_of2 _ _ _ _ _ q).trans ?_
  rw [k2_pay1_eq]

/-- The body's second column-sum payload at (0, 0, q): the sum over the block's rows of the squares. -/
theorem k2_pay3_apply (x0 x1 x2 : Vec Ideal S5000x128 .f32) (u v : Fin 1) (q : Fin 128) :
    k2_pay3 (F := Ideal) x0 x1 x2 (ix3 u v q)
      = ∑ r : Fin 5000, squares (n := 5000) (gatedMean (n := 5000) x0 x1 x2) (ix2 r q) := by
  unfold k2_pay3
  refine (shapeCast_vec128_row_apply _ _ u v q).trans ?_
  refine (sum_leading_of2 _ _ _ _ _ q).trans ?_
  rw [k2_pay1_eq]
  rfl

variable (V : (c : Dev nD) → (b : Ref sig .tc) → Buf (Elt Ideal) ((c : Thread nD τ).loc b))

/-- The block origin of a rank-2 whole-buffer access is the zero offset. -/
theorem origin2 : (![0, 0] : Fin 2 → Nat) = fun _ => 0 := funext fun a => by fin_cases a <;> rfl
/-- The block origin of a rank-3 whole-buffer access is the zero offset. -/
theorem origin3 : (![0, 0, 0] : Fin 3 → Nat) = fun _ => 0 := funext fun a => by fin_cases a <;> rfl

/-- The printed index maps over the grid: at point t every window's block index is t on the leading axis and 0 on
    the others. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 3) = t.val ∧ win2_4.index t (1 : Fin 3) = 0 ∧ win2_4.index t (2 : Fin 3) = 0
    ∧ win2_5.index t (0 : Fin 3) = t.val ∧ win2_5.index t (1 : Fin 3) = 0 ∧ win2_5.index t (2 : Fin 3) = 0 :=
  (by decide +kernel : ∀ t : Fin grid2.N, _)

/-- `gatedMean` of point `t`'s input blocks, at a block index, is `gatedMean` of the arrays at the index of the
    whole array that window 3's block puts there: the three input windows and window 3 cut the same band. -/
theorem gatedMean_block (c : Dev nD) (t : Fin cfg2.N) (j : S5000x128.Idx) :
    gatedMean (n := 5000) (iblk2 V c 0 t) (iblk2 V c 1 t) (iblk2 V c 2 t) j
      = gatedMean (n := 50000) (V c main_v4_0) (V c main_v29) (V c main_v32) (((cfg2.win 3).blk t).view.emb j) := by
  obtain ⟨e00, e01, e10, e11, e20, e21, e30, e31, e40, e41, e42, e50, e51, e52⟩ := blockIndex2 t
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * (j 1).val = win2_3.index t (1 : Fin 2) * 128 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 128 + 1 * (j 1).val = win2_3.index t (1 : Fin 2) * 128 + 1 * (j 1).val; omega
  have h2 : ((cfg2.win 2).blk t).view.emb j = ((cfg2.win 3).blk t).view.emb j := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 128 + 1 * (j 1).val = win2_3.index t (1 : Fin 2) * 128 + 1 * (j 1).val; omega
  have g0 : iblk2 V c 0 t j = V c main_v4_0 (((cfg2.win 3).blk t).view.emb j) := congrArg (V c main_v4_0) h0
  have g1 : iblk2 V c 1 t j = V c main_v29 (((cfg2.win 3).blk t).view.emb j) := congrArg (V c main_v29) h1
  have g2 : iblk2 V c 2 t j = V c main_v32 (((cfg2.win 3).blk t).view.emb j) := congrArg (V c main_v32) h2
  unfold gatedMean
  exact congrArg₂ (fun a b : EReal => a + b) g0
    (congrArg₂ Ideal.div g1 (congrArg (fun a : EReal => a + Cert.Gnn.epsNorm) g2))

/-- What point `t` writes back through window 3 is band `t` of `gatedMean` of the arrays as the launch finds them. -/
theorem flushed2_3_eq (c : Dev nD) (t : Fin cfg2.N) :
    (dat2 V c).flushed 3 t = ((cfg2.win 3).blk t).view.read (Elt Ideal)
      (gatedMean (n := 50000) (V c main_v4_0) (V c main_v29) (V c main_v32)) := by
  show (cfg2.win 3).cut (grid2.coords t) ((dat2 V c).after 3 t) = _
  rw [after2_3]
  unfold out2_3
  rw [View.canon_unit_zero origin2]
  simp only [View.ld_unit_zero (S := S5000x128) origin2]
  rw [k2_pay1_eq]
  funext j
  exact gatedMean_block V c t j

/-- An index of the array is in point `t`'s band iff each coordinate is in the band's range on its axis. -/
theorem mem_band2_3 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v33_0).slice (win2_3.rect t)).set ↔ _
  rw [View.set_slice_whole, Rect.mem_set_unit]
  exact Iff.rfl

/-- Every row lies in the band of the point numbered by its row divided by 5000. -/
theorem bands_cover2_3 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e00, e01, e10, e11, e20, e21, e30, e31, e40, e41, e42, e50, e51, e52⟩ := blockIndex2 t
  have ht : t.val = (i 0).val / 5000 := rfl
  refine ⟨t, flush2_3 t, ?_⟩
  rw [mem_band2_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The node-value array after the launch is `gatedMean` of the three arrays the launch found. -/
theorem final2_3 (c : Dev nD) : (dat2 V c).arrAt 3 cfg2.N
    = gatedMean (n := 50000) (V c main_v4_0) (V c main_v29) (V c main_v32) :=
  (dat2 V c).arrAt_eq_of_cover 3 _ (fun t _ => flushed2_3_eq V c t) bands_cover2_3

/-- What point `t` writes back through window 4 is row `t` of the band sums of `gatedMean`. -/
theorem flushed2_4_eq (c : Dev nD) (t : Fin cfg2.N) :
    (dat2 V c).flushed 4 t = ((cfg2.win 4).blk t).view.read (Elt Ideal)
      (bandSums 10 5000 50000 rfl (gatedMean (n := 50000) (V c main_v4_0) (V c main_v29) (V c main_v32))) := by
  show (cfg2.win 4).cut (grid2.coords t) ((dat2 V c).after 4 t) = _
  rw [after2_4]
  unfold out2_4
  rw [View.canon_unit_zero origin3]
  simp only [View.ld_unit_zero (S := S5000x128) origin2]
  obtain ⟨e00, e01, e10, e11, e20, e21, e30, e31, e40, e41, e42, e50, e51, e52⟩ := blockIndex2 t
  funext j
  revert j
  show ∀ j : S1x1x128.Idx, k2_pay2 (F := Ideal) (iblk2 V c 0 t) (iblk2 V c 1 t) (iblk2 V c 2 t) j
    = bandSums 10 5000 50000 rfl (gatedMean (n := 50000) (V c main_v4_0) (V c main_v29) (V c main_v32))
        (((cfg2.win 4).blk t).view.emb j)
  intro j
  obtain ⟨u, v, q, rfl⟩ : ∃ (u v : Fin 1) (q : Fin 128), j = ix3 u v q := ⟨j 0, j 1, j 2, eq_ix3 j⟩
  refine (k2_pay2_apply _ _ _ u v q).trans ?_
  unfold bandSums
  refine Finset.sum_congr rfl fun r _ => ?_
  refine (gatedMean_block V c t (ix2 r q)).trans ?_
  refine congrArg (gatedMean (n := 50000) (V c main_v4_0) (V c main_v29) (V c main_v32)) ?_
  have hu : u.val = 0 := by omega
  funext a; apply Fin.ext
  match a with
  | ⟨0, _⟩ => show win2_3.index t (0 : Fin 2) * 5000 + 1 * r.val = 5000 * (win2_4.index t (0 : Fin 3) * 1 + 1 * u.val) + r.val; omega
  | ⟨1, _⟩ => show win2_3.index t (1 : Fin 2) * 128 + 1 * q.val = win2_4.index t (2 : Fin 3) * 128 + 1 * q.val; omega

/-- An index of a [10, 1, 128] array is in point `t`'s block iff each coordinate is in the block's range on its axis. -/
theorem mem_row2_4 (t : Fin cfg2.N) (i : S10x1x128.Idx) :
    i ∈ ((cfg2.win 4).blk t).view.set ↔ ∀ a : Fin 3, win2_4.index t a * S1x1x128.size a ≤ (i a).val ∧ (i a).val < win2_4.index t a * S1x1x128.size a + S1x1x128.size a := by
  show i ∈ ((View.whole main_v33_1).slice (win2_4.rect t)).set ↔ _
  rw [View.set_slice_whole, Rect.mem_set_unit]
  exact Iff.rfl

/-- Every index (t, 0, q) lies in the block of the point numbered by its first coordinate. -/
theorem rows_cover2_4 (i : S10x1x128.Idx) : ∃ t : Fin cfg2.N, (cfg2.win 4).flush t = true ∧ i ∈ ((cfg2.win 4).blk t).view.set := by
  have hi0 : (i 0).val < 10 := (i 0).isLt
  have hi1 : (i 1).val < 1 := (i 1).isLt
  have hi2 : (i 2).val < 128 := (i 2).isLt
  have hN : cfg2.N = 10 := N_2
  let t : Fin cfg2.N := ⟨(i 0).val, by rw [hN]; omega⟩
  obtain ⟨e00, e01, e10, e11, e20, e21, e30, e31, e40, e41, e42, e50, e51, e52⟩ := blockIndex2 t
  have ht : t.val = (i 0).val := rfl
  refine ⟨t, flush2_4 t, ?_⟩
  rw [mem_row2_4]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 1 ≤ (i 1).val ∧ (i 1).val < win2_4.index t (1 : Fin 3) * 1 + 1; omega
  | ⟨2, _⟩ => show win2_4.index t (2 : Fin 3) * 128 ≤ (i 2).val ∧ (i 2).val < win2_4.index t (2 : Fin 3) * 128 + 128; omega

/-- The first column-sum array after the launch holds the band sums of `gatedMean` of the three arrays. -/
theorem final2_4 (c : Dev nD) : (dat2 V c).arrAt 4 cfg2.N
    = bandSums 10 5000 50000 rfl (gatedMean (n := 50000) (V c main_v4_0) (V c main_v29) (V c main_v32)) :=
  (dat2 V c).arrAt_eq_of_cover 4 _ (fun t _ => flushed2_4_eq V c t) rows_cover2_4

/-- What point `t` writes back through window 5 is row `t` of the band sums of the squares of `gatedMean`. -/
theorem flushed2_5_eq (c : Dev nD) (t : Fin cfg2.N) :
    (dat2 V c).flushed 5 t = ((cfg2.win 5).blk t).view.read (Elt Ideal)
      (bandSums 10 5000 50000 rfl (squares (gatedMean (n := 50000) (V c main_v4_0) (V c main_v29) (V c main_v32)))) := by
  show (cfg2.win 5).cut (grid2.coords t) ((dat2 V c).after 5 t) = _
  rw [after2_5]
  unfold out2_5
  rw [View.canon_unit_zero origin3]
  simp only [View.ld_unit_zero (S := S5000x128) origin2]
  obtain ⟨e00, e01, e10, e11, e20, e21, e30, e31, e40, e41, e42, e50, e51, e52⟩ := blockIndex2 t
  funext j
  revert j
  show ∀ j : S1x1x128.Idx, k2_pay3 (F := Ideal) (iblk2 V c 0 t) (iblk2 V c 1 t) (iblk2 V c 2 t) j
    = bandSums 10 5000 50000 rfl (squares (gatedMean (n := 50000) (V c main_v4_0) (V c main_v29) (V c main_v32)))
        (((cfg2.win 5).blk t).view.emb j)
  intro j
  obtain ⟨u, v, q, rfl⟩ : ∃ (u v : Fin 1) (q : Fin 128), j = ix3 u v q := ⟨j 0, j 1, j 2, eq_ix3 j⟩
  refine (k2_pay3_apply _ _ _ u v q).trans ?_
  unfold bandSums
  refine Finset.sum_congr rfl fun r _ => ?_
  have hu : u.val = 0 := by omega
  have hg := gatedMean_block V c t (ix2 r q)
  unfold squares
  refine (congrArg₂ (fun a b : EReal => a * b) hg hg).trans ?_
  refine congrArg (fun i => gatedMean (n := 50000) (V c main_v4_0) (V c main_v29) (V c main_v32) i
    * gatedMean (n := 50000) (V c main_v4_0) (V c main_v29) (V c main_v32) i) ?_
  funext a; apply Fin.ext
  match a with
  | ⟨0, _⟩ => show win2_3.index t (0 : Fin 2) * 5000 + 1 * r.val = 5000 * (win2_5.index t (0 : Fin 3) * 1 + 1 * u.val) + r.val; omega
  | ⟨1, _⟩ => show win2_3.index t (1 : Fin 2) * 128 + 1 * q.val = win2_5.index t (2 : Fin 3) * 128 + 1 * q.val; omega

/-- An index of a [10, 1, 128] array is in point `t`'s block of window 5 iff each coordinate is in the block's range. -/
theorem mem_row2_5 (t : Fin cfg2.N) (i : S10x1x128.Idx) :
    i ∈ ((cfg2.win 5).blk t).view.set ↔ ∀ a : Fin 3, win2_5.index t a * S1x1x128.size a ≤ (i a).val ∧ (i a).val < win2_5.index t a * S1x1x128.size a + S1x1x128.size a := by
  show i ∈ ((View.whole main_v33_2).slice (win2_5.rect t)).set ↔ _
  rw [View.set_slice_whole, Rect.mem_set_unit]
  exact Iff.rfl

/-- Every index (t, 0, q) lies in window 5's block of the point numbered by its first coordinate. -/
theorem rows_cover2_5 (i : S10x1x128.Idx) : ∃ t : Fin cfg2.N, (cfg2.win 5).flush t = true ∧ i ∈ ((cfg2.win 5).blk t).view.set := by
  have hi0 : (i 0).val < 10 := (i 0).isLt
  have hi1 : (i 1).val < 1 := (i 1).isLt
  have hi2 : (i 2).val < 128 := (i 2).isLt
  have hN : cfg2.N = 10 := N_2
  let t : Fin cfg2.N := ⟨(i 0).val, by rw [hN]; omega⟩
  obtain ⟨e00, e01, e10, e11, e20, e21, e30, e31, e40, e41, e42, e50, e51, e52⟩ := blockIndex2 t
  have ht : t.val = (i 0).val := rfl
  refine ⟨t, flush2_5 t, ?_⟩
  rw [mem_row2_5]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 1 ≤ (i 1).val ∧ (i 1).val < win2_5.index t (1 : Fin 3) * 1 + 1; omega
  | ⟨2, _⟩ => show win2_5.index t (2 : Fin 3) * 128 ≤ (i 2).val ∧ (i 2).val < win2_5.index t (2 : Fin 3) * 128 + 128; omega

/-- The second column-sum array after the launch holds the band sums of the squares of `gatedMean`. -/
theorem final2_5 (c : Dev nD) : (dat2 V c).arrAt 5 cfg2.N
    = bandSums 10 5000 50000 rfl (squares (gatedMean (n := 50000) (V c main_v4_0) (V c main_v29) (V c main_v32))) :=
  (dat2 V c).arrAt_eq_of_cover 5 _ (fun t _ => flushed2_5_eq V c t) rows_cover2_5

end Cert.KernelIdeal.Bridge

end
-- ==== Proof.KVal2.lean ====
/-
  The kernel program's third launch, in the specification's terms.

  Between launches 1 and 2 the host recomputes the gate from the pre-activation array and scatter-adds, by
  destination and into zeros, the message array and the gate array: with launch 1's arrays being the
  specification's `msg` and `eVal`, those are `sumMsg` and `sumGate`. Launch 2 then forms
  `A h + sumMsg / (sumGate + ε)`, the specification's `hRaw`, and its band sums.
-/
import proofs.«150221_j25598005084171_2_alg».proof.Proof.Gen.KernelIdeal.Frame
import proofs.«150221_j25598005084171_2_alg».proof.Proof.Spec
import proofs.«150221_j25598005084171_2_alg».proof.Proof.KDefs
import proofs.«150221_j25598005084171_2_alg».proof.Proof.KAlg
import proofs.«150221_j25598005084171_2_alg».proof.Proof.KReg2
import proofs.«150221_j25598005084171_2_alg».proof.Proof.KWalk
import proofs.«150221_j25598005084171_2_alg».proof.Proof.KHost
import proofs.«150221_j25598005084171_2_alg».proof.Proof.KVal1
import Idealize.ShloMosaic.Lib.Pipeline.Value
import Idealize.ShloMosaic.Lib.ValueIdx
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL.Sem
open Cert.Gnn

variable (m : (ℓ : Loc nD τ sig) → Buf (Elt Ideal) ℓ) (ρ : Dev nD → PrngReg) (c : Dev nD)

/-- The scattered message sums, as the launch finds them, are `sumMsg`. -/
theorem V5_sumMsg : V5 m ρ c main_v29 = sumMsg Cert.KernelIdeal.scatter_S50000x128_S800000x1_S800000x128_1_0_0_1 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [scatterMsg_V5 m ρ c, at_W4_arg3 m ρ c]
  unfold sumMsg
  refine congrArg (Ideal.hostScatterAdd Cert.KernelIdeal.scatter_S50000x128_S800000x1_S800000x128_1_0_0_1 (fun _ => (0 : EReal)) (dstCol (m ((c : Thread nD τ).loc main_arg3)))) (funext fun i => ?_)
  obtain ⟨t, q, rfl⟩ : ∃ (t : Fin 800000) (q : Fin 128), i = ix2 t q := ⟨i 0, i 1, eq_ix2 i⟩
  rw [W4_edgeMsg m ρ c t q]
  rfl

/-- The scattered gate sums, as the launch finds them, are `sumGate`. -/
theorem V5_sumGate : V5 m ρ c main_v32 = sumGate Cert.KernelIdeal.scatter_S50000x128_S800000x1_S800000x128_1_0_0_1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [scatterGate_V5 m ρ c, at_W4_arg3 m ρ c]
  unfold sumGate
  refine congrArg (Ideal.hostScatterAdd Cert.KernelIdeal.scatter_S50000x128_S800000x1_S800000x128_1_0_0_1 (fun _ => (0 : EReal)) (dstCol (m ((c : Thread nD τ).loc main_arg3)))) (funext fun i => ?_)
  obtain ⟨t, q, rfl⟩ : ∃ (t : Fin 800000) (q : Fin 128), i = ix2 t q := ⟨i 0, i 1, eq_ix2 i⟩
  show Ideal.logistic (W4 m ρ c (Proc.devRef .tc main_v20_0) (ix2 t q)) = _
  rw [W4_edgePre m ρ c t q]
  rfl

/-- Launch 2's first result is the node value before normalisation, `hRaw`. -/
theorem W6_nodeRaw (p : Fin 50000) (q : Fin 128) :
    W6 m ρ c (Proc.devRef .tc main_v33_0) (ix2 p q) = hRaw Cert.KernelIdeal.scatter_S50000x128_S800000x1_S800000x128_1_0_0_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) p q := by
  have h : W6 m ρ c (Proc.devRef .tc main_v33_0)
      = gatedMean (n := 50000) (V5 m ρ c main_v4_0) (V5 m ρ c main_v29) (V5 m ρ c main_v32) :=
    (W6_arr m ρ c 3).trans (final2_3 (V5 m ρ) c)
  rw [h]
  unfold gatedMean hRaw
  rw [at_V5_v4_0 m ρ c, W2_nodeA m ρ c p q, V5_sumMsg m ρ c, V5_sumGate m ρ c]

/-- Launch 2's band sums of `hRaw` and of its squares. -/
theorem W6_nodeSums :
    W6 m ρ c (Proc.devRef .tc main_v33_1) = bandSums 10 5000 50000 rfl (W6 m ρ c (Proc.devRef .tc main_v33_0))
    ∧ W6 m ρ c (Proc.devRef .tc main_v33_2) = bandSums 10 5000 50000 rfl (squares (W6 m ρ c (Proc.devRef .tc main_v33_0))) := by
  have h3 : W6 m ρ c (Proc.devRef .tc main_v33_0) = (dat2 (V5 m ρ) c).arrAt 3 cfg2.N := W6_arr m ρ c 3
  rw [h3, final2_3 (V5 m ρ) c]
  exact ⟨(W6_arr m ρ c 4).trans (final2_4 (V5 m ρ) c), (W6_arr m ρ c 5).trans (final2_5 (V5 m ρ) c)⟩

end Cert.KernelIdeal.Bridge

end
-- ==== Proof.KVal3.lean ====
/-
  The kernel program's two results, in the specification's terms.

  The host adds up the per-band column sums of `hRaw` (ten bands) and of `eVal` (two hundred bands) and of their
  squares, divides by the row counts and forms mean of squares minus squared mean, floored at zero: the column
  means and one-pass variances of the specification. Launches 3 and 4 normalise `hRaw` and `eVal` with them,
  scale, shift, floor at zero and add the node features, resp. the edge features: the specification's `bnOne`.
-/
import proofs.«150221_j25598005084171_2_alg».proof.Proof.Gen.KernelIdeal.Frame
import proofs.«150221_j25598005084171_2_alg».proof.Proof.Spec
import proofs.«150221_j25598005084171_2_alg».proof.Proof.KDefs
import proofs.«150221_j25598005084171_2_alg».proof.Proof.KAlg
import proofs.«150221_j25598005084171_2_alg».proof.Proof.KReg3
import proofs.«150221_j25598005084171_2_alg».proof.Proof.KReg4
import proofs.«150221_j25598005084171_2_alg».proof.Proof.KWalk
import proofs.«150221_j25598005084171_2_alg».proof.Proof.KHost
import proofs.«150221_j25598005084171_2_alg».proof.Proof.KStats
import proofs.«150221_j25598005084171_2_alg».proof.Proof.KVal1
import proofs.«150221_j25598005084171_2_alg».proof.Proof.KVal2
import Idealize.ShloMosaic.Lib.Pipeline.Value
import Idealize.ShloMosaic.Lib.ValueIdx
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL.Sem
open Cert.Gnn

variable (m : (ℓ : Loc nD τ sig) → Buf (Elt Ideal) ℓ) (ρ : Dev nD → PrngReg) (c : Dev nD)

/-- The sum over the bands of a band-sum array's column `q`. -/
def colTotal {a : Nat} (X : (⟨3, ![a, 1, 128]⟩ : Shape).Idx → EReal) (q : Fin 128) : EReal := ∑ t : Fin a, X (ix3 t (0 : Fin 1) q)
/-- Column `q` of a one-row array. -/
def rowEntry (X : Mat 1 128) (q : Fin 128) : EReal := X (ix2 (0 : Fin 1) q)
/-- Mean of squares minus squared mean, floored at zero. -/
def varOf (s2 cnt mu : EReal) : EReal := max (Ideal.div s2 cnt - mu * mu) 0

theorem stat_sum34 (q : Fin 128) : rowEntry (W7 m ρ c (Proc.devRef .tc main_v34)) q = colTotal (a := 200) (W6 m ρ c (Proc.devRef .tc main_v20_2)) q := sum_W7_v34 m ρ c q
theorem stat_sum35 (q : Fin 128) : rowEntry (W7 m ρ c (Proc.devRef .tc main_v35)) q = colTotal (a := 200) (W6 m ρ c (Proc.devRef .tc main_v20_3)) q := sum_W7_v35 m ρ c q
theorem stat_mean7 (q : Fin 128) : rowEntry (V7 m ρ c main_v39) q = Ideal.div (colTotal (a := 10) (W6 m ρ c (Proc.devRef .tc main_v33_1)) q) cntN := mean_V7 m ρ c q
theorem stat_var7 (q : Fin 128) : rowEntry (V7 m ρ c main_v45) q = varOf (colTotal (a := 10) (W6 m ρ c (Proc.devRef .tc main_v33_2)) q) cntN (rowEntry (V7 m ρ c main_v39) q) := var_V7 m ρ c q
theorem stat_mean9 (q : Fin 128) : rowEntry (V9 m ρ c main_v50) q = Ideal.div (rowEntry (W8 m ρ c (Proc.devRef .tc main_v34)) q) cntE := mean_V9 m ρ c q
theorem stat_var9 (q : Fin 128) : rowEntry (V9 m ρ c main_v56) q = varOf (rowEntry (W8 m ρ c (Proc.devRef .tc main_v35)) q) cntE (rowEntry (V9 m ρ c main_v50) q) := var_V9 m ρ c q

/-- The node result is `bnOne` of `hRaw` over the 50000 rows, with the node scale and shift and the node features as residual. -/
theorem kernel_nodes (p : Fin 50000) (q : Fin 128) :
    W10 m ρ c (Proc.devRef .tc main_v48) (ix2 p q)
      = bnOne cntN (hRaw Cert.KernelIdeal.scatter_S50000x128_S800000x1_S800000x128_1_0_0_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg14)) (m ((c : Thread nD τ).loc main_arg15)) (m ((c : Thread nD τ).loc main_arg0)) p q := by
  have h : W10 m ρ c (Proc.devRef .tc main_v48)
      = normRows (n := 50000) (V7 m ρ c main_v33_0) (m ((c : Thread nD τ).loc main_arg0)) (V7 m ρ c main_v39) (V7 m ρ c main_v45) (V7 m ρ c main_v46) (V7 m ρ c main_v47) := by
    rw [at_W10_v48 m ρ c, show W8 m ρ c (Proc.devRef .tc main_v48) = (dat3 (V7 m ρ) c).arrAt 6 cfg3.N from W8_arr m ρ c 6,
      final3 (V7 m ρ) c, at_V7_arg0 m ρ c]
  rw [h]
  have hX : ∀ (p : Fin 50000) (q : Fin 128), W6 m ρ c (Proc.devRef .tc main_v33_0) (ix2 p q) = hRaw Cert.KernelIdeal.scatter_S50000x128_S800000x1_S800000x128_1_0_0_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) p q :=
    fun p q => W6_nodeRaw m ρ c p q
  have hmu : ∀ q : Fin 128, V7 m ρ c main_v39 (ix2 (0 : Fin 1) q) = colMean cntN (hRaw Cert.KernelIdeal.scatter_S50000x128_S800000x1_S800000x128_1_0_0_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) q := fun q => by
    refine (stat_mean7 m ρ c q).trans ?_
    rw [(W6_nodeSums m ρ c).1]
    unfold colTotal
    exact colMean_of_bands 10 5000 50000 rfl cntN _ _ hX q
  refine normRows_eq_bnOne cntN _ _ _ _ _ _ _ _ _ (fun p q => ?_) hmu (fun q => ?_) (fun q => row_V7_v46 m ρ c q) (fun q => row_V7_v47 m ρ c q) p q
  · rw [at_V7_v33_0 m ρ c]; exact hX p q
  · refine (stat_var7 m ρ c q).trans ?_
    rw [(W6_nodeSums m ρ c).2]
    unfold varOf colTotal
    exact varOne_of_bands 10 5000 50000 rfl cntN _ _ hX _ q (hmu q)

/-- The edge result is `bnOne` of `eVal` over the 800000 rows, with the edge scale and shift and the edge features as residual. -/
theorem kernel_edges (t : Fin 800000) (q : Fin 128) :
    W10 m ρ c (Proc.devRef .tc main_v59) (ix2 t q)
      = bnOne cntE (eVal (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg16)) (m ((c : Thread nD τ).loc main_arg17)) (m ((c : Thread nD τ).loc main_arg1)) t q := by
  have h : W10 m ρ c (Proc.devRef .tc main_v59)
      = normRows (n := 800000) (V9 m ρ c main_v20_0) (m ((c : Thread nD τ).loc main_arg1)) (V9 m ρ c main_v50) (V9 m ρ c main_v56) (V9 m ρ c main_v57) (V9 m ρ c main_v58) := by
    rw [show W10 m ρ c (Proc.devRef .tc main_v59) = (dat4 (V9 m ρ) c).arrAt 6 cfg4.N from W10_arr m ρ c 6,
      final4 (V9 m ρ) c, at_V9_arg1 m ρ c]
  rw [h]
  have hX : ∀ (t : Fin 800000) (q : Fin 128), W4 m ρ c (Proc.devRef .tc main_v20_0) (ix2 t q) = eVal (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) t q :=
    fun t q => W4_edgePre m ρ c t q
  have hs1 : ∀ q : Fin 128, rowEntry (W8 m ρ c (Proc.devRef .tc main_v34)) q
      = colTotal (a := 200) (bandSums 200 4000 800000 rfl (W4 m ρ c (Proc.devRef .tc main_v20_0))) q := fun q => by
    rw [at_W8_v34 m ρ c]
    refine (stat_sum34 m ρ c q).trans ?_
    rw [at_W6_v20_2 m ρ c, (W4_edgeSums m ρ c).1]
  have hs2 : ∀ q : Fin 128, rowEntry (W8 m ρ c (Proc.devRef .tc main_v35)) q
      = colTotal (a := 200) (bandSums 200 4000 800000 rfl (squares (W4 m ρ c (Proc.devRef .tc main_v20_0)))) q := fun q => by
    rw [at_W8_v35 m ρ c]
    refine (stat_sum35 m ρ c q).trans ?_
    rw [at_W6_v20_3 m ρ c, (W4_edgeSums m ρ c).2]
  have hmu : ∀ q : Fin 128, V9 m ρ c main_v50 (ix2 (0 : Fin 1) q) = colMean cntE (eVal (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) q := fun q => by
    refine (stat_mean9 m ρ c q).trans ?_
    rw [hs1 q]
    unfold colTotal
    exact colMean_of_bands 200 4000 800000 rfl cntE _ _ hX q
  refine normRows_eq_bnOne cntE _ _ _ _ _ _ _ _ _ (fun t q => ?_) hmu (fun q => ?_) (fun q => row_V9_v57 m ρ c q) (fun q => row_V9_v58 m ρ c q) t q
  · rw [at_V9_v20_0 m ρ c]; exact hX t q
  · refine (stat_var9 m ρ c q).trans ?_
    rw [hs2 q]
    unfold varOf colTotal
    exact varOne_of_bands 200 4000 800000 rfl cntE _ _ hX _ q (hmu q)

end Cert.KernelIdeal.Bridge

end
-- ==== Proof.FinalRef.lean ====
/-
  The reference's two result arrays and the precondition, in the specification's terms.

  The idealized reference's results are, index by index, the two-pass normalisation `bnTwo` of `hRaw` and of
  `eVal` of its argument arrays; from a memory that agrees with the kernel program's on the arguments these are
  functions of the kernel program's argument arrays. Under the precondition every float argument entry is a real
  number.
-/
import proofs.«150221_j25598005084171_2_alg».proof.Defs
import proofs.«150221_j25598005084171_2_alg».proof.Proof.Gen.KernelIdeal.Frame
import proofs.«150221_j25598005084171_2_alg».proof.Proof.Gen.ReferenceIdeal.Run
import proofs.«150221_j25598005084171_2_alg».proof.Proof.Gen.ReferenceIdeal.Read
import proofs.«150221_j25598005084171_2_alg».proof.Proof.Gen.Pre_finite_inputs
import proofs.«150221_j25598005084171_2_alg».proof.Proof.Spec
import proofs.«150221_j25598005084171_2_alg».proof.Proof.BnLaw
import proofs.«150221_j25598005084171_2_alg».proof.Proof.Finite
import proofs.«150221_j25598005084171_2_alg».proof.Proof.PreReal
import proofs.«150221_j25598005084171_2_alg».proof.Proof.RefNode
import proofs.«150221_j25598005084171_2_alg».proof.Proof.RefEdgeOut

set_option maxRecDepth 16384

noncomputable section

namespace Cert.Proof.Layer

open Idealize.ShloMosaic Idealize.ShloMosaic.TcCoe Idealize.ShloMosaic.ValueIdx Idealize.SL.Sem
open Cert.Gnn

/-- The two programs' scatter dimension records are the same record. -/
theorem scatterDims_eq : Cert.KernelIdeal.scatter_S50000x128_S800000x1_S800000x128_1_0_0_1 = Cert.ReferenceIdeal.scatter_S50000x128_S800000x1_S800000x128_1_0_0_1 := rfl

section Kernel

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- Under the precondition every float argument array holds real numbers. -/
theorem reals_of_pre (hpre : Cert.Pre_KernelIdeal m) : AllReal (m ((c.tc : Thread Cert.KernelIdeal.nD Cert.KernelIdeal.τ).loc Cert.KernelIdeal.main_arg0)) ∧ AllReal (m ((c.tc : Thread Cert.KernelIdeal.nD Cert.KernelIdeal.τ).loc Cert.KernelIdeal.main_arg1)) ∧ AllReal (m ((c.tc : Thread Cert.KernelIdeal.nD Cert.KernelIdeal.τ).loc Cert.KernelIdeal.main_arg4)) ∧ AllReal (m ((c.tc : Thread Cert.KernelIdeal.nD Cert.KernelIdeal.τ).loc Cert.KernelIdeal.main_arg5)) ∧ AllReal (m ((c.tc : Thread Cert.KernelIdeal.nD Cert.KernelIdeal.τ).loc Cert.KernelIdeal.main_arg6)) ∧ AllReal (m ((c.tc : Thread Cert.KernelIdeal.nD Cert.KernelIdeal.τ).loc Cert.KernelIdeal.main_arg7)) ∧ AllReal (m ((c.tc : Thread Cert.KernelIdeal.nD Cert.KernelIdeal.τ).loc Cert.KernelIdeal.main_arg8)) ∧ AllReal (m ((c.tc : Thread Cert.KernelIdeal.nD Cert.KernelIdeal.τ).loc Cert.KernelIdeal.main_arg9)) ∧ AllReal (m ((c.tc : Thread Cert.KernelIdeal.nD Cert.KernelIdeal.τ).loc Cert.KernelIdeal.main_arg10)) ∧ AllReal (m ((c.tc : Thread Cert.KernelIdeal.nD Cert.KernelIdeal.τ).loc Cert.KernelIdeal.main_arg11)) ∧ AllReal (m ((c.tc : Thread Cert.KernelIdeal.nD Cert.KernelIdeal.τ).loc Cert.KernelIdeal.main_arg12)) ∧ AllReal (m ((c.tc : Thread Cert.KernelIdeal.nD Cert.KernelIdeal.τ).loc Cert.KernelIdeal.main_arg13)) ∧ AllReal (m ((c.tc : Thread Cert.KernelIdeal.nD Cert.KernelIdeal.τ).loc Cert.KernelIdeal.main_arg14)) ∧ AllReal (m ((c.tc : Thread Cert.KernelIdeal.nD Cert.KernelIdeal.τ).loc Cert.KernelIdeal.main_arg15)) ∧ AllReal (m ((c.tc : Thread Cert.KernelIdeal.nD Cert.KernelIdeal.τ).loc Cert.KernelIdeal.main_arg16)) ∧ AllReal (m ((c.tc : Thread Cert.KernelIdeal.nD Cert.KernelIdeal.τ).loc Cert.KernelIdeal.main_arg17)) :=
  allReal_of_pre _ _ _ _ _ _ _ _ _ _ _ _ _ _ _ _ _ _ (hpre c)

end Kernel

section Reference

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The node result the reference ends with, from a memory agreeing with the kernel program's on the arguments. -/
theorem reference_nodes_arr
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))) :
    Cert.ReferenceIdeal.Value.res_main_v117 m' c
      = asMat (bnTwo cntN (hRaw Cert.ReferenceIdeal.scatter_S50000x128_S800000x1_S800000x128_1_0_0_1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg0))) := by
  rw [Cert.ReferenceIdeal.Read.val_main_v117_eq, h0, h1, h2, h3, h4, h5, h6, h7, h8, h9, h10, h11, h12, h13, h14, h15]
  funext i
  obtain ⟨p, q, rfl⟩ : ∃ (p : Fin 50000) (q : Fin 128), i = ix2 p q := ⟨i 0, i 1, eq_ix2 i⟩
  rw [Cert.ReferenceIdeal.RefValue.ref_nodes]
  rfl

/-- The edge result the reference ends with. -/
theorem reference_edges_arr
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (h17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))) :
    Cert.ReferenceIdeal.Value.res_main_v118 m' c
      = asMat (bnTwo cntE (eVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg1))) := by
  rw [Cert.ReferenceIdeal.Read.val_main_v118_eq, h0, h1, h2, h3, h8, h9, h10, h11, h12, h13, h16, h17]
  funext i
  obtain ⟨t, q, rfl⟩ : ∃ (t : Fin 800000) (q : Fin 128), i = ix2 t q := ⟨i 0, i 1, eq_ix2 i⟩
  rw [Cert.ReferenceIdeal.RefValue.ref_edges]
  rfl

end Reference

end Cert.Proof.Layer

end
-- ==== Proof.Final.lean ====
/-
  The two programs end with the same arrays.

  The idealized kernel program's node result is, index by index, the one-pass normalisation `bnOne` of `hRaw`
  and its edge result that of `eVal`; the idealized reference's results are the two-pass normalisation
  `bnTwo` of the same two functions of the same argument arrays. Under the precondition every float argument
  entry is a real number, hence so is every entry of `hRaw` and of `eVal`, and on real columns the two
  normalisations agree. So both programs' results are one array each, and the claim's five parts follow from
  the two runs.
-/
import proofs.«150221_j25598005084171_2_alg».proof.Defs
import proofs.«150221_j25598005084171_2_alg».proof.Proof.Gen.Kernel.Frame
import proofs.«150221_j25598005084171_2_alg».proof.Proof.Gen.KernelIdeal.Frame
import proofs.«150221_j25598005084171_2_alg».proof.Proof.Gen.ReferenceIdeal.Run
import proofs.«150221_j25598005084171_2_alg».proof.Proof.Gen.ReferenceIdeal.Read
import proofs.«150221_j25598005084171_2_alg».proof.Proof.Gen.Pre_finite_inputs
import proofs.«150221_j25598005084171_2_alg».proof.Proof.Spec
import proofs.«150221_j25598005084171_2_alg».proof.Proof.BnLaw
import proofs.«150221_j25598005084171_2_alg».proof.Proof.Finite
import proofs.«150221_j25598005084171_2_alg».proof.Proof.PreReal
import proofs.«150221_j25598005084171_2_alg».proof.Proof.RefNode
import proofs.«150221_j25598005084171_2_alg».proof.Proof.RefEdgeOut
import proofs.«150221_j25598005084171_2_alg».proof.Proof.KRun
import proofs.«150221_j25598005084171_2_alg».proof.Proof.KVal3
import proofs.«150221_j25598005084171_2_alg».proof.Proof.FinalRef

set_option maxRecDepth 16384

noncomputable section

namespace Cert.Proof.Layer

open Idealize.ShloMosaic Idealize.ShloMosaic.TcCoe Idealize.ShloMosaic.ValueIdx Idealize.SL.Sem
open Cert.Gnn

section Kernel

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The node result array the kernel program ends with: the two-pass normalisation of `hRaw`. -/
theorem kernel_nodes_arr (hpre : Cert.Pre_KernelIdeal m) :
    Cert.KernelIdeal.Gen.W10 m ρ c (Proc.devRef .tc Cert.KernelIdeal.main_v48)
      = asMat (bnTwo cntN (hRaw Cert.ReferenceIdeal.scatter_S50000x128_S800000x1_S800000x128_1_0_0_1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg0))) := by
  obtain ⟨r0, r1, r4, r5, r6, r7, r8, r9, r10, r11, r12, r13, r14, r15, r16, r17⟩ := reals_of_pre m c hpre
  funext i
  obtain ⟨p, q, rfl⟩ : ∃ (p : Fin 50000) (q : Fin 128), i = ix2 p q := ⟨i 0, i 1, eq_ix2 i⟩
  rw [Cert.KernelIdeal.Bridge.kernel_nodes m ρ c p q, scatterDims_eq,
    bnOne_eq_bnTwo (by norm_num) cntN (by rw [cntN_eq]; norm_num) _
      (hRaw_real Cert.ReferenceIdeal.scatter_S50000x128_S800000x1_S800000x128_1_0_0_1 _ _ _ _ _ _ _ _ _ _ _ _ _ _ r0 r1 r4 r5 r6 r7 r8 r9 r10 r11 r12 r13)]
  rfl

/-- The edge result array the kernel program ends with: the two-pass normalisation of `eVal`. -/
theorem kernel_edges_arr (hpre : Cert.Pre_KernelIdeal m) :
    Cert.KernelIdeal.Gen.W10 m ρ c (Proc.devRef .tc Cert.KernelIdeal.main_v59)
      = asMat (bnTwo cntE (eVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg1))) := by
  obtain ⟨r0, r1, r4, r5, r6, r7, r8, r9, r10, r11, r12, r13, r14, r15, r16, r17⟩ := reals_of_pre m c hpre
  funext i
  obtain ⟨t, q, rfl⟩ : ∃ (t : Fin 800000) (q : Fin 128), i = ix2 t q := ⟨i 0, i 1, eq_ix2 i⟩
  rw [Cert.KernelIdeal.Bridge.kernel_edges m ρ c t q,
    bnOne_eq_bnTwo (by norm_num) cntE (by rw [cntE_eq]; norm_num) _
      (eVal_real _ _ _ _ _ _ _ _ _ _ r0 r1 r8 r9 r10 r11 r12 r13)]
  rfl

end Kernel

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both idealized programs end with the same two arrays. -/
theorem algebraic : Cert.algebraic_KernelIdeal_ReferenceIdeal := by
  intro m ρ m' ρ' hpre hagree
  refine ⟨fun c => asMat (bnTwo cntN (hRaw Cert.ReferenceIdeal.scatter_S50000x128_S800000x1_S800000x128_1_0_0_1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg0))),
    fun c => asMat (bnTwo cntE (eVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg1))), ?_, ?_⟩
  · exact (θ_run Cert.KernelIdeal.defs _ _).mono
      (fun r h c => ⟨(h c).1.trans (kernel_nodes_arr m ρ c hpre), (h c).2.1.trans (kernel_edges_arr m ρ c hpre), (h c).2.2⟩)
      (Cert.KernelIdeal.Bridge.run_values m ρ)
  · refine (θ_run Cert.ReferenceIdeal.defs _ _).mono (fun r h c => ?_) (Cert.ReferenceIdeal.Value.run (F := Ideal) m' ρ')
    obtain ⟨g0, g1, g2, g3, g4, g5, g6, g7, g8, g9, g10, g11, g12, g13, g14, g15, g16, g17⟩ := hagree c
    exact ⟨(h c).1.trans (reference_nodes_arr m m' c g0 g1 g2 g3 g4 g5 g6 g7 g8 g9 g10 g11 g12 g13 g14 g15),
      (h c).2.1.trans (reference_edges_arr m m' c g0 g1 g2 g3 g8 g9 g10 g11 g12 g13 g16 g17), (h c).2.2⟩

end Cert.Proof.Layer

end
-- ==== Proof.lean ====
/-
  The certificate: a gated graph layer with batch normalisation, computed by five pipelined kernel launches
  among host gathers, scatter-adds and small reductions, equals its plain array-program reference at the exact
  (extended real) values whenever the float inputs are finite.

  The word-level and the idealized kernel programs terminate without a fault and leave their arguments
  unchanged (the generated frame proofs); so does the reference (its generated run). The idealization
  rewrote no operation, so there is nothing to preserve. The two idealized programs compute, entry by entry,
  the same function of the arguments: Proof/Spec.lean states it, Proof/Final.lean assembles the two sides.
-/
import proofs.«150221_j25598005084171_2_alg».proof.Defs
import proofs.«150221_j25598005084171_2_alg».proof.Proof.Gen.Kernel
import proofs.«150221_j25598005084171_2_alg».proof.Proof.Gen.Kernel.Skeleton
import proofs.«150221_j25598005084171_2_alg».proof.Proof.Gen.Kernel.Launch
import proofs.«150221_j25598005084171_2_alg».proof.Proof.Gen.Kernel.Points
import proofs.«150221_j25598005084171_2_alg».proof.Proof.Gen.Kernel.Frame
import proofs.«150221_j25598005084171_2_alg».proof.Proof.Gen.KernelIdeal
import proofs.«150221_j25598005084171_2_alg».proof.Proof.Gen.KernelIdeal.Skeleton
import proofs.«150221_j25598005084171_2_alg».proof.Proof.Gen.KernelIdeal.Launch
import proofs.«150221_j25598005084171_2_alg».proof.Proof.Gen.KernelIdeal.Points
import proofs.«150221_j25598005084171_2_alg».proof.Proof.Gen.KernelIdeal.Frame
import proofs.«150221_j25598005084171_2_alg».proof.Proof.Gen.ReferenceIdeal
import proofs.«150221_j25598005084171_2_alg».proof.Proof.Gen.ReferenceIdeal.Run
import proofs.«150221_j25598005084171_2_alg».proof.Proof.Gen.ReferenceIdeal.Read
import proofs.«150221_j25598005084171_2_alg».proof.Proof.Gen.Pre_finite_inputs
import proofs.«150221_j25598005084171_2_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Layer.frame_kernel, Cert.Proof.Layer.frame_kernelIdeal, Cert.Proof.Layer.frame_referenceIdeal, trivial,
  Cert.Proof.Layer.algebraic⟩

end Cert.Proof

end
